-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x16 .f32) (main_arg3 : FVec F S16 .f32) (main_arg4 : FVec F S16x40 .f32) (main_arg5 : FVec F S40 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S200000x16 : Shape := ⟨2, ![200000, 16]⟩
abbrev S5000x128 : Shape := ⟨2, ![5000, 128]⟩
abbrev S5000x1 : Shape := ⟨2, ![5000, 1]⟩
abbrev S5000x16 : Shape := ⟨2, ![5000, 16]⟩
abbrev S6600000x16 : Shape := ⟨2, ![6600000, 16]⟩
abbrev S1x16 : Shape := ⟨2, ![1, 16]⟩
abbrev S200000x40 : Shape := ⟨2, ![200000, 40]⟩
abbrev S5000x40 : Shape := ⟨2, ![5000, 40]⟩
abbrev S6600000x40 : Shape := ⟨2, ![6600000, 40]⟩
abbrev S1x40 : Shape := ⟨2, ![1, 40]⟩
abbrev S5000 : Shape := ⟨1, ![5000]⟩

abbrev nBuf : Space → Nat
  | .hbm => 59
  | .vmem => 22
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S200000x16, .f32⟩
  | .hbm, ⟨29, _⟩ => ⟨S_, .i32⟩
  | .hbm, ⟨30, _⟩ => ⟨S6600000, .i32⟩
  | .hbm, ⟨31, _⟩ => ⟨S6600000, .i1⟩
  | .hbm, ⟨32, _⟩ => ⟨S_, .i32⟩
  | .hbm, ⟨33, _⟩ => ⟨S6600000, .i32⟩
  | .hbm, ⟨34, _⟩ => ⟨S6600000, .i32⟩
  | .hbm, ⟨35, _⟩ => ⟨S6600000, .i32⟩
  | .hbm, ⟨36, _⟩ => ⟨S6600000x1, .i32⟩
  | .hbm, ⟨37, _⟩ => ⟨S6600000x16, .f32⟩
  | .hbm, ⟨38, _⟩ => ⟨S_, .f32⟩
  | .hbm, ⟨39, _⟩ => ⟨S200000x16, .f32⟩
  | .hbm, ⟨40, _⟩ => ⟨S6600000x1, .i32⟩
  | .hbm, ⟨41, _⟩ => ⟨S200000x16, .f32⟩
  | .hbm, ⟨42, _⟩ => ⟨S1x16, .f32⟩
  | .hbm, ⟨43, _⟩ => ⟨S200000x40, .f32⟩
  | .hbm, ⟨44, _⟩ => ⟨S_, .i32⟩
  | .hbm, ⟨45, _⟩ => ⟨S6600000, .i32⟩
  | .hbm, ⟨46, _⟩ => ⟨S6600000, .i1⟩
  | .hbm, ⟨47, _⟩ => ⟨S_, .i32⟩
  | .hbm, ⟨48, _⟩ => ⟨S6600000, .i32⟩
  | .hbm, ⟨49, _⟩ => ⟨S6600000, .i32⟩
  | .hbm, ⟨50, _⟩ => ⟨S6600000, .i32⟩
  | .hbm, ⟨51, _⟩ => ⟨S6600000x1, .i32⟩
  | .hbm, ⟨52, _⟩ => ⟨S6600000x40, .f32⟩
  | .hbm, ⟨53, _⟩ => ⟨S_, .f32⟩
  | .hbm, ⟨54, _⟩ => ⟨S200000x40, .f32⟩
  | .hbm, ⟨55, _⟩ => ⟨S6600000x1, .i32⟩
  | .hbm, ⟨56, _⟩ => ⟨S200000x40, .f32⟩
  | .hbm, ⟨57, _⟩ => ⟨S1x40, .f32⟩
  | .hbm, ⟨58, _⟩ => ⟨S200000x40, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x1, .f32⟩
  | .local _ .vmem, ⟨18, _⟩ => ⟨S5000x1, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S200000_S200000x1 : S200000.ShapeCasts S200000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S200000x16 : S_.BroadcastsInDim S200000x16 (![] : Fin 0 → Fin S200000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S200000x40 : S_.BroadcastsInDim S200000x40 (![] : Fin 0 → Fin S200000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S200000_S6600000x1_S6600000_n_0_0_1_wf : ScatterDims.WF S200000 S6600000x1 S6600000 [] [0] [0] 1
  dot_S5000x128_S128x16_S5000x16_1_0_0_1_n_n_wf : DotDims.WF S5000x128 S128x16 S5000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S5000x16_S16x40_S5000x40_1_0_0_1_n_n_wf : DotDims.WF S5000x16 S16x40 S5000x40 [1] [0] [0] [1] [] []
  gather_S200000x40_S6600000x1_S6600000x40_1_0_n_n_0_1_140_wf : GatherDims.WF S200000x40 S6600000x1 S6600000x40 [1] [0] [] [0] [] 1 ![1, 40]
  scatter_S200000x40_S6600000x1_S6600000x40_1_0_0_1_wf : ScatterDims.WF S200000x40 S6600000x1 S6600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S200000x16.size a
  hwx0_3 : ∀ i : grid0.Coords, EltTy.bits .f32 = 32 ∨ (Rect.block (s := S200000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S200000x40.size a
  hwx1_4 : ∀ i : grid1.Coords, EltTy.bits .f32 = 32 ∨ (Rect.block (s := S200000x40) S5000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S200000x40.size a
  hwx2_0 : ∀ i : grid2.Coords, EltTy.bits .f32 = 32 ∨ (Rect.block (s := S200000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S200000x1.size a
  hwx2_1 : ∀ i : grid2.Coords, EltTy.bits .f32 = 32 ∨ (Rect.block (s := S200000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S200000x40.size a
  hwx2_3 : ∀ i : grid2.Coords, EltTy.bits .f32 = 32 ∨ (Rect.block (s := S200000x40) S5000x40.size (cc2_transform_3 i) (hinb2_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S200000x40_S6600000x1_S6600000x40_1_0_n_n_0_1_140 : GatherDims S200000x40 S6600000x1 S6600000x40 where
  offsetDims := [1]
  collapsedSliceDims := [0]
  operandBatchingDims := []
  startIndicesBatchingDims := []
  startIndexMap := [0]
  indexVectorDim := 1
  sliceSizes := ![1, 40]
  wf := gather_S200000x40_S6600000x1_S6600000x40_1_0_n_n_0_1_140_wf
def scatter_S200000x40_S6600000x1_S6600000x40_1_0_0_1 : ScatterDims S200000x40 S6600000x1 S6600000x40 where
  updateWindowDims := [1]
  insertedWindowDims := [0]
  scatterDimsToOperandDims := [0]
  indexVectorDim := 1
  wf := scatter_S200000x40_S6600000x1_S6600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S200000x16 : Shape := ⟨2, ![200000, 16]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x40 : Shape := ⟨2, ![200000, 40]⟩
abbrev S6600000x40 : Shape := ⟨2, ![6600000, 40]⟩
abbrev S1x40 : Shape := ⟨2, ![1, 40]⟩
abbrev S200000x1 : Shape := ⟨2, ![200000, 1]⟩

abbrev nBuf : Space → Nat
  | .hbm => 137
  | .vmem => 0
  | .smem => 0
  | _ => 0

abbrev hbmTy0_0 (i : Nat) : BufTy := match i % 128 with
  | 0 => ⟨S200000x128, .f32⟩
  | 1 => ⟨S2x6400000, .i32⟩
  | 2 => ⟨S128x16, .f32⟩
  | 3 => ⟨S16, .f32⟩
  | 4 => ⟨S16x40, .f32⟩
  | 5 => ⟨S40, .f32⟩
  | 6 => ⟨S200000, .i32⟩
  | 7 => ⟨S1x6400000, .i32⟩
  | 8 => ⟨S6400000, .i32⟩
  | 9 => ⟨S6600000, .i32⟩
  | 10 => ⟨S1x6400000, .i32⟩
  | 11 => ⟨S6400000, .i32⟩
  | 12 => ⟨S6600000, .i32⟩
  | 13 => ⟨S200000x16, .f32⟩
  | 14 => ⟨S_, .f32⟩
  | 15 => ⟨S6600000, .f32⟩
  | 16 => ⟨S_, .f32⟩
  | 17 => ⟨S200000, .f32⟩
  | 18 => ⟨S6600000x1, .i32⟩
  | 19 => ⟨S200000, .f32⟩
  | 20 => ⟨S_, .f32⟩
  | 21 => ⟨S200000, .f32⟩
  | 22 => ⟨S200000, .i1⟩
  | 23 => ⟨S200000, .f32⟩
  | 24 => ⟨S_, .f32⟩
  | 25 => ⟨S_, .f32⟩
  | 26 => ⟨S200000, .f32⟩
  | 27 => ⟨S200000, .f32⟩
  | 28 => ⟨S_, .i32⟩
  | 29 => ⟨S6600000, .i32⟩
  | 30 => ⟨S6600000, .i1⟩
  | 31 => ⟨S_, .i32⟩
  | 32 => ⟨S6600000, .i32⟩
  | 33 => ⟨S6600000, .i32⟩
  | 34 => ⟨S6600000, .i32⟩
  | 35 => ⟨S6600000x1, .i32⟩
  | 36 => ⟨S6600000, .f32⟩
  | 37 => ⟨S_, .i32⟩
  | 38 => ⟨S6600000, .i32⟩
  | 39 => ⟨S6600000, .i1⟩
  | 40 => ⟨S_, .i32⟩
  | 41 => ⟨S6600000, .i32⟩
  | 42 => ⟨S6600000, .i32⟩
  | 43 => ⟨S6600000, .i32⟩
  | 44 => ⟨S6600000x1, .i32⟩
  | 45 => ⟨S6600000, .f32⟩
  | 46 => ⟨S6600000, .f32⟩
  | 47 => ⟨S_, .i32⟩
  | 48 => ⟨S6600000, .i32⟩
  | 49 => ⟨S6600000, .i1⟩
  | 50 => ⟨S_, .i32⟩
  | 51 => ⟨S6600000, .i32⟩
  | 52 => ⟨S6600000, .i32⟩
  | 53 => ⟨S6600000, .i32⟩
  | 54 => ⟨S6600000x1, .i32⟩
  | 55 => ⟨S6600000x16, .f32⟩
  | 56 => ⟨S6600000x1, .f32⟩
  | 57 => ⟨S6600000x16, .f32⟩
  | 58 => ⟨S6600000x16, .f32⟩
  | 59 => ⟨S_, .f32⟩
  | 60 => ⟨S200000x16, .f32⟩
  | 61 => ⟨S6600000x1, .i32⟩
  | 62 => ⟨S200000x16, .f32⟩
  | 63 => ⟨S1x16, .f32⟩
  | 64 => ⟨S200000x16, .f32⟩
  | 65 => ⟨S200000x16, .f32⟩
  | 66 => ⟨S_, .f32⟩
  | 67 => ⟨S200000x16, .f32⟩
  | 68 => ⟨S200000x16, .f32⟩
  | 69 => ⟨S200000x40, .f32⟩
  | 70 => ⟨S_, .f32⟩
  | 71 => ⟨S6600000, .f32⟩
  | 72 => ⟨S_, .f32⟩
  | 73 => ⟨S200000, .f32⟩
  | 74 => ⟨S6600000x1, .i32⟩
  | 75 => ⟨S200000, .f32⟩
  | 76 => ⟨S_, .f32⟩
  | 77 => ⟨S200000, .f32⟩
  | 78 => ⟨S200000, .i1⟩
  | 79 => ⟨S200000, .f32⟩
  | 80 => ⟨S_, .f32⟩
  | 81 => ⟨S_, .f32⟩
  | 82 => ⟨S200000, .f32⟩
  | 83 => ⟨S200000, .f32⟩
  | 84 => ⟨S_, .i32⟩
  | 85 => ⟨S6600000, .i32⟩
  | 86 => ⟨S6600000, .i1⟩
  | 87 => ⟨S_, .i32⟩
  | 88 => ⟨S6600000, .i32⟩
  | 89 => ⟨S6600000, .i32⟩
  | 90 => ⟨S6600000, .i32⟩
  | 91 => ⟨S6600000x1, .i32⟩
  | 92 => ⟨S6600000, .f32⟩
  | 93 => ⟨S_, .i32⟩
  | 94 => ⟨S6600000, .i32⟩
  | 95 => ⟨S6600000, .i1⟩
  | 96 => ⟨S_, .i32⟩
  | 97 => ⟨S6600000, .i32⟩
  | 98 => ⟨S6600000, .i32⟩
  | 99 => ⟨S6600000, .i32⟩
  | 100 => ⟨S6600000x1, .i32⟩
  | 101 => ⟨S6600000, .f32⟩
  | 102 => ⟨S6600000, .f32⟩
  | 103 => ⟨S_, .i32⟩
  | 104 => ⟨S6600000, .i32⟩
  | 105 => ⟨S6600000, .i1⟩
  | 106 => ⟨S_, .i32⟩
  | 107 => ⟨S6600000, .i32⟩
  | 108 => ⟨S6600000, .i32⟩
  | 109 => ⟨S6600000, .i32⟩
  | 110 => ⟨S6600000x1, .i32⟩
  | 111 => ⟨S6600000x40, .f32⟩
  | 112 => ⟨S6600000x1, .f32⟩
  | 113 => ⟨S6600000x40, .f32⟩
  | 114 => ⟨S6600000x40, .f32⟩
  | 115 => ⟨S_, .f32⟩
  | 116 => ⟨S200000x40, .f32⟩
  | 117 => ⟨S6600000x1, .i32⟩
  | 118 => ⟨S200000x40, .f32⟩
  | 119 => ⟨S1x40, .f32⟩
  | 120 => ⟨S200000x40, .f32⟩
  | 121 => ⟨S200000x40, .f32⟩
  | 122 => ⟨S_, .f32⟩
  | 123 => ⟨S200000, .f32⟩
  | 124 => ⟨S_, .f32⟩
  | 125 => ⟨S200000, .f32⟩
  | 126 => ⟨S200000, .f32⟩
  | 127 => ⟨S200000x1, .f32⟩
  | _ => ⟨S200000x128, .f32⟩

abbrev hbmTy0_1 (i : Nat) : BufTy := match i % 128 with
  | 0 => ⟨S200000x40, .f32⟩
  | 1 => ⟨S200000x40, .f32⟩
  | 2 => ⟨S200000x40, .f32⟩
  | 3 => ⟨S_, .f32⟩
  | 4 => ⟨S200000, .f32⟩
  | 5 => ⟨S200000x1, .f32⟩
  | 6 => ⟨S200000x1, .f32⟩
  | 7 => ⟨S200000x40, .f32⟩
  | 8 => ⟨S200000x40, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x40_0_1 : S6600000x1.BroadcastsInDim S6600000x40 (![0, 1] : Fin 2 → Fin S6600000x40.rank)
  bcast_S_S200000x40 : S_.BroadcastsInDim S200000x40 (![] : Fin 0 → Fin S200000x40.rank)
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  reducesTo_S200000x40_S200000_d1 : S200000x40.ReducesTo [1] S200000
  h_S_ : 0 < S_.numel
  bcast_S200000_S200000x1_0 : S200000.BroadcastsInDim S200000x1 (![0] : Fin 1 → Fin S200000x1.rank)
  bcast_S200000x1_S200000x40_0_1 : S200000x1.BroadcastsInDim S200000x40 (![0, 1] : Fin 2 → Fin S200000x40.rank)
  dot_S200000x128_S128x16_S200000x16_1_0_0_1_n_n_wf : DotDims.WF S200000x128 S128x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x40_S200000x40_1_0_0_1_n_n_wf : DotDims.WF S200000x16 S16x40 S200000x40 [1] [0] [0] [1] [] []
  gather_S200000x40_S6600000x1_S6600000x40_1_0_n_n_0_1_140_wf : GatherDims.WF S200000x40 S6600000x1 S6600000x40 [1] [0] [] [0] [] 1 ![1, 40]
  scatter_S200000x40_S6600000x1_S6600000x40_1_0_0_1_wf : ScatterDims.WF S200000x40 S6600000x1 S6600000x40 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x40_S200000x40_1_0_0_1_n_n : DotDims S200000x16 S16x40 S200000x40 where
  lhsContracting := [1]
  rhsContracting := [0]
  lhsNonContracting := [0]
  rhsNonContracting := [1]
  lhsBatch := []
  rhsBatch := []
  wf := dot_S200000x16_S16x40_S200000x40_1_0_0_1_n_n_wf
def gather_S200000x40_S6600000x1_S6600000x40_1_0_n_n_0_1_140 : GatherDims S200000x40 S6600000x1 S6600000x40 where
  offsetDims := [1]
  collapsedSliceDims := [0]
  operandBatchingDims := []
  startIndicesBatchingDims := []
  startIndexMap := [0]
  indexVectorDim := 1
  sliceSizes := ![1, 40]
  wf := gather_S200000x40_S6600000x1_S6600000x40_1_0_n_n_0_1_140_wf
def scatter_S200000x40_S6600000x1_S6600000x40_1_0_0_1 : ScatterDims S200000x40 S6600000x1 S6600000x40 where
  updateWindowDims := [1]
  insertedWindowDims := [0]
  scatterDimsToOperandDims := [0]
  indexVectorDim := 1
  wf := scatter_S200000x40_S6600000x1_S6600000x40_1_0_0_1_wf

class Facts : Prop extends Facts₀ where

variable [Facts]
-- ==== Proof.KernelRun.lean ====
/-
  The kernel program's run with its result named: every weakly fair execution of the three tiled stages and the host
  operations around them terminates without a fault, leaves the six argument arrays as launched, and leaves the result
  array holding the last boundary's contents `W8` — the fold that starts from the launch memory, applies each stretch of
  host operations, and at each tiled stage replaces the stage's output array by what its 40 write-backs leave.
  The argument is the frame's: the program is the run of its eight segments, each segment carries "every unscoped
  buffer holds the boundary's contents" to the next boundary, and the last boundary's contents are read off the final
  state buffer by buffer; the result buffer is one more buffer read there.
-/
import proofs.«146948_j85598698209491_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates, nothing faulting; the
    result array ends at the last boundary's contents and every argument array as launched. -/
theorem run : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelFold.lean ====
/-
  The kernel program's buffers at the boundaries between its segments, read back to the launch memory.

  The program is: host operations that build, from the edge array, the column of source rows (negative numbers shifted
  up by the node count, as an index into a table is normalized), the column of target rows, the in-degree of every
  node (ones added at the target rows into zeros), and the per-node scale (the inverse square root of the degree where
  it is positive, zero elsewhere) as a column; then three tiled stages, and between consecutive stages a gather of the
  previous stage's rows at the sources followed by their addition into zeros at the targets. This module names those
  host values as functions of the edge array and says, buffer by buffer, what each boundary holds.
-/
import proofs.«146948_j85598698209491_2_alg».proof.Proof.Gen.KernelIdeal.Frame
import Idealize.ShloMosaic.Lib.StableHlo.Run
import Idealize.ShloMosaic.PureOps.Ideal

set_option maxRecDepth 16384

noncomputable section

namespace Cert.KernelIdeal.FoldValue

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-! ## The host values, as functions of the edge array -/

/-- The source row of every edge: the first row of the edge array, then one self-loop per node. -/
def srcIdx (x1 : (⟨S2x6400000, .i32⟩ : BufTy).Contents (Elt F)) : (⟨S6600000, .i32⟩ : BufTy).Contents (Elt F) :=
  concatenate S6600000 0 [⟨S6400000, shapeCast S6400000 (extractStridedSlice S1x6400000 ![0, 0] x1 slices_S2x6400000_S1x6400000_0_0) shapeCasts_S1x6400000_S6400000⟩, ⟨S200000, iotaInDim S200000 32 0⟩] concatenates_S6400000_S200000_S6600000_d0

/-- The target row of every edge: the second row of the edge array, then one self-loop per node. -/
def dstIdx (x1 : (⟨S2x6400000, .i32⟩ : BufTy).Contents (Elt F)) : (⟨S6600000, .i32⟩ : BufTy).Contents (Elt F) :=
  concatenate S6600000 0 [⟨S6400000, shapeCast S6400000 (extractStridedSlice S1x6400000 ![1, 0] x1 slices_S2x6400000_S1x6400000_1_0) shapeCasts_S1x6400000_S6400000⟩, ⟨S200000, iotaInDim S200000 32 0⟩] concatenates_S6400000_S200000_S6600000_d0

/-- The targets as a column of row numbers (where rows are added). -/
def dstCol (x1 : (⟨S2x6400000, .i32⟩ : BufTy).Contents (Elt F)) : (⟨S6600000x1, .i32⟩ : BufTy).Contents (Elt F) :=
  broadcastInDim S6600000x1 ![0] bcast_S6600000_S6600000x1_0 (dstIdx x1)

/-- The sources as a column of row numbers, a negative number shifted up by the node count (where rows are read). -/
def srcCol (x1 : (⟨S2x6400000, .i32⟩ : BufTy).Contents (Elt F)) : (⟨S6600000x1, .i32⟩ : BufTy).Contents (Elt F) :=
  broadcastInDim S6600000x1 ![0] bcast_S6600000_S6600000x1_0
    (select (cmpi .slt (srcIdx x1) (broadcastInDim S6600000 ![] bcast_S_S6600000 (constantI S_ 32 0#32)))
      (addi (srcIdx x1) (broadcastInDim S6600000 ![] bcast_S_S6600000 (constantI S_ 32 200000#32))) (srcIdx x1))

/-- The in-degree of every node, self-loop counted: ones added at the target rows into zeros. -/
def degree (x1 : (⟨S2x6400000, .i32⟩ : BufTy).Contents (Elt F)) : (⟨S200000, .f32⟩ : BufTy).Contents (Elt F) :=
  Host.scatterAdd (F := F) scatter_S200000_S6600000x1_S6600000_n_0_0_1
    (broadcastInDim S200000 ![] bcast_S_S200000 (constant (F := F) S_ .f32 0x00000000#32)) (dstCol x1)
    (broadcastInDim S6600000 ![] bcast_S_S6600000 (constant (F := F) S_ .f32 0x3F800000#32))

/-- The per-node scale: the inverse square root of the degree where the degree is positive, zero elsewhere. -/
def scale (x1 : (⟨S2x6400000, .i32⟩ : BufTy).Contents (Elt F)) : (⟨S200000, .f32⟩ : BufTy).Contents (Elt F) :=
  select (cmpf (F := F) .ogt (degree x1) (broadcastInDim S200000 ![] bcast_S_S200000 (constant (F := F) S_ .f32 0x00000000#32)))
    (Host.rsqrt (F := F) (φ := .f32) (degree x1)) (broadcastInDim S200000 ![] bcast_S_S200000 (constant (F := F) S_ .f32 0x00000000#32))

/-- The scale as a column, one entry per node. -/
def scaleCol (x1 : (⟨S2x6400000, .i32⟩ : BufTy).Contents (Elt F)) : (⟨S200000x1, .f32⟩ : BufTy).Contents (Elt F) :=
  shapeCast S200000x1 (scale x1) shapeCasts_S200000_S200000x1

/-- Rows of a 16-column table gathered at the sources and added into zeros at the targets. -/
def aggregate16 (x1 : (⟨S2x6400000, .i32⟩ : BufTy).Contents (Elt F)) (tbl : (⟨S200000x16, .f32⟩ : BufTy).Contents (Elt F)) :
    (⟨S200000x16, .f32⟩ : BufTy).Contents (Elt F) :=
  Host.scatterAdd (F := F) scatter_S200000x16_S6600000x1_S6600000x16_1_0_0_1
    (broadcastInDim S200000x16 ![] bcast_S_S200000x16 (constant (F := F) S_ .f32 0x00000000#32)) (dstCol x1)
    (Host.gather gather_S200000x16_S6600000x1_S6600000x16_1_0_n_n_0_1_116 tbl (srcCol x1))

/-- Rows of a 40-column table gathered at the sources and added into zeros at the targets. -/
def aggregate40 (x1 : (⟨S2x6400000, .i32⟩ : BufTy).Contents (Elt F)) (tbl : (⟨S200000x40, .f32⟩ : BufTy).Contents (Elt F)) :
    (⟨S200000x40, .f32⟩ : BufTy).Contents (Elt F) :=
  Host.scatterAdd (F := F) scatter_S200000x40_S6600000x1_S6600000x40_1_0_0_1
    (broadcastInDim S200000x40 ![] bcast_S_S200000x40 (constant (F := F) S_ .f32 0x00000000#32)) (dstCol x1)
    (Host.gather gather_S200000x40_S6600000x1_S6600000x40_1_0_n_n_0_1_140 tbl (srcCol x1))

variable (m : (ℓ : Loc nD τ sig) → Buf (Elt F) ℓ) (ρ : Dev nD → PrngReg) (c : Dev nD)

/-! ## The first stage's entry: after the host operations that build the index columns and the scale -/

theorem entry0_arg0 : W3 m ρ c (Proc.devRef .tc main_arg0) = m ((c : Thread nD τ).loc main_arg0) := by
  dsimp only [W3, W2, W1, hostOps0, hostOps0_1, hostOps0_2]; after_results; try rfl
theorem entry0_arg2 : W3 m ρ c (Proc.devRef .tc main_arg2) = m ((c : Thread nD τ).loc main_arg2) := by
  dsimp only [W3, W2, W1, hostOps0, hostOps0_1, hostOps0_2]; after_results; try rfl
theorem entry0_arg3 : W3 m ρ c (Proc.devRef .tc main_arg3) = m ((c : Thread nD τ).loc main_arg3) := by
  dsimp only [W3, W2, W1, hostOps0, hostOps0_1, hostOps0_2]; after_results; try rfl
theorem entry0_arg4 : W3 m ρ c (Proc.devRef .tc main_arg4) = m ((c : Thread nD τ).loc main_arg4) := by
  dsimp only [W3, W2, W1, hostOps0, hostOps0_1, hostOps0_2]; after_results; try rfl
theorem entry0_arg5 : W3 m ρ c (Proc.devRef .tc main_arg5) = m ((c : Thread nD τ).loc main_arg5) := by
  dsimp only [W3, W2, W1, hostOps0, hostOps0_1, hostOps0_2]; after_results; try rfl
theorem entry0_src : W3 m ρ c (Proc.devRef .tc main_v3) = srcIdx (m ((c : Thread nD τ).loc main_arg1)) := by
  dsimp only [W3, W2, W1, hostOps0, hostOps0_1, hostOps0_2]; after_results; try rfl
theorem entry0_dst : W3 m ρ c (Proc.devRef .tc main_v6) = dstIdx (m ((c : Thread nD τ).loc main_arg1)) := by
  dsimp only [W3, W2, W1, hostOps0, hostOps0_1, hostOps0_2]; after_results; try rfl
/-- After the first stretch: the targets as a column, the degree, its comparison with zero, its inverse square root, and
    the zero that the selection falls back to. -/
theorem first_dstCol : W1 m ρ c (Proc.devRef .tc main_v9) = dstCol (m ((c : Thread nD τ).loc main_arg1)) := by
  dsimp only [W1, hostOps0]; after_results; try rfl
theorem first_degree : W1 m ρ c (Proc.devRef .tc main_v10) = degree (m ((c : Thread nD τ).loc main_arg1)) := by
  dsimp only [W1, hostOps0]; after_results; try rfl
theorem first_positive : W1 m ρ c (Proc.devRef .tc main_v12)
    = cmpf (F := F) .ogt (degree (m ((c : Thread nD τ).loc main_arg1))) (broadcastInDim S200000 ![] bcast_S_S200000 (constant (F := F) S_ .f32 0x00000000#32)) := by
  dsimp only [W1, hostOps0]; after_results; try rfl
theorem first_rsqrt : W1 m ρ c (Proc.devRef .tc main_v13) = Host.rsqrt (F := F) (φ := .f32) (degree (m ((c : Thread nD τ).loc main_arg1))) := by
  dsimp only [W1, hostOps0]; after_results; try rfl
theorem first_zero : W1 m ρ c (Proc.devRef .tc main_cst_2) = constant (F := F) S_ .f32 0x00000000#32 := by
  dsimp only [W1, hostOps0]; after_results; try rfl

/-- After the selection: the scale. The earlier boundary's contents are a variable here, so that only the three
    operations of the selection are looked into. -/
theorem second_scale : W2 m ρ c (Proc.devRef .tc main_v14) = scale (m ((c : Thread nD τ).loc main_arg1)) := by
  have h12 := first_positive m ρ c
  have h13 := first_rsqrt m ρ c
  have hz := first_zero m ρ c
  dsimp only [W2, hostOps0_1]
  generalize W1 m ρ c = V1 at h12 h13 hz ⊢
  after_results
  rw [h12, h13, hz]; rfl

theorem entry0_scale : W3 m ρ c (Proc.devRef .tc main_v15) = scaleCol (m ((c : Thread nD τ).loc main_arg1)) := by
  have h14 := second_scale m ρ c
  dsimp only [W3, hostOps0_2]
  generalize W2 m ρ c = V2 at h14 ⊢
  after_results
  rw [h14]; rfl

/-! ## Across the first stage: its output array is what its write-backs leave; the scale column, which it only reads,
    and every buffer it does not own, are as at its entry -/

theorem exit0_out : W4 m ρ c (Proc.devRef .tc main_v16) = (dat0 (V3 m ρ) c).arrAt 3 cfg0.N := W4_arr m ρ c 3
theorem exit0_scale : W4 m ρ c (Proc.devRef .tc main_v15) = scaleCol (m ((c : Thread nD τ).loc main_arg1)) :=
  ((W4_arr m ρ c 2).trans (((dat0 (V3 m ρ) c).arrAt_in 2 rfl _).trans (A_eq0 (V3 m ρ) c 2))).trans (entry0_scale m ρ c)
theorem exit0_src : W4 m ρ c (Proc.devRef .tc main_v3) = srcIdx (m ((c : Thread nD τ).loc main_arg1)) :=
  (W4_of_ne m ρ c main_v3 (by decide)).trans (entry0_src m ρ c)
theorem exit0_dst : W4 m ρ c (Proc.devRef .tc main_v6) = dstIdx (m ((c : Thread nD τ).loc main_arg1)) :=
  (W4_of_ne m ρ c main_v6 (by decide)).trans (entry0_dst m ρ c)
theorem exit0_arg3 : W4 m ρ c (Proc.devRef .tc main_arg3) = m ((c : Thread nD τ).loc main_arg3) :=
  (W4_of_ne m ρ c main_arg3 (by decide)).trans (entry0_arg3 m ρ c)
theorem exit0_arg4 : W4 m ρ c (Proc.devRef .tc main_arg4) = m ((c : Thread nD τ).loc main_arg4) :=
  (W4_of_ne m ρ c main_arg4 (by decide)).trans (entry0_arg4 m ρ c)
theorem exit0_arg5 : W4 m ρ c (Proc.devRef .tc main_arg5) = m ((c : Thread nD τ).loc main_arg5) :=
  (W4_of_ne m ρ c main_arg5 (by decide)).trans (entry0_arg5 m ρ c)

/-! ## The second stage's entry: the first stage's rows gathered at the sources and added at the targets, the first
    bias as a row, and the rest untouched -/

theorem entry1_raw : W5 m ρ c (Proc.devRef .tc main_v26) = aggregate16 (m ((c : Thread nD τ).loc main_arg1)) (W4 m ρ c (Proc.devRef .tc main_v16)) := by
  dsimp only [W5, hostOps1]; after_results
  rw [exit0_dst m ρ c, exit0_src m ρ c]; rfl
theorem entry1_bias : W5 m ρ c (Proc.devRef .tc main_v27) = shapeCast S1x16 (m ((c : Thread nD τ).loc main_arg3)) shapeCasts_S16_S1x16 := by
  dsimp only [W5, hostOps1]; after_results
  rw [exit0_arg3 m ρ c]; rfl
theorem entry1_scale : W5 m ρ c (Proc.devRef .tc main_v15) = scaleCol (m ((c : Thread nD τ).loc main_arg1)) := by
  dsimp only [W5, hostOps1]; after_results; exact exit0_scale m ρ c
theorem entry1_arg4 : W5 m ρ c (Proc.devRef .tc main_arg4) = m ((c : Thread nD τ).loc main_arg4) := by
  dsimp only [W5, hostOps1]; after_results; exact exit0_arg4 m ρ c
theorem entry1_arg5 : W5 m ρ c (Proc.devRef .tc main_arg5) = m ((c : Thread nD τ).loc main_arg5) := by
  dsimp only [W5, hostOps1]; after_results; exact exit0_arg5 m ρ c
theorem entry1_src : W5 m ρ c (Proc.devRef .tc main_v3) = srcIdx (m ((c : Thread nD τ).loc main_arg1)) := by
  dsimp only [W5, hostOps1]; after_results; exact exit0_src m ρ c
theorem entry1_dst : W5 m ρ c (Proc.devRef .tc main_v6) = dstIdx (m ((c : Thread nD τ).loc main_arg1)) := by
  dsimp only [W5, hostOps1]; after_results; exact exit0_dst m ρ c

/-! ## Across the second stage -/

theorem exit1_out : W6 m ρ c (Proc.devRef .tc main_v28) = (dat1 (V5 m ρ) c).arrAt 4 cfg1.N := W6_arr m ρ c 4
theorem exit1_scale : W6 m ρ c (Proc.devRef .tc main_v15) = scaleCol (m ((c : Thread nD τ).loc main_arg1)) :=
  ((W6_arr m ρ c 1).trans (((dat1 (V5 m ρ) c).arrAt_in 1 rfl _).trans (A_eq1 (V5 m ρ) c 1))).trans (entry1_scale m ρ c)
theorem exit1_src : W6 m ρ c (Proc.devRef .tc main_v3) = srcIdx (m ((c : Thread nD τ).loc main_arg1)) :=
  (W6_of_ne m ρ c main_v3 (by decide)).trans (entry1_src m ρ c)
theorem exit1_dst : W6 m ρ c (Proc.devRef .tc main_v6) = dstIdx (m ((c : Thread nD τ).loc main_arg1)) :=
  (W6_of_ne m ρ c main_v6 (by decide)).trans (entry1_dst m ρ c)
theorem exit1_arg5 : W6 m ρ c (Proc.devRef .tc main_arg5) = m ((c : Thread nD τ).loc main_arg5) :=
  (W6_of_ne m ρ c main_arg5 (by decide)).trans (entry1_arg5 m ρ c)

/-! ## The third stage's entry -/

theorem entry2_raw : W7 m ρ c (Proc.devRef .tc main_v38) = aggregate40 (m ((c : Thread nD τ).loc main_arg1)) (W6 m ρ c (Proc.devRef .tc main_v28)) := by
  dsimp only [W7, hostOps2]; after_results
  rw [exit1_dst m ρ c, exit1_src m ρ c]; rfl
theorem entry2_bias : W7 m ρ c (Proc.devRef .tc main_v39) = shapeCast S1x40 (m ((c : Thread nD τ).loc main_arg5)) shapeCasts_S40_S1x40 := by
  dsimp only [W7, hostOps2]; after_results
  rw [exit1_arg5 m ρ c]; rfl
theorem entry2_scale : W7 m ρ c (Proc.devRef .tc main_v15) = scaleCol (m ((c : Thread nD τ).loc main_arg1)) := by
  dsimp only [W7, hostOps2]; after_results; exact exit1_scale m ρ c

/-! ## The result array: what the third stage's write-backs leave -/

theorem exit2_out : W8 m ρ c (Proc.devRef .tc main_v40) = (dat2 (V7 m ρ) c).arrAt 3 cfg2.N := W8_arr m ρ c 3

end Cert.KernelIdeal.FoldValue

end
-- ==== Proof.Spec.lean ====
/-
  What the three tiled stages of the two-layer graph convolution compute, entry by entry.

  Notation: a table has one row per node `v` and one column per feature `c`; `d` is a column holding one scale per
  node (the inverse square root of the node's in-degree, self-loop counted). All values are extended reals and every
  operation is the exact one.
-/
import Idealize.ShloMosaic.PureOps.Ideal
import Idealize.ShloMosaic.Lib.ValueIdx

noncomputable section

open Idealize.ShloMosaic Idealize.ShloMosaic.ValueIdx
open scoped BigOperators

namespace Cert.Gcn

variable {M K N : ℕ}

/-- The product of a table with a weight matrix, each row then multiplied by that row's scale:
    entry `(v, c)` is `(∑ k, a (v, k) · w (k, c)) · d v`. -/
def scaledMatmul (a : FVec Ideal ⟨2, ![M, K]⟩ .f32) (w : FVec Ideal ⟨2, ![K, N]⟩ .f32)
    (d : FVec Ideal ⟨2, ![M, 1]⟩ .f32) : FVec Ideal ⟨2, ![M, N]⟩ .f32 :=
  fun i => (∑ k : Fin K, a (ix2 (i 0) k) * w (ix2 k (i 1))) * d (ix2 (i 0) 0)

/-- A table scaled row by row and shifted by a bias row: entry `(v, c)` is `raw (v, c) · d v + b c`. -/
def affineRows (raw : FVec Ideal ⟨2, ![M, N]⟩ .f32) (d : FVec Ideal ⟨2, ![M, 1]⟩ .f32)
    (b : FVec Ideal ⟨2, ![1, N]⟩ .f32) : FVec Ideal ⟨2, ![M, N]⟩ .f32 :=
  fun i => raw i * d (ix2 (i 0) 0) + b (ix2 0 (i 1))

/-- The hidden layer's stage: the positive part of the scaled and shifted aggregate, times the second weight matrix,
    each row multiplied by its scale again: entry `(v, c)` is `(∑ k, max (raw (v, k) · d v + b k) 0 · w (k, c)) · d v`. -/
def hiddenLayer (raw : FVec Ideal ⟨2, ![M, K]⟩ .f32) (d : FVec Ideal ⟨2, ![M, 1]⟩ .f32)
    (b : FVec Ideal ⟨2, ![1, K]⟩ .f32) (w : FVec Ideal ⟨2, ![K, N]⟩ .f32) : FVec Ideal ⟨2, ![M, N]⟩ .f32 :=
  fun i => (∑ k : Fin K, max (raw (ix2 (i 0) k) * d (ix2 (i 0) 0) + b (ix2 0 k)) 0 * w (ix2 k (i 1))) * d (ix2 (i 0) 0)

/-- The largest entry of row `v`: the fold of `max` from `-∞` over the row's columns. -/
def rowMax (z : FVec Ideal ⟨2, ![M, N]⟩ .f32) (v : Fin M) : EReal :=
  (Finset.univ : Finset (Fin N)).fold max ⊥ (fun c => z (ix2 v c))

/-- The logarithm of the softmax of each row, in the shifted form: with `m` the row's largest entry, entry `(v, c)` is
    `(z (v, c) − m) − log (∑ c', exp (z (v, c') − m))`. -/
def logSoftmax (z : FVec Ideal ⟨2, ![M, N]⟩ .f32) : FVec Ideal ⟨2, ![M, N]⟩ .f32 :=
  fun i => (z i - rowMax z (i 0)) - Ideal.log (∑ c : Fin N, Ideal.exp (z (ix2 (i 0) c) - rowMax z (i 0)))

end Cert.Gcn

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Region0.lean ====
/-
  The first stage of the two-layer graph convolution, as one function of whole tables.

  The stage walks the 200000 rows in 40 blocks of 5000.  At block `t` it multiplies rows `5000 t … 5000 t + 4999` of the
  input table (128 columns) by the whole 128 x 16 weight matrix and then multiplies each resulting row by that row's
  scale, so entry `(p, q)` of the block is `(∑ k, x (5000 t + p, k) · w (k, q)) · d (5000 t + p)`.  Since the blocks
  tile the rows and each block is written whole, the output table ends up holding, at every entry `(v, c)`,
  `(∑ k, x (v, k) · w (k, c)) · d v`: the scaled product `Cert.Gcn.scaledMatmul` of the three tables the stage reads,
  whatever the buffers held when the stage was entered.

  The steps: the block computation read at one entry (`payload_apply`); the block indices at each of the 40 points
  (`block_indices`); what one point writes back, as a block of the whole-table function (`flushed0_eq`); the blocks
  fill the table (`mem_block0`, `rows_covered`); the whole table (`final0`).
-/
import proofs.«146948_j85598698209491_2_alg».proof.Proof.Gen.KernelIdeal.Frame
import proofs.«146948_j85598698209491_2_alg».proof.Proof.Spec
import proofs.«146948_j85598698209491_2_alg».proof.Proof.LibMatmul
import proofs.«146948_j85598698209491_2_alg».proof.Proof.LibKeepdims
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.ValueIdx
open Idealize.ShloMosaic.TcCoe
open Idealize.ShloMosaic.Pipeline (Dat)
open scoped BigOperators

/-- The block product at an entry: row `p` of the left block against column `q` of the weights, summed over the 128
    shared coordinates, times the scale of row `p`.  Narrowing to the short format is the identity on exact values. -/
theorem payload_apply (x : Vec Ideal S5000x128 .f32) (w : Vec Ideal S128x16 .f32) (dcol : Vec Ideal S5000x1 .f32)
    (p : Fin 5000) (q : Fin 16) :
    k0_pay1 (F := Ideal) x w dcol (ix2 p q)
      = (∑ k : Fin 128, x (ix2 p k) * w (ix2 k q)) * dcol (ix2 p (0 : Fin 1)) := by
  unfold k0_pay1
  have hm := Cert.MatmulAt.matmul_zero_plain_apply (M := 5000) (K := 128) (N := 16)
    dot_S5000x128_S128x16_S5000x16_1_0_0_1_n_n_wf none
    (truncf (F := Ideal) .bf16 x bitsLt_bf16_f32) (truncf (F := Ideal) .bf16 w bitsLt_bf16_f32) p q
  have hs : shapeCast S5000x1 dcol shapeCasts_S5000x1_S5000x1 = dcol := shapeCast_self dcol _
  have hb := Cert.Keepdims.broadcastTo_a1_ab_apply (a := 5000) (b := 16)
    (shapeCast S5000x1 dcol shapeCasts_S5000x1_S5000x1) broadcasts_S5000x1_S5000x16 p q
  exact congr (congrArg HMul.hMul hm) (hb.trans (congrFun hs _))

/-- The zero offsets of a whole-buffer access, as a constant function. -/
theorem zero_offsets : (![0, 0] : Fin 2 → Nat) = fun _ => 0 := funext fun a => by fin_cases a <;> rfl

/-- The block indices over the 40 grid points: the three row-tiled windows sit at row block `t`, column block 0;
    the weight window is its whole array at every point. -/
theorem block_indices : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = t.val ∧ win0_3.index t (1 : Fin 2) = 0 :=
  (by decide +kernel : ∀ t : Fin grid0.N, _)

/-- What grid point `t` writes back is block `t` of the scaled product of the whole arrays: row `p` of the block is
    row `t * 5000 + p` of the tables, and the weights are read whole. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Gcn.scaledMatmul (V c main_arg0) (V c main_arg2) (V c main_v15)) := by
  show (cfg0.win 3).cut (cfg0.grid.coords t) ((dat0 V c).after 3 t) = _
  rw [after0_3]
  unfold out0_3
  rw [View.canon_unit_zero zero_offsets]
  simp only [View.ld_unit_zero (S := S5000x128) zero_offsets, View.ld_unit_zero (S := S128x16) zero_offsets,
    View.ld_unit_zero (S := S5000x1) zero_offsets]
  obtain ⟨i00, i01, i10, i11, i20, i21, i30, i31⟩ := block_indices t
  have ht : t.val < 40 := t.isLt
  funext j
  obtain ⟨p, q, rfl⟩ : ∃ (p : Fin 5000) (q : Fin 16), j = ix2 p q := ⟨j 0, j 1, eq_ix2 j⟩
  have hp : p.val < 5000 := p.isLt
  have hr : t.val * 5000 + p.val < 200000 := by omega
  have e3 : ((cfg0.win 3).blk t).view.emb (ix2 p q) = ix2 (⟨t.val * 5000 + p.val, hr⟩ : Fin 200000) q := by
    funext a; apply Fin.ext
    match a with
    | ⟨0, _⟩ => show win0_3.index t (0 : Fin 2) * 5000 + 1 * p.val = t.val * 5000 + p.val; omega
    | ⟨1, _⟩ => show win0_3.index t (1 : Fin 2) * 16 + 1 * q.val = q.val; omega
  have e0 : ∀ k : Fin 128, ((cfg0.win 0).blk t).view.emb (ix2 p k) = ix2 (⟨t.val * 5000 + p.val, hr⟩ : Fin 200000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have e1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 16 + 1 * q.val = q.val; omega
  have e2 : ((cfg0.win 2).blk t).view.emb (ix2 p (0 : Fin 1)) = ix2 (⟨t.val * 5000 + p.val, hr⟩ : Fin 200000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  show k0_pay1 (F := Ideal) (iblk0 V c 0 t) (iblk0 V c 1 t) (iblk0 V c 2 t) (ix2 p q)
    = Cert.Gcn.scaledMatmul (V c main_arg0) (V c main_arg2) (V c main_v15) (((cfg0.win 3).blk t).view.emb (ix2 p q))
  rw [e3]
  refine (payload_apply (iblk0 V c 0 t) (iblk0 V c 1 t) (iblk0 V c 2 t) p q).trans ?_
  unfold Cert.Gcn.scaledMatmul
  have h0 : ∀ k : Fin 128, iblk0 V c 0 t (ix2 p k) = V c main_arg0 (ix2 (⟨t.val * 5000 + p.val, hr⟩ : Fin 200000) k) := fun k => by
    show V c main_arg0 (((cfg0.win 0).blk t).view.emb (ix2 p k)) = _
    rw [e0 k]
  have h1 : ∀ k : Fin 128, iblk0 V c 1 t (ix2 k q) = V c main_arg2 (ix2 k q) := fun k => by
    show V c main_arg2 (((cfg0.win 1).blk t).view.emb (ix2 k q)) = _
    rw [e1 k]
  have h2 : iblk0 V c 2 t (ix2 p (0 : Fin 1)) = V c main_v15 (ix2 (⟨t.val * 5000 + p.val, hr⟩ : Fin 200000) (0 : Fin 1)) := by
    show V c main_v15 (((cfg0.win 2).blk t).view.emb (ix2 p (0 : Fin 1))) = _
    rw [e2]
  exact congr (congrArg HMul.hMul (Finset.sum_congr rfl fun k _ => congr (congrArg HMul.hMul (h0 k)) (h1 k))) h2

/-- An entry of the output table lies in point `t`'s block exactly when each coordinate lies in the block's range. -/
theorem mem_block0 (t : Fin cfg0.N) (i : S200000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v16).slice (win0_3.rect t)).set ↔ _
  rw [View.set_slice_whole, Rect.mem_set_unit]
  exact Iff.rfl

/-- The 40 row blocks of 5000 fill the 200000 rows: row `r` lies in the block of point `r / 5000`, and every point
    writes its block back. -/
theorem rows_covered (i : S200000x16.Idx) :
    ∃ t : Fin cfg0.N, (cfg0.win 3).flush t = true ∧ i ∈ ((cfg0.win 3).blk t).view.set := by
  have hi0 : (i 0).val < 200000 := (i 0).isLt
  have hi1 : (i 1).val < 16 := (i 1).isLt
  have hq : (i 0).val / 5000 < 40 := by omega
  obtain ⟨-, -, -, -, -, -, i30, i31⟩ := block_indices ⟨(i 0).val / 5000, hq⟩
  have i30' : win0_3.index ⟨(i 0).val / 5000, hq⟩ (0 : Fin 2) = (i 0).val / 5000 := i30
  refine ⟨⟨(i 0).val / 5000, hq⟩, flush0_3 _, ?_⟩
  rw [mem_block0]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    omega
  | ⟨1, _⟩ =>
    show win0_3.index ⟨(i 0).val / 5000, hq⟩ (1 : Fin 2) * 16 ≤ (i 1).val
      ∧ (i 1).val < win0_3.index ⟨(i 0).val / 5000, hq⟩ (1 : Fin 2) * 16 + 16
    omega

/-- After all 40 points the output table is the scaled product of the three tables the stage reads, whatever the
    buffers held on entry. -/
theorem final0 (V : (c : Dev nD) → (b : Ref sig .tc) → Buf (Elt Ideal) ((c : Thread nD τ).loc b)) (c : Dev nD) :
    (Gen.dat0 (F := Ideal) V c).arrAt 3 cfg0.N = Cert.Gcn.scaledMatmul (V c main_arg0) (V c main_arg2) (V c main_v15) :=
  (dat0 (F := Ideal) V c).arrAt_eq_of_cover 3 (Cert.Gcn.scaledMatmul (V c main_arg0) (V c main_arg2) (V c main_v15))
    (fun t _ => flushed0_eq V c t) rows_covered

end Cert.KernelIdeal.RegionValue

end
-- ==== Proof.Region1.lean ====
/-
  The hidden layer's tiled stage, read as one function of whole tables.

  The table of aggregated rows has one row per node and sixteen columns; the stage works through it in forty blocks of
  five thousand consecutive rows. On the block of rows 5000 t … 5000 t + 4999 it takes the same rows of the column of
  node scales, the whole bias row and the whole second weight matrix, and writes rows 5000 t … 5000 t + 4999 of the
  result: row v of the aggregate is multiplied by the scale of v, shifted by the bias, cut below at zero, multiplied
  into the weight matrix, and the resulting row is multiplied by the scale of v again. Since an entry of the result
  depends on its own row of the inputs only, the forty blocks together hold `Cert.Gcn.hiddenLayer` of the four tables,
  whatever the tables are when the stage starts.
-/
import proofs.«146948_j85598698209491_2_alg».proof.Proof.Gen.KernelIdeal.Frame
import proofs.«146948_j85598698209491_2_alg».proof.Proof.Spec
import proofs.«146948_j85598698209491_2_alg».proof.Proof.LibMatmul
import proofs.«146948_j85598698209491_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open scoped BigOperators

/-! ## One block: the value written at entry (p, q) -/

/-- Entry `(p, q)` of what the body writes from its loaded blocks: row `p` of the block `a` is multiplied by the
    scale `dcol (p, 0)`, the bias row `b` is added, the negative part is dropped, and the row is contracted with
    column `q` of `w`; the sum is multiplied by `dcol (p, 0)` once more. A change of number format is the identity
    on extended reals, a column repeated along the rows reads its own row everywhere, a row repeated down the rows
    reads its own column everywhere, and a matrix product into a zero table is the plain sum over the shared axis. -/
theorem pay1_apply (a : Vec Ideal S5000x16 .f32) (dcol : Vec Ideal S5000x1 .f32) (b : Vec Ideal S1x16 .f32)
    (w : Vec Ideal S16x40 .f32) (p : Fin 5000) (q : Fin 40) :
    k1_pay1 (F := Ideal) a dcol b w dcol (ix2 p q)
      = (∑ k : Fin 16, max (a (ix2 p k) * dcol (ix2 p 0) + b (ix2 0 k)) 0 * w (ix2 k q)) * dcol (ix2 p 0) := by
  unfold k1_pay1
  refine (mulf_apply _ _ _).trans (congrArg₂ (· * ·) ?_ ?_)
  · refine (Cert.MatmulAt.matmul_zero_plain_apply dot_S5000x16_S16x40_S5000x40_1_0_0_1_n_n_wf none _ _ p q).trans ?_
    refine Finset.sum_congr rfl fun k _ => congrArg₂ (· * ·) ?_ rfl
    refine (maximumf_apply _ _ _).trans (congrArg₂ max ?_ Ideal.ofBits_zero_f32)
    refine (addf_apply _ _ _).trans (congrArg₂ (· + ·) ((mulf_apply _ _ _).trans (congrArg₂ (· * ·) ?_ ?_)) ?_)
    · rw [shapeCast_self]
    · rw [shapeCast_self]; exact Cert.Keepdims.broadcastTo_a1_ab_apply dcol _ p k
    · rw [shapeCast_self]; exact broadcastTo_1b_ab_apply b _ p k
  · rw [shapeCast_self]; exact Cert.Keepdims.broadcastTo_a1_ab_apply dcol _ p q

/-! ## Where each block sits in its table -/

variable (V : (c : Dev nD) → (b : Ref sig .tc) → Buf (Elt Ideal) ((c : Thread nD τ).loc b))

/-- The all-zero offset of a rank-two rectangle, in the two spellings that occur. -/
theorem origin_zero : (![0, 0] : Fin 2 → Nat) = fun _ => 0 := funext fun a => by fin_cases a <;> rfl

/-- The block index of every table at every one of the forty points: the aggregate, the scale column and the
    result advance one block of rows per point and never move along the columns; the bias row and the weight matrix
    are a single block, always at the origin. -/
theorem blockIndex_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the aggregate's block at point `t` is entry `(5000 t + p, k)` of the aggregate. -/
theorem rawBlock_apply (c : Dev nD) (t : Fin cfg1.N) (p : Fin 5000) (k : Fin 16) (i : S200000x16.Idx)
    (h0 : (i 0).val = t.val * 5000 + p.val) (h1 : (i 1).val = k.val) :
    iblk1 V c 0 t (ix2 p k) = V c main_v26 i := by
  obtain ⟨e0, e1, -⟩ := blockIndex_facts t
  show V c main_v26 (((cfg1.win 0).blk t).view.emb (ix2 p k)) = V c main_v26 i
  refine congrArg _ (funext fun a => Fin.ext ?_)
  match a with
  | ⟨0, _⟩ => show win1_0.index t (0 : Fin 2) * 5000 + 1 * p.val = (i 0).val; omega
  | ⟨1, _⟩ => show win1_0.index t (1 : Fin 2) * 16 + 1 * k.val = (i 1).val; omega

/-- Entry `(p, 0)` of the scale column's block at point `t` is the scale of node `5000 t + p`. -/
theorem scaleBlock1_apply (c : Dev nD) (t : Fin cfg1.N) (p : Fin 5000) (i : S200000x1.Idx)
    (h0 : (i 0).val = t.val * 5000 + p.val) :
    iblk1 V c 1 t (ix2 p 0) = V c main_v15 i := by
  obtain ⟨-, -, e0, e1, -⟩ := blockIndex_facts t
  show V c main_v15 (((cfg1.win 1).blk t).view.emb (ix2 p 0)) = V c main_v15 i
  refine congrArg _ (funext fun a => Fin.ext ?_)
  match a with
  | ⟨0, _⟩ => show win1_1.index t (0 : Fin 2) * 5000 + 1 * p.val = (i 0).val; omega
  | ⟨1, _⟩ => show win1_1.index t (1 : Fin 2) * 1 + 1 * 0 = (i 1).val; have h1 : (i 1).val < 1 := (i 1).isLt; omega

/-- The bias row's block is the bias row, at every point. -/
theorem biasBlock1_apply (c : Dev nD) (t : Fin cfg1.N) (k : Fin 16) :
    iblk1 V c 2 t (ix2 0 k) = V c main_v27 (ix2 0 k) := by
  obtain ⟨-, -, -, -, e0, e1, -⟩ := blockIndex_facts t
  show V c main_v27 (((cfg1.win 2).blk t).view.emb (ix2 0 k)) = V c main_v27 (ix2 0 k)
  refine congrArg _ (funext fun a => Fin.ext ?_)
  match a with
  | ⟨0, _⟩ => show win1_2.index t (0 : Fin 2) * 1 + 1 * 0 = 0; omega
  | ⟨1, _⟩ => show win1_2.index t (1 : Fin 2) * 16 + 1 * k.val = k.val; omega

/-- The weight matrix's block is the weight matrix, at every point. -/
theorem weightBlock_apply (c : Dev nD) (t : Fin cfg1.N) (k : Fin 16) (q : Fin 40) (i : S16x40.Idx)
    (h0 : (i 0).val = k.val) (h1 : (i 1).val = q.val) :
    iblk1 V c 3 t (ix2 k q) = V c main_arg4 i := by
  obtain ⟨-, -, -, -, -, -, e0, e1, -⟩ := blockIndex_facts t
  show V c main_arg4 (((cfg1.win 3).blk t).view.emb (ix2 k q)) = V c main_arg4 i
  refine congrArg _ (funext fun a => Fin.ext ?_)
  match a with
  | ⟨0, _⟩ => show win1_3.index t (0 : Fin 2) * 16 + 1 * k.val = (i 0).val; omega
  | ⟨1, _⟩ => show win1_3.index t (1 : Fin 2) * 40 + 1 * q.val = (i 1).val; omega

/-- The block formula at `(p, q)`, with the four blocks of point `t` in it, is the hidden layer of the four whole
    tables at the entry `I` whose row is `5000 t + p` and whose column is `q`: every factor is the same number, read
    once from a block and once from its table. (The blocks and the tables enter as variables with their defining
    equations, so that the products are products of extended reals from the outset.) -/
theorem blockEntry (c : Dev nD) (t : Fin cfg1.N) (p : Fin 5000) (q : Fin 40) (I : S200000x40.Idx)
    (hr : (I 0).val = t.val * 5000 + p.val) (hq : (I 1).val = q.val)
    (a : Vec Ideal S5000x16 .f32) (dcol : Vec Ideal S5000x1 .f32) (b : Vec Ideal S1x16 .f32) (w : Vec Ideal S16x40 .f32)
    (ha : a = iblk1 V c 0 t) (hd : dcol = iblk1 V c 1 t) (hb : b = iblk1 V c 2 t) (hw : w = iblk1 V c 3 t)
    (raw : FVec Ideal S200000x16 .f32) (d : FVec Ideal S200000x1 .f32) (bias : FVec Ideal S1x16 .f32)
    (wt : FVec Ideal S16x40 .f32)
    (hraw : raw = V c main_v26) (hdd : d = V c main_v15) (hbias : bias = V c main_v27) (hwt : wt = V c main_arg4) :
    (∑ k : Fin 16, max (a (ix2 p k) * dcol (ix2 p 0) + b (ix2 0 k)) 0 * w (ix2 k q)) * dcol (ix2 p 0)
      = Cert.Gcn.hiddenLayer raw d bias wt I := by
  show _ = (∑ k : Fin 16, max (raw (ix2 (I 0) k) * d (ix2 (I 0) 0) + bias (ix2 0 k)) 0 * wt (ix2 k (I 1))) * d (ix2 (I 0) 0)
  subst ha hd hb hw hraw hdd hbias hwt
  refine congrArg₂ (· * ·) (Finset.sum_congr rfl fun k _ => congrArg₂ (· * ·)
    (congrArg₂ max (congrArg₂ (· + ·) (congrArg₂ (· * ·) ?_ ?_) ?_) rfl) ?_) ?_
  · exact rawBlock_apply V c t p k _ hr rfl
  · exact scaleBlock1_apply V c t p _ hr
  · exact biasBlock1_apply V c t k
  · exact weightBlock_apply V c t k q _ rfl hq
  · exact scaleBlock1_apply V c t p _ hr

/-! ## What each point writes back, and the whole result -/

/-- What point `t` writes back is block `t` of the hidden layer of the four tables as the stage finds them. -/
theorem flushed1_eq (c : Dev nD) (t : Fin cfg1.N) :
    (dat1 V c).flushed 4 t = ((cfg1.win 4).blk t).view.read (Elt Ideal)
      (Cert.Gcn.hiddenLayer (V c main_v26) (V c main_v15) (V c main_v27) (V c main_arg4)) := by
  show (cfg1.win 4).cut (cfg1.grid.coords t) ((dat1 V c).after 4 t) = _
  rw [after1_4]
  unfold out1_4
  rw [View.canon_unit_zero origin_zero]
  simp only [View.ld_unit_zero (S := S5000x16) origin_zero, View.ld_unit_zero (S := S5000x1) origin_zero,
    View.ld_unit_zero (S := S1x16) origin_zero, View.ld_unit_zero (S := S16x40) origin_zero]
  obtain ⟨-, -, -, -, -, -, -, -, e40, e41⟩ := blockIndex_facts t
  funext j
  obtain ⟨p, q, rfl⟩ : ∃ (p : Fin 5000) (q : Fin 40), j = ix2 p q := ⟨j 0, j 1, eq_ix2 j⟩
  refine (pay1_apply (iblk1 V c 0 t) (iblk1 V c 1 t) (iblk1 V c 2 t) (iblk1 V c 3 t) p q).trans ?_
  refine blockEntry V c t p q (((cfg1.win 4).blk t).view.emb (ix2 p q)) ?_ ?_ _ _ _ _ rfl rfl rfl rfl _ _ _ _ rfl rfl rfl rfl
  · show win1_4.index t (0 : Fin 2) * 5000 + 1 * p.val = _; omega
  · show win1_4.index t (1 : Fin 2) * 40 + 1 * q.val = _; omega

/-- An entry of the result lies in point `t`'s block exactly when, on each axis, its coordinate lies in the block's
    range there. -/
theorem mem_block1 (t : Fin cfg1.N) (i : S200000x40.Idx) :
    i ∈ ((cfg1.win 4).blk t).view.set ↔ ∀ a : Fin 2, win1_4.index t a * S5000x40.size a ≤ (i a).val
      ∧ (i a).val < win1_4.index t a * S5000x40.size a + S5000x40.size a := by
  show i ∈ ((View.whole main_v28).slice (win1_4.rect t)).set ↔ _
  rw [View.set_slice_whole, Rect.mem_set_unit]
  exact Iff.rfl

/-- Every entry of the result is written: row `r` lies in the block of point `r / 5000`, and every point writes its
    block back. -/
theorem covered1 (i : S200000x40.Idx) :
    ∃ t : Fin cfg1.N, (cfg1.win 4).flush t = true ∧ i ∈ ((cfg1.win 4).blk t).view.set := by
  have hi0 : (i 0).val < 200000 := (i 0).isLt
  have hi1 : (i 1).val < 40 := (i 1).isLt
  have hN : cfg1.N = 40 := N_1
  obtain ⟨t, ht⟩ : ∃ t : Fin cfg1.N, t.val = (i 0).val / 5000 := ⟨⟨(i 0).val / 5000, by omega⟩, rfl⟩
  obtain ⟨-, -, -, -, -, -, -, -, e40, e41⟩ := blockIndex_facts t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 40 ≤ (i 1).val ∧ (i 1).val < win1_4.index t (1 : Fin 2) * 40 + 40
    omega

/-- After the forty points the result table is the hidden layer of the aggregate, the scale column, the bias row and
    the second weight matrix, for any contents of the tables at the start of the stage. -/
theorem final1 (c : Dev nD) :
    (Gen.dat1 (F := Ideal) V c).arrAt 4 cfg1.N
      = Cert.Gcn.hiddenLayer (V c main_v26) (V c main_v15) (V c main_v27) (V c main_arg4) :=
  (dat1 V c).arrAt_eq_of_cover 4 _ (fun t _ => flushed1_eq V c t) covered1

end Cert.KernelIdeal.RegionValue

end
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.Region2Payload.lean ====
/-
  The third tiled stage at one entry.

  On a block of rows the stage forms z = a · d + b (each row of the aggregate a scaled by that row's entry of the column d,
  the bias row b added to every row), takes each row's largest entry m, and leaves (z − m) − log (∑ exp (z − m)) along the
  row.  This file reads that chain of whole-block operations at a single entry (p, q) and finds the shifted
  logarithm of the softmax of the scaled and shifted rows, as the specification states it.

  The steps are stated for a table of any extents A × B: nothing below depends on how many rows a block has.
-/
import proofs.«146948_j85598698209491_2_alg».proof.Proof.Gen.KernelIdeal.Skeleton
import proofs.«146948_j85598698209491_2_alg».proof.Proof.Spec
import proofs.«146948_j85598698209491_2_alg».proof.Proof.LibKeepdims
import proofs.«146948_j85598698209491_2_alg».proof.Proof.LibColumnCasts
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx
open scoped BigOperators

/-- The word of the negative infinity of the 32-bit format denotes the bottom of the extended reals. -/
theorem negInf_word : Ideal.ofBits .f32 0xFF800000#32 = ⊥ := by simp [Ideal.ofBits, Ideal.ieee]

/-- A 1 × B row broadcast down A rows holds, at (p, q), the row's entry (0, q). -/
theorem broadcastTo_1b_ab_apply {α : Type} {A B : ℕ} (v : (⟨2, ![1, B]⟩ : Shape).Idx → α)
    (h : (⟨2, ![1, B]⟩ : Shape).Broadcasts ⟨2, ![A, B]⟩) (p : Fin A) (q : Fin B) :
    broadcastTo ⟨2, ![A, B]⟩ v h (ix2 p q) = v (ix2 (0 : Fin 1) q) := by
  refine broadcastTo_apply v h (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if B = 1 then 0 else q.val
    split
    · have := q.isLt; omega
    · rfl

/-- The lane maximum over the second axis, started from the word of −∞, is at row p the largest entry of that row:
    the fold of max from the bottom over the row's columns. -/
theorem rowMax_apply {A B : ℕ} (src : FVec Ideal ⟨2, ![A, B]⟩ .f32) (h : (⟨2, ![A, B]⟩ : Shape).Reduces [1] ⟨1, ![A]⟩)
    (hφ : FKind.Formats .f32) (hacc : (0xFF800000#32 : BitVec 32) = 0xFF800000#32) (p : Fin A) :
    multiReduction .maximumf [1] ⟨1, ![A]⟩ src 0xFF800000#32 h hφ hacc (ix1 p) = Cert.Gcn.rowMax src p := by
  refine (Ideal.multiReduction_maximumf_single src 0xFF800000#32 h hφ hacc (ix1 p)).trans ?_
  unfold Cert.Gcn.rowMax
  rw [Ideal.ofBits_def, negInf_word]
  show Finset.fold max ⊥ (src ∘ h.lift (ix1 p)) Finset.univ = Finset.fold max ⊥ (fun c => src (ix2 p c)) Finset.univ
  refine congrArg (fun f => Finset.fold max ⊥ f Finset.univ) (funext fun k => ?_)
  exact congrArg src (funext fun d => Fin.ext (by
    match d with
    | ⟨0, _⟩ => rfl
    | ⟨1, _⟩ => rfl))

/-- Scaling the rows and adding the bias row, as the stage spells it with casts and broadcasts, is at (p, q) the entry
    a (p, q) · d (p, 0) + b (0, q) of the specification's affine table. -/
theorem affineOps_apply {A B : ℕ} (a : FVec Ideal ⟨2, ![A, B]⟩ .f32) (dcol : FVec Ideal ⟨2, ![A, 1]⟩ .f32)
    (b : FVec Ideal ⟨2, ![1, B]⟩ .f32)
    (hca : (⟨2, ![A, B]⟩ : Shape).ShapeCasts ⟨2, ![A, B]⟩) (hcd : (⟨2, ![A, 1]⟩ : Shape).ShapeCasts ⟨2, ![A, 1]⟩)
    (hcb : (⟨2, ![1, B]⟩ : Shape).ShapeCasts ⟨2, ![1, B]⟩)
    (hbd : (⟨2, ![A, 1]⟩ : Shape).Broadcasts ⟨2, ![A, B]⟩) (hbb : (⟨2, ![1, B]⟩ : Shape).Broadcasts ⟨2, ![A, B]⟩)
    (p : Fin A) (q : Fin B) :
    addf (mulf (shapeCast ⟨2, ![A, B]⟩ a hca) (broadcastTo ⟨2, ![A, B]⟩ (shapeCast ⟨2, ![A, 1]⟩ dcol hcd) hbd))
        (broadcastTo ⟨2, ![A, B]⟩ (shapeCast ⟨2, ![1, B]⟩ b hcb) hbb) (ix2 p q)
      = Cert.Gcn.affineRows a dcol b (ix2 p q) := by
  show shapeCast ⟨2, ![A, B]⟩ a hca (ix2 p q) * broadcastTo ⟨2, ![A, B]⟩ (shapeCast ⟨2, ![A, 1]⟩ dcol hcd) hbd (ix2 p q)
      + broadcastTo ⟨2, ![A, B]⟩ (shapeCast ⟨2, ![1, B]⟩ b hcb) hbb (ix2 p q)
    = a (ix2 p q) * dcol (ix2 p (0 : Fin 1)) + b (ix2 (0 : Fin 1) q)
  rw [shapeCast_self, shapeCast_self, shapeCast_self, Cert.Keepdims.broadcastTo_a1_ab_apply, broadcastTo_1b_ab_apply]

/-- The row maximum kept as a column and broadcast back along the rows holds, all along row p, that row's largest entry. -/
theorem rowMaxBroadcast_apply {A B : ℕ} (z : FVec Ideal ⟨2, ![A, B]⟩ .f32)
    (hr : (⟨2, ![A, B]⟩ : Shape).Reduces [1] ⟨1, ![A]⟩) (hc : (⟨1, ![A]⟩ : Shape).ShapeCasts ⟨2, ![A, 1]⟩)
    (hb : (⟨2, ![A, 1]⟩ : Shape).Broadcasts ⟨2, ![A, B]⟩) (hφ : FKind.Formats .f32)
    (hmax : (0xFF800000#32 : BitVec 32) = 0xFF800000#32) (p : Fin A) (q : Fin B) :
    broadcastTo ⟨2, ![A, B]⟩ (shapeCast ⟨2, ![A, 1]⟩ (multiReduction .maximumf [1] ⟨1, ![A]⟩ z 0xFF800000#32 hr hφ hmax) hc) hb (ix2 p q)
      = Cert.Gcn.rowMax z p := by
  rw [Cert.Keepdims.broadcastTo_a1_ab_apply, Cert.Keepdims.shapeCast_a_a1_apply, rowMax_apply]

/-- The shifted logarithm of the softmax as the stage spells it: with m the row maxima broadcast back, (z − m) minus the
    broadcast of log of the row sums of exp (z − m), is at (p, q) the specification's entry. -/
theorem logSoftmaxOps_apply {A B : ℕ} (z : FVec Ideal ⟨2, ![A, B]⟩ .f32)
    (hr : (⟨2, ![A, B]⟩ : Shape).Reduces [1] ⟨1, ![A]⟩) (hc : (⟨1, ![A]⟩ : Shape).ShapeCasts ⟨2, ![A, 1]⟩)
    (hb : (⟨2, ![A, 1]⟩ : Shape).Broadcasts ⟨2, ![A, B]⟩) (hφ : FKind.Formats .f32)
    (hmax : (0xFF800000#32 : BitVec 32) = 0xFF800000#32) (hadd : (0x00000000#32 : BitVec 32) = 0x00000000#32)
    (p : Fin A) (q : Fin B) :
    subf (subf z (broadcastTo ⟨2, ![A, B]⟩ (shapeCast ⟨2, ![A, 1]⟩ (multiReduction .maximumf [1] ⟨1, ![A]⟩ z 0xFF800000#32 hr hφ hmax) hc) hb))
        (broadcastTo ⟨2, ![A, B]⟩ (log (shapeCast ⟨2, ![A, 1]⟩ (multiReduction .add [1] ⟨1, ![A]⟩
          (exp (subf z (broadcastTo ⟨2, ![A, B]⟩ (shapeCast ⟨2, ![A, 1]⟩ (multiReduction .maximumf [1] ⟨1, ![A]⟩ z 0xFF800000#32 hr hφ hmax) hc) hb)))
          0x00000000#32 hr hφ hadd) hc)) hb) (ix2 p q)
      = Cert.Gcn.logSoftmax z (ix2 p q) := by
  have hM : ∀ c : Fin B, broadcastTo ⟨2, ![A, B]⟩ (shapeCast ⟨2, ![A, 1]⟩ (multiReduction .maximumf [1] ⟨1, ![A]⟩ z 0xFF800000#32 hr hφ hmax) hc) hb (ix2 p c)
      = Cert.Gcn.rowMax z p := fun c => rowMaxBroadcast_apply z hr hc hb hφ hmax p c
  show (z (ix2 p q) - broadcastTo ⟨2, ![A, B]⟩ (shapeCast ⟨2, ![A, 1]⟩ (multiReduction .maximumf [1] ⟨1, ![A]⟩ z 0xFF800000#32 hr hφ hmax) hc) hb (ix2 p q))
      - broadcastTo ⟨2, ![A, B]⟩ (log (shapeCast ⟨2, ![A, 1]⟩ (multiReduction .add [1] ⟨1, ![A]⟩
          (exp (subf z (broadcastTo ⟨2, ![A, B]⟩ (shapeCast ⟨2, ![A, 1]⟩ (multiReduction .maximumf [1] ⟨1, ![A]⟩ z 0xFF800000#32 hr hφ hmax) hc) hb)))
          0x00000000#32 hr hφ hadd) hc)) hb (ix2 p q)
    = (z (ix2 p q) - Cert.Gcn.rowMax z p) - Ideal.log (∑ c : Fin B, Ideal.exp (z (ix2 p c) - Cert.Gcn.rowMax z p))
  rw [hM q, Cert.Keepdims.broadcastTo_a1_ab_apply]
  show (z (ix2 p q) - Cert.Gcn.rowMax z p)
      - Ideal.log (shapeCast ⟨2, ![A, 1]⟩ (multiReduction .add [1] ⟨1, ![A]⟩
          (exp (subf z (broadcastTo ⟨2, ![A, B]⟩ (shapeCast ⟨2, ![A, 1]⟩ (multiReduction .maximumf [1] ⟨1, ![A]⟩ z 0xFF800000#32 hr hφ hmax) hc) hb)))
          0x00000000#32 hr hφ hadd) hc (ix2 p (0 : Fin 1)))
    = _
  rw [Cert.Keepdims.shapeCast_a_a1_apply, Cert.ColumnCasts.rowSum_apply]
  refine congrArg (fun s => (z (ix2 p q) - Cert.Gcn.rowMax z p) - Ideal.log s) (Finset.sum_congr rfl fun c _ => ?_)
  show Ideal.exp (z (ix2 p c) - broadcastTo ⟨2, ![A, B]⟩ (shapeCast ⟨2, ![A, 1]⟩ (multiReduction .maximumf [1] ⟨1, ![A]⟩ z 0xFF800000#32 hr hφ hmax) hc) hb (ix2 p c))
    = Ideal.exp (z (ix2 p c) - Cert.Gcn.rowMax z p)
  rw [hM c]

/-- The stage's stored value at entry (p, q) of a block: the shifted logarithm of the softmax of the block's scaled and
    shifted rows. -/
theorem k2_pay1_apply (a : Vec Ideal S5000x40 .f32) (dcol : Vec Ideal S5000x1 .f32) (b : Vec Ideal S1x40 .f32)
    (p : Fin 5000) (q : Fin 40) :
    k2_pay1 (F := Ideal) a dcol b (ix2 p q) = Cert.Gcn.logSoftmax (Cert.Gcn.affineRows a dcol b) (ix2 p q) := by
  have hz : addf (mulf (shapeCast S5000x40 a shapeCasts_S5000x40_S5000x40)
        (broadcastTo S5000x40 (shapeCast S5000x1 dcol shapeCasts_S5000x1_S5000x1) broadcasts_S5000x1_S5000x40))
      (broadcastTo S5000x40 (shapeCast S1x40 b shapeCasts_S1x40_S1x40) broadcasts_S1x40_S5000x40)
      = Cert.Gcn.affineRows a dcol b := by
    funext j
    obtain ⟨p', q', rfl⟩ : ∃ (p' : Fin 5000) (q' : Fin 40), j = ix2 p' q' := ⟨j 0, j 1, eq_ix2 j⟩
    exact affineOps_apply a dcol b _ _ _ _ _ p' q'
  unfold k2_pay1
  refine Eq.trans ?_ (logSoftmaxOps_apply (Cert.Gcn.affineRows a dcol b) reduces_S5000x40_S5000 shapeCasts_S5000_S5000x1
    broadcasts_S5000x1_S5000x40 (.inl rfl) rfl rfl p q)
  rw [← hz]

end Cert.KernelIdeal.RegionValue

end
-- ==== Proof.Region2.lean ====
/-
  The third tiled stage as one function of whole arrays.

  The stage visits 40 blocks of 5000 rows.  At block t it reads rows 5000·t … 5000·t + 4999 of the aggregate and of the
  scale column, the whole bias row, and writes the same rows of the result.  The logarithm of the softmax of a row depends
  on that row alone, so what a block's visit leaves in its rows is what the whole-array function has there; the 40 blocks
  cover every row, hence after the last visit the result array is the shifted logarithm of the softmax of the scaled and
  shifted aggregate, whatever the buffers held when the stage was entered.
-/
import proofs.«146948_j85598698209491_2_alg».proof.Proof.Gen.KernelIdeal.Frame
import proofs.«146948_j85598698209491_2_alg».proof.Proof.Spec
import proofs.«146948_j85598698209491_2_alg».proof.Proof.Region2Payload
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)
open scoped BigOperators

/-! ## A row of the logarithm of the softmax depends on that row alone -/

/-- Two tables that agree along one row each have the same largest entry on those rows. -/
theorem rowMax_row_congr {M M' N : ℕ} (z : FVec Ideal ⟨2, ![M, N]⟩ .f32) (z' : FVec Ideal ⟨2, ![M', N]⟩ .f32)
    (v : Fin M) (v' : Fin M') (h : ∀ c : Fin N, z (ix2 v c) = z' (ix2 v' c)) :
    Cert.Gcn.rowMax z v = Cert.Gcn.rowMax z' v' := by
  unfold Cert.Gcn.rowMax
  exact congrArg (fun f => Finset.fold max ⊥ f Finset.univ) (funext h)

/-- and the same entries of the shifted logarithm of the softmax along them. -/
theorem logSoftmax_row_congr {M M' N : ℕ} (z : FVec Ideal ⟨2, ![M, N]⟩ .f32) (z' : FVec Ideal ⟨2, ![M', N]⟩ .f32)
    (v : Fin M) (v' : Fin M') (h : ∀ c : Fin N, z (ix2 v c) = z' (ix2 v' c)) (q : Fin N) :
    Cert.Gcn.logSoftmax z (ix2 v q) = Cert.Gcn.logSoftmax z' (ix2 v' q) := by
  show (z (ix2 v q) - Cert.Gcn.rowMax z v) - Ideal.log (∑ c : Fin N, Ideal.exp (z (ix2 v c) - Cert.Gcn.rowMax z v))
    = (z' (ix2 v' q) - Cert.Gcn.rowMax z' v') - Ideal.log (∑ c : Fin N, Ideal.exp (z' (ix2 v' c) - Cert.Gcn.rowMax z' v'))
  rw [rowMax_row_congr z z' v v' h, h q]
  exact congrArg (fun s => (z' (ix2 v' q) - Cert.Gcn.rowMax z' v') - Ideal.log s)
    (Finset.sum_congr rfl fun c _ => by rw [h c])

/-- The scaled and shifted table at row v reads only row v of the aggregate, entry v of the scale column and the bias row:
    tables, columns and rows that agree there give the same entries along that row. -/
theorem affineRows_row_congr {M M' N : ℕ} (a : FVec Ideal ⟨2, ![M, N]⟩ .f32) (d : FVec Ideal ⟨2, ![M, 1]⟩ .f32)
    (b : FVec Ideal ⟨2, ![1, N]⟩ .f32) (a' : FVec Ideal ⟨2, ![M', N]⟩ .f32) (d' : FVec Ideal ⟨2, ![M', 1]⟩ .f32)
    (b' : FVec Ideal ⟨2, ![1, N]⟩ .f32) (v : Fin M) (v' : Fin M')
    (ha : ∀ k : Fin N, a (ix2 v k) = a' (ix2 v' k)) (hd : d (ix2 v (0 : Fin 1)) = d' (ix2 v' (0 : Fin 1)))
    (hb : ∀ k : Fin N, b (ix2 (0 : Fin 1) k) = b' (ix2 (0 : Fin 1) k)) (k : Fin N) :
    Cert.Gcn.affineRows a d b (ix2 v k) = Cert.Gcn.affineRows a' d' b' (ix2 v' k) := by
  show a (ix2 v k) * d (ix2 v (0 : Fin 1)) + b (ix2 (0 : Fin 1) k)
    = a' (ix2 v' k) * d' (ix2 v' (0 : Fin 1)) + b' (ix2 (0 : Fin 1) k)
  rw [ha k, hd, hb k]

/-! ## The blocks of the four windows -/

variable (V : (c : Dev nD) → (b : Ref sig .tc) → Buf (Elt Ideal) ((c : Thread nD τ).loc b))

/-- The zero offsets of the body's whole-buffer accesses, however spelt. -/
theorem zeroOffsets : (![0, 0] : Fin 2 → Nat) = fun _ => 0 := funext fun a => by fin_cases a <;> rfl

/-- The four windows' index maps over the 40 grid points: the aggregate, the scale column and the result are at row
    block t, column block 0; the bias row is always at block (0, 0). -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, q) of the aggregate's block at point t is entry (5000·t + p, q) of the aggregate. -/
theorem aggregateBlock_apply (c : Dev nD) (t : Fin cfg2.N) (p : Fin 5000) (q : Fin 40) (r : Fin 200000)
    (hr : r.val = t.val * 5000 + p.val) : iblk2 V c 0 t (ix2 p q) = V c main_v38 (ix2 r q) := by
  show V c main_v38 (((cfg2.win 0).blk t).view.emb (ix2 p q)) = _
  obtain ⟨e0, e1, -⟩ := blockIndices t
  refine congrArg (V c main_v38) (funext fun a => Fin.ext ?_)
  match a with
  | ⟨0, _⟩ => show win2_0.index t (0 : Fin 2) * 5000 + 1 * p.val = r.val; omega
  | ⟨1, _⟩ => show win2_0.index t (1 : Fin 2) * 40 + 1 * q.val = q.val; omega

/-- Entry (p, 0) of the scale column's block at point t is entry (5000·t + p, 0) of the column. -/
theorem scaleBlock2_apply (c : Dev nD) (t : Fin cfg2.N) (p : Fin 5000) (r : Fin 200000)
    (hr : r.val = t.val * 5000 + p.val) : iblk2 V c 1 t (ix2 p (0 : Fin 1)) = V c main_v15 (ix2 r (0 : Fin 1)) := by
  show V c main_v15 (((cfg2.win 1).blk t).view.emb (ix2 p (0 : Fin 1))) = _
  obtain ⟨-, -, e0, e1, -⟩ := blockIndices t
  refine congrArg (V c main_v15) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The bias row's block at any point is the bias row. -/
theorem biasBlock2_apply (c : Dev nD) (t : Fin cfg2.N) (q : Fin 40) :
    iblk2 V c 2 t (ix2 (0 : Fin 1) q) = V c main_v39 (ix2 (0 : Fin 1) q) := by
  show V c main_v39 (((cfg2.win 2).blk t).view.emb (ix2 (0 : Fin 1) q)) = _
  obtain ⟨-, -, -, -, e0, e1, -⟩ := blockIndices t
  refine congrArg (V c main_v39) (funext fun a => Fin.ext ?_)
  match a with
  | ⟨0, _⟩ => show win2_2.index t (0 : Fin 2) * 1 + 1 * 0 = 0; omega
  | ⟨1, _⟩ => show win2_2.index t (1 : Fin 2) * 40 + 1 * q.val = q.val; omega

/-! ## What one visit writes back, and the array after the last -/

/-- The whole-array function: the shifted logarithm of the softmax of the scaled and shifted aggregate. -/
abbrev stage2Result (c : Dev nD) : FVec Ideal ⟨2, ![200000, 40]⟩ .f32 :=
  Cert.Gcn.logSoftmax (Cert.Gcn.affineRows (V c main_v38) (V c main_v15) (V c main_v39))

/-- What the visit of point t writes back is block t of the whole-array function. -/
theorem flushed2_eq (c : Dev nD) (t : Fin cfg2.N) :
    (dat2 V c).flushed 3 t = ((cfg2.win 3).blk t).view.read (Elt Ideal) (stage2Result V c) := by
  show (cfg2.win 3).cut (cfg2.grid.coords t) ((dat2 V c).after 3 t) = _
  rw [after2_3]
  unfold out2_3
  rw [View.canon_unit_zero zeroOffsets]
  simp only [View.ld_unit_zero (S := S5000x40) zeroOffsets, View.ld_unit_zero (S := S5000x1) zeroOffsets,
    View.ld_unit_zero (S := S1x40) zeroOffsets]
  funext j
  obtain ⟨p, q, rfl⟩ : ∃ (p : Fin 5000) (q : Fin 40), j = ix2 p q := ⟨j 0, j 1, eq_ix2 j⟩
  obtain ⟨-, -, -, -, -, -, e0, e1⟩ := blockIndices t
  have ht : t.val < 40 := Nat.lt_of_lt_of_eq t.isLt N_2
  let r : Fin 200000 := ⟨t.val * 5000 + p.val, by have := p.isLt; omega⟩
  have hemb : ((cfg2.win 3).blk t).view.emb (ix2 p q) = ix2 r q := funext fun a => Fin.ext (by
    match a with
    | ⟨0, _⟩ => show win2_3.index t (0 : Fin 2) * 5000 + 1 * p.val = t.val * 5000 + p.val; omega
    | ⟨1, _⟩ => show win2_3.index t (1 : Fin 2) * 40 + 1 * q.val = q.val; omega)
  show k2_pay1 (iblk2 V c 0 t) (iblk2 V c 1 t) (iblk2 V c 2 t) (ix2 p q)
    = stage2Result V c (((cfg2.win 3).blk t).view.emb (ix2 p q))
  rw [hemb]
  refine (k2_pay1_apply (iblk2 V c 0 t) (iblk2 V c 1 t) (iblk2 V c 2 t) p q).trans ?_
  exact logSoftmax_row_congr (Cert.Gcn.affineRows (iblk2 V c 0 t) (iblk2 V c 1 t) (iblk2 V c 2 t))
    (Cert.Gcn.affineRows (V c main_v38) (V c main_v15) (V c main_v39)) p r
    (affineRows_row_congr (iblk2 V c 0 t) (iblk2 V c 1 t) (iblk2 V c 2 t) (V c main_v38) (V c main_v15) (V c main_v39) p r
      (fun k => aggregateBlock_apply V c t p k r rfl) (scaleBlock2_apply V c t p r rfl) (fun k => biasBlock2_apply V c t k)) q

/-- An index of the result array is in point t's block iff each coordinate is in the block's range on its axis. -/
theorem mem_block2 (t : Fin cfg2.N) (i : S200000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v40).slice (win2_3.rect t)).set ↔ _
  rw [View.set_slice_whole, Rect.mem_set_unit]
  exact Iff.rfl

/-- Every row of the result lies in the block of the point its row number divided by 5000 names, and that point
    writes back. -/
theorem covered2 (i : S200000x40.Idx) :
    ∃ t : Fin cfg2.N, (cfg2.win 3).flush t = true ∧ i ∈ ((cfg2.win 3).blk t).view.set := by
  have hi0 : (i 0).val < 200000 := (i 0).isLt
  have hi1 : (i 1).val < 40 := (i 1).isLt
  let t : Fin cfg2.N := ⟨(i 0).val / 5000, Nat.lt_of_lt_of_eq (by omega) N_2.symm⟩
  obtain ⟨-, -, -, -, -, -, e0, e1⟩ := blockIndices t
  have ht : t.val = (i 0).val / 5000 := rfl
  refine ⟨t, flush2_3 t, ?_⟩
  rw [mem_block2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-- The result array after the 40 visits: the shifted logarithm of the softmax of the rows of the scaled and shifted
    aggregate, for any contents of the buffers at entry. -/
theorem final2 (c : Dev nD) :
    (Gen.dat2 (F := Ideal) V c).arrAt 3 cfg2.N
      = Cert.Gcn.logSoftmax (Cert.Gcn.affineRows (V c main_v38) (V c main_v15) (V c main_v39)) :=
  (dat2 V c).arrAt_eq_of_cover 3 (stage2Result V c) (fun t _ => flushed2_eq V c t) covered2

end Cert.KernelIdeal.RegionValue

end
-- ==== Proof.KernelValue.lean ====
/-
  The kernel program's result as one expression of the launch memory.

  Reading the boundaries back from the end: the result array is what the third stage leaves, the log-softmax of the rows of
  (its aggregated input scaled by the node scale, plus the second bias); that aggregated input is the second stage's
  rows gathered at the sources and added at the targets; the second stage's output is the hidden layer of the first
  aggregate; and the first aggregate is the first stage's rows — the scaled product of the features with the first
  weights — gathered and added the same way.
-/
import proofs.«146948_j85598698209491_2_alg».proof.Proof.KernelFold
import proofs.«146948_j85598698209491_2_alg».proof.Proof.Region0
import proofs.«146948_j85598698209491_2_alg».proof.Proof.Region1
import proofs.«146948_j85598698209491_2_alg».proof.Proof.Region2
import proofs.«146948_j85598698209491_2_alg».proof.Proof.Spec

set_option maxRecDepth 16384

noncomputable section

namespace Cert.KernelIdeal.FoldValue

open Cert.KernelIdeal Cert.KernelIdeal.Gen Cert.KernelIdeal.RegionValue Idealize.ShloMosaic Idealize.ShloMosaic.TcCoe Idealize.SL.Sem

variable (m : (ℓ : Loc nD τ sig) → Buf (Elt Ideal) ℓ) (ρ : Dev nD → PrngReg) (c : Dev nD)

/-- The first stage's rows: the product of the features with the first weights, each row scaled by its node's scale. -/
def firstRows : (⟨S200000x16, .f32⟩ : BufTy).Contents (Elt Ideal) :=
  Cert.Gcn.scaledMatmul (m ((c : Thread nD τ).loc main_arg0)) (m ((c : Thread nD τ).loc main_arg2)) (scaleCol (F := Ideal) (m ((c : Thread nD τ).loc main_arg1)))

/-- The second stage's rows: the hidden layer of the first aggregate. -/
def secondRows : (⟨S200000x40, .f32⟩ : BufTy).Contents (Elt Ideal) :=
  Cert.Gcn.hiddenLayer (aggregate16 (F := Ideal) (m ((c : Thread nD τ).loc main_arg1)) (firstRows m c)) (scaleCol (F := Ideal) (m ((c : Thread nD τ).loc main_arg1)))
    (shapeCast S1x16 (m ((c : Thread nD τ).loc main_arg3)) shapeCasts_S16_S1x16) (m ((c : Thread nD τ).loc main_arg4))

/-- The result: the log-softmax of the rows of the second aggregate, scaled and shifted by the second bias. -/
def resultRows : (⟨S200000x40, .f32⟩ : BufTy).Contents (Elt Ideal) :=
  Cert.Gcn.logSoftmax (Cert.Gcn.affineRows (aggregate40 (F := Ideal) (m ((c : Thread nD τ).loc main_arg1)) (secondRows m c)) (scaleCol (F := Ideal) (m ((c : Thread nD τ).loc main_arg1)))
    (shapeCast S1x40 (m ((c : Thread nD τ).loc main_arg5)) shapeCasts_S40_S1x40))

theorem first_stage : W4 (F := Ideal) m ρ c (Proc.devRef .tc main_v16) = firstRows m c := by
  rw [exit0_out m ρ c, final0 (V3 m ρ) c]
  show Cert.Gcn.scaledMatmul (W3 m ρ c (Proc.devRef .tc main_arg0)) (W3 m ρ c (Proc.devRef .tc main_arg2)) (W3 m ρ c (Proc.devRef .tc main_v15)) = _
  rw [entry0_arg0 m ρ c, entry0_arg2 m ρ c, entry0_scale m ρ c]; rfl

theorem second_stage : W6 (F := Ideal) m ρ c (Proc.devRef .tc main_v28) = secondRows m c := by
  rw [exit1_out m ρ c, final1 (V5 m ρ) c]
  show Cert.Gcn.hiddenLayer (W5 m ρ c (Proc.devRef .tc main_v26)) (W5 m ρ c (Proc.devRef .tc main_v15)) (W5 m ρ c (Proc.devRef .tc main_v27)) (W5 m ρ c (Proc.devRef .tc main_arg4)) = _
  rw [entry1_raw m ρ c, entry1_scale m ρ c, entry1_bias m ρ c, entry1_arg4 m ρ c, first_stage m ρ c]; rfl

theorem third_stage : W8 (F := Ideal) m ρ c (Proc.devRef .tc main_v40) = resultRows m c := by
  rw [exit2_out m ρ c, final2 (V7 m ρ) c]
  show Cert.Gcn.logSoftmax (Cert.Gcn.affineRows (W7 m ρ c (Proc.devRef .tc main_v38)) (W7 m ρ c (Proc.devRef .tc main_v15)) (W7 m ρ c (Proc.devRef .tc main_v39))) = _
  rw [entry2_raw m ρ c, entry2_scale m ρ c, entry2_bias m ρ c, second_stage m ρ c]; rfl

end Cert.KernelIdeal.FoldValue

end
-- ==== Proof.RefRunValue.lean ====
/-
  The reference program's run, read back a stretch of operations at a time.

  The reference program is a straight line of 131 host operations, each writing one buffer that no other operation
  writes. Running the line from any contents of the buffers leaves, in the buffer an operation writes, that operation's
  function applied to what its operand buffers held, and leaves every other buffer as it was. This module cuts the line
  into seven consecutive stretches, chosen where few buffers are still needed later:

    the edge columns, the first product and the per-node scale;
    the scale gathered at both ends of every edge and the product of the two;
    the first layer's rows gathered, scaled and added at the targets, then the bias and the positive part;
    the second product and the scale computed a second time;
    the scale gathered at both ends of every edge and the product of the two, again;
    the second layer's rows gathered, scaled and added at the targets, then the bias;
    the shifted logarithm of the softmax of every row.

  For each stretch, and each buffer still needed after it, one lemma says that the buffer then holds the stage value of
  the operation that wrote it, as a function of the six argument buffers' contents at the start. A stretch's lemmas use
  the previous stretch's, so that no step ever looks at more than one stretch of operations. The last stretch's lemma is
  the value of the result buffer; with the library's run of a line of host operations it gives the run of the program.
-/
import proofs.«146948_j85598698209491_2_alg».proof.Proof.RefRun
import proofs.«146948_j85598698209491_2_alg».proof.Proof.RefRead
import Idealize.ShloMosaic.Lib.StableHlo.Run
import Idealize.ShloMosaic.PureOps.Ideal

set_option maxRecDepth 16384

noncomputable section

namespace Cert.ReferenceIdeal.RunValue

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The seven stretches -/

/-- The edge columns (sources and targets, a self-loop per node appended), the first product, the in-degree and the per-node scale. -/
abbrev opsA : List (HloOp τ sig (Elt F)) :=
  [ nullary main_v0 (iotaInDim S200000 32 0),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    unary main_arg1 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    binary main_arg0 main_arg2 main_v7 ((fun l r => Host.dotGeneral dot_S200000x128_S128x16_S200000x16_1_0_0_1_n_n none l r) : (⟨S200000x128, .f32⟩ : BufTy).Contents (Elt F) → (⟨S128x16, .f32⟩ : BufTy).Contents (Elt F) → (⟨S200000x16, .f32⟩ : BufTy).Contents (Elt F)),
    nullary main_cst (constant S_ .f32 0x3F800000#32),
    unary main_cst main_v8 (broadcastInDim S6600000 ![] bcast_S_S6600000 : (⟨S_, .f32⟩ : BufTy).Contents (Elt F) → (⟨S6600000, .f32⟩ : BufTy).Contents (Elt F)),
    nullary main_cst_0 (constant S_ .f32 0x00000000#32),
    unary main_cst_0 main_v9 (broadcastInDim S200000 ![] bcast_S_S200000 : (⟨S_, .f32⟩ : BufTy).Contents (Elt F) → (⟨S200000, .f32⟩ : BufTy).Contents (Elt F)),
    unary main_v6 main_v10 (broadcastInDim S6600000x1 ![0] bcast_S6600000_S6600000x1_0 : (⟨S6600000, .i32⟩ : BufTy).Contents (Elt F) → (⟨S6600000x1, .i32⟩ : BufTy).Contents (Elt F)),
    ternary main_v9 main_v10 main_v8 main_v11 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_1 (constant S_ .f32 0x00000000#32),
    unary main_cst_1 main_v12 (broadcastInDim S200000 ![] bcast_S_S200000 : (⟨S_, .f32⟩ : BufTy).Contents (Elt F) → (⟨S200000, .f32⟩ : BufTy).Contents (Elt F)),
    binary main_v11 main_v12 main_v13 (cmpf .ogt : (⟨S200000, .f32⟩ : BufTy).Contents (Elt F) → (⟨S200000, .f32⟩ : BufTy).Contents (Elt F) → (⟨S200000, .i1⟩ : BufTy).Contents (Elt F)),
    unary main_v11 main_v14 (Host.rsqrt : (⟨S200000, .f32⟩ : BufTy).Contents (Elt F) → (⟨S200000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v13) (TRef.of (T := ⟨S200000, .f32⟩) main_v14) (TRef.of (T := ⟨S200000, .f32⟩) main_call0_v1) (TRef.of (T := ⟨S200000, .f32⟩) main_v15) select ]

/-- The scale gathered at the source and at the target of every edge (a negative row number shifted up by the node count), and the product of the two. -/
abbrev opsB1 : List (HloOp τ sig (Elt F)) :=
  [ nullary main_c (constantI S_ 32 0#32),
    unary main_c main_v16 (broadcastInDim S6600000 ![] bcast_S_S6600000 : (⟨S_, .i32⟩ : BufTy).Contents (Elt F) → (⟨S6600000, .i32⟩ : BufTy).Contents (Elt F)),
    binary main_v3 main_v16 main_v17 (cmpi .slt : (⟨S6600000, .i32⟩ : BufTy).Contents (Elt F) → (⟨S6600000, .i32⟩ : BufTy).Contents (Elt F) → (⟨S6600000, .i1⟩ : BufTy).Contents (Elt F)),
    nullary main_c_3 (constantI S_ 32 200000#32),
    unary main_c_3 main_v18 (broadcastInDim S6600000 ![] bcast_S_S6600000 : (⟨S_, .i32⟩ : BufTy).Contents (Elt F) → (⟨S6600000, .i32⟩ : BufTy).Contents (Elt F)),
    binary main_v3 main_v18 main_v19 (addi : (⟨S6600000, .i32⟩ : BufTy).Contents (Elt F) → (⟨S6600000, .i32⟩ : BufTy).Contents (Elt F) → (⟨S6600000, .i32⟩ : BufTy).Contents (Elt F)),
    ternary main_v17 main_v19 main_v3 main_v20 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v20 main_v21 (broadcastInDim S6600000x1 ![0] bcast_S6600000_S6600000x1_0 : (⟨S6600000, .i32⟩ : BufTy).Contents (Elt F) → (⟨S6600000x1, .i32⟩ : BufTy).Contents (Elt F)),
    binary main_v15 main_v21 main_v22 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_4 (constantI S_ 32 0#32),
    unary main_c_4 main_v23 (broadcastInDim S6600000 ![] bcast_S_S6600000 : (⟨S_, .i32⟩ : BufTy).Contents (Elt F) → (⟨S6600000, .i32⟩ : BufTy).Contents (Elt F)),
    binary main_v6 main_v23 main_v24 (cmpi .slt : (⟨S6600000, .i32⟩ : BufTy).Contents (Elt F) → (⟨S6600000, .i32⟩ : BufTy).Contents (Elt F) → (⟨S6600000, .i1⟩ : BufTy).Contents (Elt F)),
    nullary main_c_5 (constantI S_ 32 200000#32),
    unary main_c_5 main_v25 (broadcastInDim S6600000 ![] bcast_S_S6600000 : (⟨S_, .i32⟩ : BufTy).Contents (Elt F) → (⟨S6600000, .i32⟩ : BufTy).Contents (Elt F)),
    binary main_v6 main_v25 main_v26 (addi : (⟨S6600000, .i32⟩ : BufTy).Contents (Elt F) → (⟨S6600000, .i32⟩ : BufTy).Contents (Elt F) → (⟨S6600000, .i32⟩ : BufTy).Contents (Elt F)),
    ternary main_v24 main_v26 main_v6 main_v27 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v27 main_v28 (broadcastInDim S6600000x1 ![0] bcast_S6600000_S6600000x1_0 : (⟨S6600000, .i32⟩ : BufTy).Contents (Elt F) → (⟨S6600000x1, .i32⟩ : BufTy).Contents (Elt F)),
    binary main_v15 main_v28 main_v29 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v22 main_v29 main_v30 (mulf : (⟨S6600000, .f32⟩ : BufTy).Contents (Elt F) → (⟨S6600000, .f32⟩ : BufTy).Contents (Elt F) → (⟨S6600000, .f32⟩ : BufTy).Contents (Elt F)) ]

/-- The first product's rows gathered at the sources, multiplied by the edge's scale product, added into zeros at the targets; then the bias and the positive part. -/
abbrev opsB2 : List (HloOp τ sig (Elt F)) :=
  [ nullary main_c_6 (constantI S_ 32 0#32),
    unary main_c_6 main_v31 (broadcastInDim S6600000 ![] bcast_S_S6600000 : (⟨S_, .i32⟩ : BufTy).Contents (Elt F) → (⟨S6600000, .i32⟩ : BufTy).Contents (Elt F)),
    binary main_v3 main_v31 main_v32 (cmpi .slt : (⟨S6600000, .i32⟩ : BufTy).Contents (Elt F) → (⟨S6600000, .i32⟩ : BufTy).Contents (Elt F) → (⟨S6600000, .i1⟩ : BufTy).Contents (Elt F)),
    nullary main_c_7 (constantI S_ 32 200000#32),
    unary main_c_7 main_v33 (broadcastInDim S6600000 ![] bcast_S_S6600000 : (⟨S_, .i32⟩ : BufTy).Contents (Elt F) → (⟨S6600000, .i32⟩ : BufTy).Contents (Elt F)),
    binary main_v3 main_v33 main_v34 (addi : (⟨S6600000, .i32⟩ : BufTy).Contents (Elt F) → (⟨S6600000, .i32⟩ : BufTy).Contents (Elt F) → (⟨S6600000, .i32⟩ : BufTy).Contents (Elt F)),
    ternary main_v32 main_v34 main_v3 main_v35 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v35 main_v36 (broadcastInDim S6600000x1 ![0] bcast_S6600000_S6600000x1_0 : (⟨S6600000, .i32⟩ : BufTy).Contents (Elt F) → (⟨S6600000x1, .i32⟩ : BufTy).Contents (Elt F)),
    binary main_v7 main_v36 main_v37 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    unary main_v30 main_v38 (broadcastInDim S6600000x1 ![0] bcast_S6600000_S6600000x1_0 : (⟨S6600000, .f32⟩ : BufTy).Contents (Elt F) → (⟨S6600000x1, .f32⟩ : BufTy).Contents (Elt F)),
    unary main_v38 main_v39 (broadcastInDim S6600000x16 ![0, 1] bcast_S6600000x1_S6600000x16_0_1 : (⟨S6600000x1, .f32⟩ : BufTy).Contents (Elt F) → (⟨S6600000x16, .f32⟩ : BufTy).Contents (Elt F)),
    binary main_v37 main_v39 main_v40 (mulf : (⟨S6600000x16, .f32⟩ : BufTy).Contents (Elt F) → (⟨S6600000x16, .f32⟩ : BufTy).Contents (Elt F) → (⟨S6600000x16, .f32⟩ : BufTy).Contents (Elt F)),
    nullary main_cst_8 (constant S_ .f32 0x00000000#32),
    unary main_cst_8 main_v41 (broadcastInDim S200000x16 ![] bcast_S_S200000x16 : (⟨S_, .f32⟩ : BufTy).Contents (Elt F) → (⟨S200000x16, .f32⟩ : BufTy).Contents (Elt F)),
    unary main_v6 main_v42 (broadcastInDim S6600000x1 ![0] bcast_S6600000_S6600000x1_0 : (⟨S6600000, .i32⟩ : BufTy).Contents (Elt F) → (⟨S6600000x1, .i32⟩ : BufTy).Contents (Elt F)),
    ternary main_v41 main_v42 main_v40 main_v43 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S200000x16 ![0, 1] bcast_S1x16_S200000x16_0_1 : (⟨S1x16, .f32⟩ : BufTy).Contents (Elt F) → (⟨S200000x16, .f32⟩ : BufTy).Contents (Elt F)),
    binary main_v43 main_v45 main_v46 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v46) (TRef.of (T := ⟨S200000x16, .f32⟩) main_call1_v0) (TRef.of (T := ⟨S200000x16, .f32⟩) main_v47) maximumf ]

/-- The second product, and the in-degree and the scale computed a second time. -/
abbrev opsC : List (HloOp τ sig (Elt F)) :=
  [ binary main_v47 main_arg4 main_v48 ((fun l r => Host.dotGeneral dot_S200000x16_S16x40_S200000x40_1_0_0_1_n_n none l r) : (⟨S200000x16, .f32⟩ : BufTy).Contents (Elt F) → (⟨S16x40, .f32⟩ : BufTy).Contents (Elt F) → (⟨S200000x40, .f32⟩ : BufTy).Contents (Elt F)),
    nullary main_cst_9 (constant S_ .f32 0x3F800000#32),
    unary main_cst_9 main_v49 (broadcastInDim S6600000 ![] bcast_S_S6600000 : (⟨S_, .f32⟩ : BufTy).Contents (Elt F) → (⟨S6600000, .f32⟩ : BufTy).Contents (Elt F)),
    nullary main_cst_10 (constant S_ .f32 0x00000000#32),
    unary main_cst_10 main_v50 (broadcastInDim S200000 ![] bcast_S_S200000 : (⟨S_, .f32⟩ : BufTy).Contents (Elt F) → (⟨S200000, .f32⟩ : BufTy).Contents (Elt F)),
    unary main_v6 main_v51 (broadcastInDim S6600000x1 ![0] bcast_S6600000_S6600000x1_0 : (⟨S6600000, .i32⟩ : BufTy).Contents (Elt F) → (⟨S6600000x1, .i32⟩ : BufTy).Contents (Elt F)),
    ternary main_v50 main_v51 main_v49 main_v52 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_11 (constant S_ .f32 0x00000000#32),
    unary main_cst_11 main_v53 (broadcastInDim S200000 ![] bcast_S_S200000 : (⟨S_, .f32⟩ : BufTy).Contents (Elt F) → (⟨S200000, .f32⟩ : BufTy).Contents (Elt F)),
    binary main_v52 main_v53 main_v54 (cmpf .ogt : (⟨S200000, .f32⟩ : BufTy).Contents (Elt F) → (⟨S200000, .f32⟩ : BufTy).Contents (Elt F) → (⟨S200000, .i1⟩ : BufTy).Contents (Elt F)),
    unary main_v52 main_v55 (Host.rsqrt : (⟨S200000, .f32⟩ : BufTy).Contents (Elt F) → (⟨S200000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S200000, .f32⟩) main_call2_v1) (broadcastInDim S200000 ![] bcast_S_S200000),
    TRef.ternary (TRef.of (T := ⟨S200000, .i1⟩) main_v54) (TRef.of (T := ⟨S200000, .f32⟩) main_v55) (TRef.of (T := ⟨S200000, .f32⟩) main_call2_v1) (TRef.of (T := ⟨S200000, .f32⟩) main_v56) select ]

/-- The second scale gathered at the source and at the target of every edge, and the product of the two. -/
abbrev opsD1 : List (HloOp τ sig (Elt F)) :=
  [ nullary main_c_13 (constantI S_ 32 0#32),
    unary main_c_13 main_v57 (broadcastInDim S6600000 ![] bcast_S_S6600000 : (⟨S_, .i32⟩ : BufTy).Contents (Elt F) → (⟨S6600000, .i32⟩ : BufTy).Contents (Elt F)),
    binary main_v3 main_v57 main_v58 (cmpi .slt : (⟨S6600000, .i32⟩ : BufTy).Contents (Elt F) → (⟨S6600000, .i32⟩ : BufTy).Contents (Elt F) → (⟨S6600000, .i1⟩ : BufTy).Contents (Elt F)),
    nullary main_c_14 (constantI S_ 32 200000#32),
    unary main_c_14 main_v59 (broadcastInDim S6600000 ![] bcast_S_S6600000 : (⟨S_, .i32⟩ : BufTy).Contents (Elt F) → (⟨S6600000, .i32⟩ : BufTy).Contents (Elt F)),
    binary main_v3 main_v59 main_v60 (addi : (⟨S6600000, .i32⟩ : BufTy).Contents (Elt F) → (⟨S6600000, .i32⟩ : BufTy).Contents (Elt F) → (⟨S6600000, .i32⟩ : BufTy).Contents (Elt F)),
    ternary main_v58 main_v60 main_v3 main_v61 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v61 main_v62 (broadcastInDim S6600000x1 ![0] bcast_S6600000_S6600000x1_0 : (⟨S6600000, .i32⟩ : BufTy).Contents (Elt F) → (⟨S6600000x1, .i32⟩ : BufTy).Contents (Elt F)),
    binary main_v56 main_v62 main_v63 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_15 (constantI S_ 32 0#32),
    unary main_c_15 main_v64 (broadcastInDim S6600000 ![] bcast_S_S6600000 : (⟨S_, .i32⟩ : BufTy).Contents (Elt F) → (⟨S6600000, .i32⟩ : BufTy).Contents (Elt F)),
    binary main_v6 main_v64 main_v65 (cmpi .slt : (⟨S6600000, .i32⟩ : BufTy).Contents (Elt F) → (⟨S6600000, .i32⟩ : BufTy).Contents (Elt F) → (⟨S6600000, .i1⟩ : BufTy).Contents (Elt F)),
    nullary main_c_16 (constantI S_ 32 200000#32),
    unary main_c_16 main_v66 (broadcastInDim S6600000 ![] bcast_S_S6600000 : (⟨S_, .i32⟩ : BufTy).Contents (Elt F) → (⟨S6600000, .i32⟩ : BufTy).Contents (Elt F)),
    binary main_v6 main_v66 main_v67 (addi : (⟨S6600000, .i32⟩ : BufTy).Contents (Elt F) → (⟨S6600000, .i32⟩ : BufTy).Contents (Elt F) → (⟨S6600000, .i32⟩ : BufTy).Contents (Elt F)),
    ternary main_v65 main_v67 main_v6 main_v68 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v68 main_v69 (broadcastInDim S6600000x1 ![0] bcast_S6600000_S6600000x1_0 : (⟨S6600000, .i32⟩ : BufTy).Contents (Elt F) → (⟨S6600000x1, .i32⟩ : BufTy).Contents (Elt F)),
    binary main_v56 main_v69 main_v70 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v63 main_v70 main_v71 (mulf : (⟨S6600000, .f32⟩ : BufTy).Contents (Elt F) → (⟨S6600000, .f32⟩ : BufTy).Contents (Elt F) → (⟨S6600000, .f32⟩ : BufTy).Contents (Elt F)) ]

/-- The second product's rows gathered at the sources, multiplied by the edge's scale product, added into zeros at the targets; then the bias. -/
abbrev opsD2 : List (HloOp τ sig (Elt F)) :=
  [ nullary main_c_17 (constantI S_ 32 0#32),
    unary main_c_17 main_v72 (broadcastInDim S6600000 ![] bcast_S_S6600000 : (⟨S_, .i32⟩ : BufTy).Contents (Elt F) → (⟨S6600000, .i32⟩ : BufTy).Contents (Elt F)),
    binary main_v3 main_v72 main_v73 (cmpi .slt : (⟨S6600000, .i32⟩ : BufTy).Contents (Elt F) → (⟨S6600000, .i32⟩ : BufTy).Contents (Elt F) → (⟨S6600000, .i1⟩ : BufTy).Contents (Elt F)),
    nullary main_c_18 (constantI S_ 32 200000#32),
    unary main_c_18 main_v74 (broadcastInDim S6600000 ![] bcast_S_S6600000 : (⟨S_, .i32⟩ : BufTy).Contents (Elt F) → (⟨S6600000, .i32⟩ : BufTy).Contents (Elt F)),
    binary main_v3 main_v74 main_v75 (addi : (⟨S6600000, .i32⟩ : BufTy).Contents (Elt F) → (⟨S6600000, .i32⟩ : BufTy).Contents (Elt F) → (⟨S6600000, .i32⟩ : BufTy).Contents (Elt F)),
    ternary main_v73 main_v75 main_v3 main_v76 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v76 main_v77 (broadcastInDim S6600000x1 ![0] bcast_S6600000_S6600000x1_0 : (⟨S6600000, .i32⟩ : BufTy).Contents (Elt F) → (⟨S6600000x1, .i32⟩ : BufTy).Contents (Elt F)),
    binary main_v48 main_v77 main_v78 ((fun x i => Host.gather gather_S200000x40_S6600000x1_S6600000x40_1_0_n_n_0_1_140 x i) : (⟨S200000x40, .f32⟩ : BufTy).Contents (Elt F) → (⟨S6600000x1, .i32⟩ : BufTy).Contents (Elt F) → (⟨S6600000x40, .f32⟩ : BufTy).Contents (Elt F)),
    unary main_v71 main_v79 (broadcastInDim S6600000x1 ![0] bcast_S6600000_S6600000x1_0 : (⟨S6600000, .f32⟩ : BufTy).Contents (Elt F) → (⟨S6600000x1, .f32⟩ : BufTy).Contents (Elt F)),
    unary main_v79 main_v80 (broadcastInDim S6600000x40 ![0, 1] bcast_S6600000x1_S6600000x40_0_1 : (⟨S6600000x1, .f32⟩ : BufTy).Contents (Elt F) → (⟨S6600000x40, .f32⟩ : BufTy).Contents (Elt F)),
    binary main_v78 main_v80 main_v81 (mulf : (⟨S6600000x40, .f32⟩ : BufTy).Contents (Elt F) → (⟨S6600000x40, .f32⟩ : BufTy).Contents (Elt F) → (⟨S6600000x40, .f32⟩ : BufTy).Contents (Elt F)),
    nullary main_cst_19 (constant S_ .f32 0x00000000#32),
    unary main_cst_19 main_v82 (broadcastInDim S200000x40 ![] bcast_S_S200000x40 : (⟨S_, .f32⟩ : BufTy).Contents (Elt F) → (⟨S200000x40, .f32⟩ : BufTy).Contents (Elt F)),
    unary main_v6 main_v83 (broadcastInDim S6600000x1 ![0] bcast_S6600000_S6600000x1_0 : (⟨S6600000, .i32⟩ : BufTy).Contents (Elt F) → (⟨S6600000x1, .i32⟩ : BufTy).Contents (Elt F)),
    ternary main_v82 main_v83 main_v81 main_v84 ((fun x i u => Host.scatterAdd scatter_S200000x40_S6600000x1_S6600000x40_1_0_0_1 x i u) : (⟨S200000x40, .f32⟩ : BufTy).Contents (Elt F) → (⟨S6600000x1, .i32⟩ : BufTy).Contents (Elt F) → (⟨S6600000x40, .f32⟩ : BufTy).Contents (Elt F) → (⟨S200000x40, .f32⟩ : BufTy).Contents (Elt F)),
    unary main_arg5 main_v85 (broadcastInDim S1x40 ![1] bcast_S40_S1x40_1 : (⟨S40, .f32⟩ : BufTy).Contents (Elt F) → (⟨S1x40, .f32⟩ : BufTy).Contents (Elt F)),
    unary main_v85 main_v86 (broadcastInDim S200000x40 ![0, 1] bcast_S1x40_S200000x40_0_1 : (⟨S1x40, .f32⟩ : BufTy).Contents (Elt F) → (⟨S200000x40, .f32⟩ : BufTy).Contents (Elt F)),
    binary main_v84 main_v86 main_v87 (addf : (⟨S200000x40, .f32⟩ : BufTy).Contents (Elt F) → (⟨S200000x40, .f32⟩ : BufTy).Contents (Elt F) → (⟨S200000x40, .f32⟩ : BufTy).Contents (Elt F)) ]

/-- Every row's largest entry, the row shifted by it, the logarithm of the sum of the exponentials of the shifted row, and the difference. -/
abbrev opsE : List (HloOp τ sig (Elt F)) :=
  [ TRef.nullary (TRef.of (T := ⟨S_, .f32⟩) main_call3_cst) (constant S_ .f32 0xFF800000#32),
    TRef.binary (TRef.of (T := ⟨S200000x40, .f32⟩) main_v87) (TRef.of (T := ⟨S_, .f32⟩) main_call3_cst) (TRef.of (T := ⟨S200000, .f32⟩) main_call3_v0) (fun x v => Host.reduce FloatOps.maximumf x v reducesTo_S200000x40_S200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S200000, .f32⟩) main_call3_v1) (broadcastInDim S200000 ![] bcast_S_S200000),
    TRef.binary (TRef.of (T := ⟨S200000, .f32⟩) main_call3_v1) (TRef.of (T := ⟨S200000, .f32⟩) main_call3_v0) (TRef.of (T := ⟨S200000, .f32⟩) main_call3_v2) maximumf,
    TRef.unary (TRef.of (T := ⟨S200000, .f32⟩) main_call3_v2) (TRef.of (T := ⟨S200000x1, .f32⟩) main_call3_v3) (broadcastInDim S200000x1 ![0] bcast_S200000_S200000x1_0),
    TRef.unary (TRef.of (T := ⟨S200000x1, .f32⟩) main_call3_v3) (TRef.of (T := ⟨S200000x40, .f32⟩) main_call3_v4) (broadcastInDim S200000x40 ![0, 1] bcast_S200000x1_S200000x40_0_1),
    TRef.binary (TRef.of (T := ⟨S200000x40, .f32⟩) main_v87) (TRef.of (T := ⟨S200000x40, .f32⟩) main_call3_v4) (TRef.of (T := ⟨S200000x40, .f32⟩) main_call3_v5) subf,
    TRef.unary (TRef.of (T := ⟨S200000x40, .f32⟩) main_call3_v5) (TRef.of (T := ⟨S200000x40, .f32⟩) main_call3_v6) Host.exp,
    TRef.nullary (TRef.of (T := ⟨S_, .f32⟩) main_call3_cst_1) (constant S_ .f32 0x00000000#32),
    TRef.binary (TRef.of (T := ⟨S200000x40, .f32⟩) main_call3_v6) (TRef.of (T := ⟨S_, .f32⟩) main_call3_cst_1) (TRef.of (T := ⟨S200000, .f32⟩) main_call3_v7) (fun x v => Host.reduceAdd x v reducesTo_S200000x40_S200000_d1 h_S_),
    TRef.unary (TRef.of (T := ⟨S200000, .f32⟩) main_call3_v7) (TRef.of (T := ⟨S200000x1, .f32⟩) main_call3_v8) (broadcastInDim S200000x1 ![0] bcast_S200000_S200000x1_0),
    TRef.unary (TRef.of (T := ⟨S200000x1, .f32⟩) main_call3_v8) (TRef.of (T := ⟨S200000x1, .f32⟩) main_call3_v9) Host.log,
    TRef.unary (TRef.of (T := ⟨S200000x1, .f32⟩) main_call3_v9) (TRef.of (T := ⟨S200000x40, .f32⟩) main_call3_v10) (broadcastInDim S200000x40 ![0, 1] bcast_S200000x1_S200000x40_0_1),
    TRef.binary (TRef.of (T := ⟨S200000x40, .f32⟩) main_call3_v5) (TRef.of (T := ⟨S200000x40, .f32⟩) main_call3_v10) (TRef.of (T := ⟨S200000x40, .f32⟩) main_v88) subf ]

/-- The line is its seven stretches, in order. -/
theorem ops_eq : (ops : List (HloOp τ sig (Elt F))) = opsA ++ (opsB1 ++ (opsB2 ++ (opsC ++ (opsD1 ++ (opsD2 ++ (opsE)))))) := rfl

/-! ## The buffers after each stretch

`R‹k› W` is what the buffers hold after the first `k` stretches, started from contents `W`. -/

/-- The buffers after the stretch `opsA`. -/
def RA (W : Valuation τ sig (Elt F)) : Valuation τ sig (Elt F) := after opsA W

theorem RA_main_v3 (W : Valuation τ sig (Elt F)) :
    RA W (Proc.devRef .tc main_v3) = val_main_v3 (F := F) (W (Proc.devRef .tc main_arg1)) := by
  unfold RA; dsimp only [opsA]; after_results_simp
  rfl
theorem RA_main_v15 (W : Valuation τ sig (Elt F)) :
    RA W (Proc.devRef .tc main_v15) = val_main_v15 (F := F) (W (Proc.devRef .tc main_arg1)) := by
  unfold RA; dsimp only [opsA]; after_results_simp
  rfl
theorem RA_main_v6 (W : Valuation τ sig (Elt F)) :
    RA W (Proc.devRef .tc main_v6) = val_main_v6 (F := F) (W (Proc.devRef .tc main_arg1)) := by
  unfold RA; dsimp only [opsA]; after_results_simp
  rfl
theorem RA_main_v7 (W : Valuation τ sig (Elt F)) :
    RA W (Proc.devRef .tc main_v7) = val_main_v7 (F := F) (W (Proc.devRef .tc main_arg0)) (W (Proc.devRef .tc main_arg2)) := by
  unfold RA; dsimp only [opsA]; after_results_simp
  rfl
theorem RA_main_arg0 (W : Valuation τ sig (Elt F)) :
    RA W (Proc.devRef .tc main_arg0) = W (Proc.devRef .tc main_arg0) := by
  unfold RA; dsimp only [opsA]; after_results_simp
theorem RA_main_arg1 (W : Valuation τ sig (Elt F)) :
    RA W (Proc.devRef .tc main_arg1) = W (Proc.devRef .tc main_arg1) := by
  unfold RA; dsimp only [opsA]; after_results_simp
theorem RA_main_arg2 (W : Valuation τ sig (Elt F)) :
    RA W (Proc.devRef .tc main_arg2) = W (Proc.devRef .tc main_arg2) := by
  unfold RA; dsimp only [opsA]; after_results_simp
theorem RA_main_arg3 (W : Valuation τ sig (Elt F)) :
    RA W (Proc.devRef .tc main_arg3) = W (Proc.devRef .tc main_arg3) := by
  unfold RA; dsimp only [opsA]; after_results_simp
theorem RA_main_arg4 (W : Valuation τ sig (Elt F)) :
    RA W (Proc.devRef .tc main_arg4) = W (Proc.devRef .tc main_arg4) := by
  unfold RA; dsimp only [opsA]; after_results_simp
theorem RA_main_arg5 (W : Valuation τ sig (Elt F)) :
    RA W (Proc.devRef .tc main_arg5) = W (Proc.devRef .tc main_arg5) := by
  unfold RA; dsimp only [opsA]; after_results_simp

/-- The buffers after the stretch `opsB1`, started from `RA W`. -/
def RB1 (W : Valuation τ sig (Elt F)) : Valuation τ sig (Elt F) := after opsB1 (RA W)

theorem RB1_main_v3 (W : Valuation τ sig (Elt F)) :
    RB1 W (Proc.devRef .tc main_v3) = val_main_v3 (F := F) (W (Proc.devRef .tc main_arg1)) := by
  unfold RB1; dsimp only [opsB1]; after_results_simp; exact RA_main_v3 W
theorem RB1_main_v7 (W : Valuation τ sig (Elt F)) :
    RB1 W (Proc.devRef .tc main_v7) = val_main_v7 (F := F) (W (Proc.devRef .tc main_arg0)) (W (Proc.devRef .tc main_arg2)) := by
  unfold RB1; dsimp only [opsB1]; after_results_simp; exact RA_main_v7 W
theorem RB1_main_v30 (W : Valuation τ sig (Elt F)) :
    RB1 W (Proc.devRef .tc main_v30) = val_main_v30 (F := F) (W (Proc.devRef .tc main_arg1)) := by
  unfold RB1; dsimp only [opsB1]; after_results_simp
  rw [RA_main_v15 W, RA_main_v3 W, RA_main_v6 W]
  rfl
theorem RB1_main_v6 (W : Valuation τ sig (Elt F)) :
    RB1 W (Proc.devRef .tc main_v6) = val_main_v6 (F := F) (W (Proc.devRef .tc main_arg1)) := by
  unfold RB1; dsimp only [opsB1]; after_results_simp; exact RA_main_v6 W
theorem RB1_main_arg0 (W : Valuation τ sig (Elt F)) :
    RB1 W (Proc.devRef .tc main_arg0) = W (Proc.devRef .tc main_arg0) := by
  unfold RB1; dsimp only [opsB1]; after_results_simp; exact RA_main_arg0 W
theorem RB1_main_arg1 (W : Valuation τ sig (Elt F)) :
    RB1 W (Proc.devRef .tc main_arg1) = W (Proc.devRef .tc main_arg1) := by
  unfold RB1; dsimp only [opsB1]; after_results_simp; exact RA_main_arg1 W
theorem RB1_main_arg2 (W : Valuation τ sig (Elt F)) :
    RB1 W (Proc.devRef .tc main_arg2) = W (Proc.devRef .tc main_arg2) := by
  unfold RB1; dsimp only [opsB1]; after_results_simp; exact RA_main_arg2 W
theorem RB1_main_arg3 (W : Valuation τ sig (Elt F)) :
    RB1 W (Proc.devRef .tc main_arg3) = W (Proc.devRef .tc main_arg3) := by
  unfold RB1; dsimp only [opsB1]; after_results_simp; exact RA_main_arg3 W
theorem RB1_main_arg4 (W : Valuation τ sig (Elt F)) :
    RB1 W (Proc.devRef .tc main_arg4) = W (Proc.devRef .tc main_arg4) := by
  unfold RB1; dsimp only [opsB1]; after_results_simp; exact RA_main_arg4 W
theorem RB1_main_arg5 (W : Valuation τ sig (Elt F)) :
    RB1 W (Proc.devRef .tc main_arg5) = W (Proc.devRef .tc main_arg5) := by
  unfold RB1; dsimp only [opsB1]; after_results_simp; exact RA_main_arg5 W

/-- The buffers after the stretch `opsB2`, started from `RB1 W`. -/
def RB2 (W : Valuation τ sig (Elt F)) : Valuation τ sig (Elt F) := after opsB2 (RB1 W)

theorem RB2_main_v47 (W : Valuation τ sig (Elt F)) :
    RB2 W (Proc.devRef .tc main_v47) = val_main_v47 (F := F) (W (Proc.devRef .tc main_arg0)) (W (Proc.devRef .tc main_arg1)) (W (Proc.devRef .tc main_arg2)) (W (Proc.devRef .tc main_arg3)) := by
  unfold RB2; dsimp only [opsB2]; after_results_simp
  rw [RB1_main_v6 W, RB1_main_v7 W, RB1_main_v3 W, RB1_main_v30 W, RB1_main_arg3 W]
  rfl
theorem RB2_main_v6 (W : Valuation τ sig (Elt F)) :
    RB2 W (Proc.devRef .tc main_v6) = val_main_v6 (F := F) (W (Proc.devRef .tc main_arg1)) := by
  unfold RB2; dsimp only [opsB2]; after_results_simp; exact RB1_main_v6 W
theorem RB2_main_v3 (W : Valuation τ sig (Elt F)) :
    RB2 W (Proc.devRef .tc main_v3) = val_main_v3 (F := F) (W (Proc.devRef .tc main_arg1)) := by
  unfold RB2; dsimp only [opsB2]; after_results_simp; exact RB1_main_v3 W
theorem RB2_main_arg0 (W : Valuation τ sig (Elt F)) :
    RB2 W (Proc.devRef .tc main_arg0) = W (Proc.devRef .tc main_arg0) := by
  unfold RB2; dsimp only [opsB2]; after_results_simp; exact RB1_main_arg0 W
theorem RB2_main_arg1 (W : Valuation τ sig (Elt F)) :
    RB2 W (Proc.devRef .tc main_arg1) = W (Proc.devRef .tc main_arg1) := by
  unfold RB2; dsimp only [opsB2]; after_results_simp; exact RB1_main_arg1 W
theorem RB2_main_arg2 (W : Valuation τ sig (Elt F)) :
    RB2 W (Proc.devRef .tc main_arg2) = W (Proc.devRef .tc main_arg2) := by
  unfold RB2; dsimp only [opsB2]; after_results_simp; exact RB1_main_arg2 W
theorem RB2_main_arg3 (W : Valuation τ sig (Elt F)) :
    RB2 W (Proc.devRef .tc main_arg3) = W (Proc.devRef .tc main_arg3) := by
  unfold RB2; dsimp only [opsB2]; after_results_simp; exact RB1_main_arg3 W
theorem RB2_main_arg4 (W : Valuation τ sig (Elt F)) :
    RB2 W (Proc.devRef .tc main_arg4) = W (Proc.devRef .tc main_arg4) := by
  unfold RB2; dsimp only [opsB2]; after_results_simp; exact RB1_main_arg4 W
theorem RB2_main_arg5 (W : Valuation τ sig (Elt F)) :
    RB2 W (Proc.devRef .tc main_arg5) = W (Proc.devRef .tc main_arg5) := by
  unfold RB2; dsimp only [opsB2]; after_results_simp; exact RB1_main_arg5 W

/-- The buffers after the stretch `opsC`, started from `RB2 W`. -/
def RC (W : Valuation τ sig (Elt F)) : Valuation τ sig (Elt F) := after opsC (RB2 W)

theorem RC_main_v3 (W : Valuation τ sig (Elt F)) :
    RC W (Proc.devRef .tc main_v3) = val_main_v3 (F := F) (W (Proc.devRef .tc main_arg1)) := by
  unfold RC; dsimp only [opsC]; after_results_simp; exact RB2_main_v3 W
theorem RC_main_v56 (W : Valuation τ sig (Elt F)) :
    RC W (Proc.devRef .tc main_v56) = val_main_v56 (F := F) (W (Proc.devRef .tc main_arg1)) := by
  unfold RC; dsimp only [opsC]; after_results_simp
  rw [RB2_main_v6 W]
  rfl
theorem RC_main_v6 (W : Valuation τ sig (Elt F)) :
    RC W (Proc.devRef .tc main_v6) = val_main_v6 (F := F) (W (Proc.devRef .tc main_arg1)) := by
  unfold RC; dsimp only [opsC]; after_results_simp; exact RB2_main_v6 W
theorem RC_main_v48 (W : Valuation τ sig (Elt F)) :
    RC W (Proc.devRef .tc main_v48) = val_main_v48 (F := F) (W (Proc.devRef .tc main_arg0)) (W (Proc.devRef .tc main_arg1)) (W (Proc.devRef .tc main_arg2)) (W (Proc.devRef .tc main_arg3)) (W (Proc.devRef .tc main_arg4)) := by
  unfold RC; dsimp only [opsC]; after_results_simp
  rw [RB2_main_v47 W, RB2_main_arg4 W]
  rfl
theorem RC_main_arg0 (W : Valuation τ sig (Elt F)) :
    RC W (Proc.devRef .tc main_arg0) = W (Proc.devRef .tc main_arg0) := by
  unfold RC; dsimp only [opsC]; after_results_simp; exact RB2_main_arg0 W
theorem RC_main_arg1 (W : Valuation τ sig (Elt F)) :
    RC W (Proc.devRef .tc main_arg1) = W (Proc.devRef .tc main_arg1) := by
  unfold RC; dsimp only [opsC]; after_results_simp; exact RB2_main_arg1 W
theorem RC_main_arg2 (W : Valuation τ sig (Elt F)) :
    RC W (Proc.devRef .tc main_arg2) = W (Proc.devRef .tc main_arg2) := by
  unfold RC; dsimp only [opsC]; after_results_simp; exact RB2_main_arg2 W
theorem RC_main_arg3 (W : Valuation τ sig (Elt F)) :
    RC W (Proc.devRef .tc main_arg3) = W (Proc.devRef .tc main_arg3) := by
  unfold RC; dsimp only [opsC]; after_results_simp; exact RB2_main_arg3 W
theorem RC_main_arg4 (W : Valuation τ sig (Elt F)) :
    RC W (Proc.devRef .tc main_arg4) = W (Proc.devRef .tc main_arg4) := by
  unfold RC; dsimp only [opsC]; after_results_simp; exact RB2_main_arg4 W
theorem RC_main_arg5 (W : Valuation τ sig (Elt F)) :
    RC W (Proc.devRef .tc main_arg5) = W (Proc.devRef .tc main_arg5) := by
  unfold RC; dsimp only [opsC]; after_results_simp; exact RB2_main_arg5 W

/-- The buffers after the stretch `opsD1`, started from `RC W`. -/
def RD1 (W : Valuation τ sig (Elt F)) : Valuation τ sig (Elt F) := after opsD1 (RC W)

theorem RD1_main_v3 (W : Valuation τ sig (Elt F)) :
    RD1 W (Proc.devRef .tc main_v3) = val_main_v3 (F := F) (W (Proc.devRef .tc main_arg1)) := by
  unfold RD1; dsimp only [opsD1]; after_results_simp; exact RC_main_v3 W
theorem RD1_main_v48 (W : Valuation τ sig (Elt F)) :
    RD1 W (Proc.devRef .tc main_v48) = val_main_v48 (F := F) (W (Proc.devRef .tc main_arg0)) (W (Proc.devRef .tc main_arg1)) (W (Proc.devRef .tc main_arg2)) (W (Proc.devRef .tc main_arg3)) (W (Proc.devRef .tc main_arg4)) := by
  unfold RD1; dsimp only [opsD1]; after_results_simp; exact RC_main_v48 W
theorem RD1_main_v71 (W : Valuation τ sig (Elt F)) :
    RD1 W (Proc.devRef .tc main_v71) = val_main_v71 (F := F) (W (Proc.devRef .tc main_arg1)) := by
  unfold RD1; dsimp only [opsD1]; after_results_simp
  rw [RC_main_v56 W, RC_main_v3 W, RC_main_v6 W]
  rfl
theorem RD1_main_v6 (W : Valuation τ sig (Elt F)) :
    RD1 W (Proc.devRef .tc main_v6) = val_main_v6 (F := F) (W (Proc.devRef .tc main_arg1)) := by
  unfold RD1; dsimp only [opsD1]; after_results_simp; exact RC_main_v6 W
theorem RD1_main_arg0 (W : Valuation τ sig (Elt F)) :
    RD1 W (Proc.devRef .tc main_arg0) = W (Proc.devRef .tc main_arg0) := by
  unfold RD1; dsimp only [opsD1]; after_results_simp; exact RC_main_arg0 W
theorem RD1_main_arg1 (W : Valuation τ sig (Elt F)) :
    RD1 W (Proc.devRef .tc main_arg1) = W (Proc.devRef .tc main_arg1) := by
  unfold RD1; dsimp only [opsD1]; after_results_simp; exact RC_main_arg1 W
theorem RD1_main_arg2 (W : Valuation τ sig (Elt F)) :
    RD1 W (Proc.devRef .tc main_arg2) = W (Proc.devRef .tc main_arg2) := by
  unfold RD1; dsimp only [opsD1]; after_results_simp; exact RC_main_arg2 W
theorem RD1_main_arg3 (W : Valuation τ sig (Elt F)) :
    RD1 W (Proc.devRef .tc main_arg3) = W (Proc.devRef .tc main_arg3) := by
  unfold RD1; dsimp only [opsD1]; after_results_simp; exact RC_main_arg3 W
theorem RD1_main_arg4 (W : Valuation τ sig (Elt F)) :
    RD1 W (Proc.devRef .tc main_arg4) = W (Proc.devRef .tc main_arg4) := by
  unfold RD1; dsimp only [opsD1]; after_results_simp; exact RC_main_arg4 W
theorem RD1_main_arg5 (W : Valuation τ sig (Elt F)) :
    RD1 W (Proc.devRef .tc main_arg5) = W (Proc.devRef .tc main_arg5) := by
  unfold RD1; dsimp only [opsD1]; after_results_simp; exact RC_main_arg5 W

/-- The buffers after the stretch `opsD2`, started from `RD1 W`. -/
def RD2 (W : Valuation τ sig (Elt F)) : Valuation τ sig (Elt F) := after opsD2 (RD1 W)

theorem RD2_main_v87 (W : Valuation τ sig (Elt F)) :
    RD2 W (Proc.devRef .tc main_v87) = val_main_v87 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  unfold RD2; dsimp only [opsD2]; after_results_simp
  rw [RD1_main_v6 W, RD1_main_v48 W, RD1_main_v3 W, RD1_main_v71 W, RD1_main_arg5 W]
  rfl
theorem RD2_main_arg0 (W : Valuation τ sig (Elt F)) :
    RD2 W (Proc.devRef .tc main_arg0) = W (Proc.devRef .tc main_arg0) := by
  unfold RD2; dsimp only [opsD2]; after_results_simp; exact RD1_main_arg0 W
theorem RD2_main_arg1 (W : Valuation τ sig (Elt F)) :
    RD2 W (Proc.devRef .tc main_arg1) = W (Proc.devRef .tc main_arg1) := by
  unfold RD2; dsimp only [opsD2]; after_results_simp; exact RD1_main_arg1 W
theorem RD2_main_arg2 (W : Valuation τ sig (Elt F)) :
    RD2 W (Proc.devRef .tc main_arg2) = W (Proc.devRef .tc main_arg2) := by
  unfold RD2; dsimp only [opsD2]; after_results_simp; exact RD1_main_arg2 W
theorem RD2_main_arg3 (W : Valuation τ sig (Elt F)) :
    RD2 W (Proc.devRef .tc main_arg3) = W (Proc.devRef .tc main_arg3) := by
  unfold RD2; dsimp only [opsD2]; after_results_simp; exact RD1_main_arg3 W
theorem RD2_main_arg4 (W : Valuation τ sig (Elt F)) :
    RD2 W (Proc.devRef .tc main_arg4) = W (Proc.devRef .tc main_arg4) := by
  unfold RD2; dsimp only [opsD2]; after_results_simp; exact RD1_main_arg4 W
theorem RD2_main_arg5 (W : Valuation τ sig (Elt F)) :
    RD2 W (Proc.devRef .tc main_arg5) = W (Proc.devRef .tc main_arg5) := by
  unfold RD2; dsimp only [opsD2]; after_results_simp; exact RD1_main_arg5 W

/-- Contents moved to a buffer's own type and back are the contents. -/
theorem ofBuf_toBuf {T : BufTy} (x : TRef sig T) (v : T.Contents (Elt F)) : x.ofBuf (x.toBuf v) = v := by
  unfold TRef.ofBuf TRef.toBuf; simp

/-- The buffers after the stretch `opsE`, started from `RD2 W`. -/
def RE (W : Valuation τ sig (Elt F)) : Valuation τ sig (Elt F) := after opsE (RD2 W)

theorem RE_main_v88 (W : Valuation τ sig (Elt F)) :
    RE W (Proc.devRef .tc main_v88) = val_main_v88 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  unfold RE; dsimp only [opsE]; after_results_simp
  rw [RD2_main_v87 W]
  simp only [ofBuf_toBuf]
  rfl
theorem RE_main_arg0 (W : Valuation τ sig (Elt F)) :
    RE W (Proc.devRef .tc main_arg0) = W (Proc.devRef .tc main_arg0) := by
  unfold RE; dsimp only [opsE]; after_results_simp; exact RD2_main_arg0 W
theorem RE_main_arg1 (W : Valuation τ sig (Elt F)) :
    RE W (Proc.devRef .tc main_arg1) = W (Proc.devRef .tc main_arg1) := by
  unfold RE; dsimp only [opsE]; after_results_simp; exact RD2_main_arg1 W
theorem RE_main_arg2 (W : Valuation τ sig (Elt F)) :
    RE W (Proc.devRef .tc main_arg2) = W (Proc.devRef .tc main_arg2) := by
  unfold RE; dsimp only [opsE]; after_results_simp; exact RD2_main_arg2 W
theorem RE_main_arg3 (W : Valuation τ sig (Elt F)) :
    RE W (Proc.devRef .tc main_arg3) = W (Proc.devRef .tc main_arg3) := by
  unfold RE; dsimp only [opsE]; after_results_simp; exact RD2_main_arg3 W
theorem RE_main_arg4 (W : Valuation τ sig (Elt F)) :
    RE W (Proc.devRef .tc main_arg4) = W (Proc.devRef .tc main_arg4) := by
  unfold RE; dsimp only [opsE]; after_results_simp; exact RD2_main_arg4 W
theorem RE_main_arg5 (W : Valuation τ sig (Elt F)) :
    RE W (Proc.devRef .tc main_arg5) = W (Proc.devRef .tc main_arg5) := by
  unfold RE; dsimp only [opsE]; after_results_simp; exact RD2_main_arg5 W

/-! ## The whole line -/

/-- Running the whole line is running the seven stretches one after the other. -/
theorem after_ops (W : Valuation τ sig (Elt F)) : after ops W = RE W := by
  rw [ops_eq, after_append, after_append, after_append, after_append, after_append, after_append]
  rfl

/-- After the whole line the result buffer holds the last operation's stage value, as a function of the six argument
    buffers' contents at the start. -/
theorem after_ops_main_v88 (W : Valuation τ sig (Elt F)) :
    after ops W (Proc.devRef .tc main_v88) = val_main_v88 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_ops]; exact RE_main_v88 W

/-- No operation of the line writes an argument buffer: after the whole line each holds what it held. -/
theorem after_ops_main_arg0 (W : Valuation τ sig (Elt F)) :
    after ops W (Proc.devRef .tc main_arg0) = W (Proc.devRef .tc main_arg0) := by
  rw [after_ops]; exact RE_main_arg0 W
theorem after_ops_main_arg1 (W : Valuation τ sig (Elt F)) :
    after ops W (Proc.devRef .tc main_arg1) = W (Proc.devRef .tc main_arg1) := by
  rw [after_ops]; exact RE_main_arg1 W
theorem after_ops_main_arg2 (W : Valuation τ sig (Elt F)) :
    after ops W (Proc.devRef .tc main_arg2) = W (Proc.devRef .tc main_arg2) := by
  rw [after_ops]; exact RE_main_arg2 W
theorem after_ops_main_arg3 (W : Valuation τ sig (Elt F)) :
    after ops W (Proc.devRef .tc main_arg3) = W (Proc.devRef .tc main_arg3) := by
  rw [after_ops]; exact RE_main_arg3 W
theorem after_ops_main_arg4 (W : Valuation τ sig (Elt F)) :
    after ops W (Proc.devRef .tc main_arg4) = W (Proc.devRef .tc main_arg4) := by
  rw [after_ops]; exact RE_main_arg4 W
theorem after_ops_main_arg5 (W : Valuation τ sig (Elt F)) :
    after ops W (Proc.devRef .tc main_arg5) = W (Proc.devRef .tc main_arg5) := by
  rw [after_ops]; exact RE_main_arg5 W

/-! ## The run -/

/-- From any memory with zero counters every weakly fair execution of the reference program terminates (the library's
    run of a line of host operations); at the end the result buffer of every device holds the last stage's value of the
    device's six argument buffers at launch, and the argument buffers hold what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v88).trans (after_ops_main_v88 (launchContents m c)),
       (h c main_arg0).trans (after_ops_main_arg0 (launchContents m c)),
       (h c main_arg1).trans (after_ops_main_arg1 (launchContents m c)),
       (h c main_arg2).trans (after_ops_main_arg2 (launchContents m c)),
       (h c main_arg3).trans (after_ops_main_arg3 (launchContents m c)),
       (h c main_arg4).trans (after_ops_main_arg4 (launchContents m c)),
       (h c main_arg5).trans (after_ops_main_arg5 (launchContents m c))⟩)
    (run_seq scopedRefs_eq scopedSems_eq defs main (fun _ => ops) main_eq (fun _ => ops_sub) m ρ)

end Cert.ReferenceIdeal.RunValue

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.KernelAggregate.lean ====
/-
  The aggregation between two tiled stages, read at one entry.

  Between consecutive stages every node collects the rows of its in-neighbours: the previous stage's table is read at
  the source row of every edge, and these rows are added, into a table of zeros, at the edges' target rows.  At entry
  (v, c) the result is therefore zero plus the sum, over the edges whose target is v, of entry c of the row read at the
  edge's source.  The source row number is read signed and clamped into the table (as a row read is); the target
  row number is read signed and not clamped (an edge whose target is no row adds nothing).

  Also here: the per-node scale kept as a column, and a bias vector kept as a one-row table, read at an entry.
-/
import proofs.«146948_j85598698209491_2_alg».proof.Proof.KernelFold
import proofs.«146948_j85598698209491_2_alg».proof.Proof.LibGatherRows
import proofs.«146948_j85598698209491_2_alg».proof.Proof.LibScatterRows
import proofs.«146948_j85598698209491_2_alg».proof.Proof.LibColumnCasts
import Idealize.ShloMosaic.Lib.Pipeline.Value
import Idealize.ShloMosaic.Lib.ValueIdx
import Idealize.ShloMosaic.PureOps.Ideal.Laws

noncomputable section

namespace Cert.KernelIdeal.AggregateValue

open Cert.KernelIdeal Cert.KernelIdeal.Gen Cert.KernelIdeal.FoldValue Idealize.ShloMosaic Idealize.ShloMosaic.ValueIdx
open scoped BigOperators

/-! ## The dimension numbers of the two aggregations are those of whole-row reads and whole-row additions -/

theorem scatter16_rows : scatter_S200000x16_S6600000x1_S6600000x16_1_0_0_1
    = Cert.LibRows.rowsScatter 200000 16 6600000 scatter_S200000x16_S6600000x1_S6600000x16_1_0_0_1_wf := rfl

theorem gather16_rows : gather_S200000x16_S6600000x1_S6600000x16_1_0_n_n_0_1_116
    = Cert.LibRows.rowsGather 200000 16 6600000 gather_S200000x16_S6600000x1_S6600000x16_1_0_n_n_0_1_116_wf := rfl

theorem scatter40_rows : scatter_S200000x40_S6600000x1_S6600000x40_1_0_0_1
    = Cert.LibRows.rowsScatter 200000 40 6600000 scatter_S200000x40_S6600000x1_S6600000x40_1_0_0_1_wf := rfl

theorem gather40_rows : gather_S200000x40_S6600000x1_S6600000x40_1_0_n_n_0_1_140
    = Cert.LibRows.rowsGather 200000 40 6600000 gather_S200000x40_S6600000x1_S6600000x40_1_0_n_n_0_1_140_wf := rfl

/-! ## The target and the source row of an edge -/

variable (x1 : (⟨S2x6400000, .i32⟩ : BufTy).Contents (Elt Ideal))

/-- The target row number of edge e, read signed. -/
def tgt (e : Fin 6600000) : ℤ := ((dstCol (F := Ideal) x1) (ix2 e (0 : Fin 1))).toInt

/-- The source row of edge e: its row number read signed and clamped into the table's rows. -/
def srcRow (e : Fin 6600000) : Fin 200000 :=
  ⟨min ((srcCol (F := Ideal) x1) (ix2 e (0 : Fin 1))).toInt.toNat (200000 - 1), by omega⟩

/-! ## The aggregate at an entry -/

/-- Entry (v, c) of the aggregate of a 16-column table: zero plus the sum over the edges into v of entry c of the
    source's row. -/
theorem aggregate16_apply (tbl : (⟨S200000x16, .f32⟩ : BufTy).Contents (Elt Ideal)) (v : Fin 200000) (c : Fin 16) :
    aggregate16 (F := Ideal) x1 tbl (ix2 v c)
      = 0 + ∑ e : Fin 6600000, if tgt x1 e = (v.val : ℤ) then tbl (ix2 (srcRow x1 e) c) else 0 := by
  unfold aggregate16
  rw [scatter16_rows, gather16_rows, Cert.LibRows.scatterAdd_rows_apply]
  refine congr (congrArg HAdd.hAdd ?_) (Finset.sum_congr rfl fun e _ => ?_)
  · show Ideal.ofBits .f32 0x00000000#32 = 0
    exact Ideal.ofBits_zero_f32
  · rw [Cert.LibRows.gather_rows_apply (by omega)]
    unfold tgt srcRow
    rfl

/-- Entry (v, c) of the aggregate of a 40-column table, likewise. -/
theorem aggregate40_apply (tbl : (⟨S200000x40, .f32⟩ : BufTy).Contents (Elt Ideal)) (v : Fin 200000) (c : Fin 40) :
    aggregate40 (F := Ideal) x1 tbl (ix2 v c)
      = 0 + ∑ e : Fin 6600000, if tgt x1 e = (v.val : ℤ) then tbl (ix2 (srcRow x1 e) c) else 0 := by
  unfold aggregate40
  rw [scatter40_rows, gather40_rows, Cert.LibRows.scatterAdd_rows_apply]
  refine congr (congrArg HAdd.hAdd ?_) (Finset.sum_congr rfl fun e _ => ?_)
  · show Ideal.ofBits .f32 0x00000000#32 = 0
    exact Ideal.ofBits_zero_f32
  · rw [Cert.LibRows.gather_rows_apply (by omega)]
    unfold tgt srcRow
    rfl

/-! ## The scale column and the bias rows at an entry -/

/-- The scale kept as a column holds node v's scale at (v, 0). -/
theorem scaleCol_apply (v : Fin 200000) :
    scaleCol (F := Ideal) x1 (ix2 v (0 : Fin 1)) = scale (F := Ideal) x1 (ix1 v) := by
  unfold scaleCol
  exact Cert.ColumnCasts.shapeCast_a_a1_apply (scale (F := Ideal) x1) shapeCasts_S200000_S200000x1 v (0 : Fin 1)

/-- A vector of B entries cast to a 1 × B row holds entry k at (0, k): the row-major position is unchanged. -/
theorem shapeCast_b_1b_apply {α : Type} {B : ℕ} (x : (⟨1, ![B]⟩ : Shape).Idx → α)
    (h : (⟨1, ![B]⟩ : Shape).ShapeCasts ⟨2, ![1, B]⟩) (u : Fin 1) (k : Fin B) :
    shapeCast ⟨2, ![1, B]⟩ x h (ix2 u k) = x (ix1 k) :=
  shapeCast_apply x h _ _ (by
    have hu : u.val = 0 := by omega
    rw [Shape.rowMajor_val_two, Shape.rowMajor_val_one]
    show k.val = u.val * B + k.val
    rw [hu, Nat.zero_mul, Nat.zero_add])

/-- The first bias as a one-row table holds entry k of the bias at (0, k). -/
theorem biasRow16_apply (x3 : (⟨S16, .f32⟩ : BufTy).Contents (Elt Ideal)) (k : Fin 16) :
    shapeCast S1x16 x3 shapeCasts_S16_S1x16 (ix2 (0 : Fin 1) k) = x3 (ix1 k) :=
  shapeCast_b_1b_apply x3 shapeCasts_S16_S1x16 (0 : Fin 1) k

/-- The second bias as a one-row table holds entry k of the bias at (0, k). -/
theorem biasRow40_apply (x5 : (⟨S40, .f32⟩ : BufTy).Contents (Elt Ideal)) (k : Fin 40) :
    shapeCast S1x40 x5 shapeCasts_S40_S1x40 (ix2 (0 : Fin 1) k) = x5 (ix1 k) :=
  shapeCast_b_1b_apply x5 shapeCasts_S40_S1x40 (0 : Fin 1) k

end Cert.KernelIdeal.AggregateValue

end
-- ==== Proof.CrossProgram.lean ====
/-
  The two programs build the same index columns and the same per-node scale from the edge array.

  Both programs start with the same host operations on the edge array: the sources and the targets of the edges (a row
  of the array followed by one self-loop per node), the targets as a column, the sources as a column after a negative
  row number is shifted up by the node count, the in-degree (ones added at the target rows into zeros), and the scale
  (the inverse square root of the degree where it is positive, zero elsewhere). Each program spells these operations over
  its own names for the shapes and for the shape facts; the shapes are the same literals and a fact is a proof, so step
  by step the values are the same. Every step is stated for an arbitrary float instance, where no host operation can
  be looked into, so each equality is one of spelling only.
-/
import proofs.«146948_j85598698209491_2_alg».proof.Proof.KernelFold
import proofs.«146948_j85598698209491_2_alg».proof.Proof.RefRead

noncomputable section

namespace Cert.CrossProgram

open Idealize.ShloMosaic

variable {F : FTy → Type} [FloatOps F]
variable (x1 : (⟨Cert.ReferenceIdeal.S2x6400000, .i32⟩ : BufTy).Contents (Elt F))

/-- The sources of the edges: the first row of the edge array, then one self-loop per node. -/
theorem srcIdx_eq : Cert.KernelIdeal.FoldValue.srcIdx (F := F) x1 = Cert.ReferenceIdeal.Read.val_main_v3 (F := F) x1 := by
  unfold Cert.KernelIdeal.FoldValue.srcIdx Cert.ReferenceIdeal.Read.val_main_v3 Cert.ReferenceIdeal.Read.val_main_v2 Cert.ReferenceIdeal.Read.val_main_v1 Cert.ReferenceIdeal.Read.val_main_v0
  rfl

/-- The targets of the edges: the second row of the edge array, then one self-loop per node. -/
theorem dstIdx_eq : Cert.KernelIdeal.FoldValue.dstIdx (F := F) x1 = Cert.ReferenceIdeal.Read.val_main_v6 (F := F) x1 := by
  unfold Cert.KernelIdeal.FoldValue.dstIdx Cert.ReferenceIdeal.Read.val_main_v6 Cert.ReferenceIdeal.Read.val_main_v5 Cert.ReferenceIdeal.Read.val_main_v4 Cert.ReferenceIdeal.Read.val_main_v0
  rfl

/-- The targets as a column. -/
theorem dstCol_eq : Cert.KernelIdeal.FoldValue.dstCol (F := F) x1 = Cert.ReferenceIdeal.Read.val_main_v10 (F := F) x1 := by
  unfold Cert.KernelIdeal.FoldValue.dstCol Cert.ReferenceIdeal.Read.val_main_v10
  rw [dstIdx_eq x1]

/-- The sources as a column, a negative row number shifted up by the node count. -/
theorem srcCol_eq : Cert.KernelIdeal.FoldValue.srcCol (F := F) x1 = Cert.ReferenceIdeal.Read.val_main_v21 (F := F) x1 := by
  unfold Cert.KernelIdeal.FoldValue.srcCol Cert.ReferenceIdeal.Read.val_main_v21 Cert.ReferenceIdeal.Read.val_main_v20 Cert.ReferenceIdeal.Read.val_main_v19 Cert.ReferenceIdeal.Read.val_main_v18 Cert.ReferenceIdeal.Read.val_main_v17
    Cert.ReferenceIdeal.Read.val_main_v16 Cert.ReferenceIdeal.Read.val_main_c Cert.ReferenceIdeal.Read.val_main_c_3
  rw [srcIdx_eq x1]

/-- The in-degree of every node: ones added at the target rows into zeros. -/
theorem degree_eq : Cert.KernelIdeal.FoldValue.degree (F := F) x1 = Cert.ReferenceIdeal.Read.val_main_v11 (F := F) x1 := by
  unfold Cert.KernelIdeal.FoldValue.degree Cert.ReferenceIdeal.Read.val_main_v11 Cert.ReferenceIdeal.Read.val_main_v9 Cert.ReferenceIdeal.Read.val_main_v8 Cert.ReferenceIdeal.Read.val_main_cst Cert.ReferenceIdeal.Read.val_main_cst_0
  rw [dstCol_eq x1]
  rfl

/-- The scale: the inverse square root of the degree where the degree is positive, zero elsewhere. -/
theorem scale_eq : Cert.KernelIdeal.FoldValue.scale (F := F) x1 = Cert.ReferenceIdeal.Read.val_main_v15 (F := F) x1 := by
  unfold Cert.KernelIdeal.FoldValue.scale Cert.ReferenceIdeal.Read.val_main_v15 Cert.ReferenceIdeal.Read.val_main_v14 Cert.ReferenceIdeal.Read.val_main_v13 Cert.ReferenceIdeal.Read.val_main_v12 Cert.ReferenceIdeal.Read.val_main_cst_1
    Cert.ReferenceIdeal.Read.val_main_call0_v1 Cert.ReferenceIdeal.Read.val_main_call0_v0 Cert.ReferenceIdeal.Read.val_main_cst_2
  rw [degree_eq x1]
  rfl

end Cert.CrossProgram

end
-- ==== Proof.RefStagesReduce.lean ====
/-
  The largest entry of a row, as a host program computes it.

  A one-operand reduction with a maximum body over the column axis of a table, started from a scalar, is at row `v` the
  fold of `max` from that scalar over the row's columns: `max` is commutative and associative, so the order in which
  the program visits the columns does not matter. Started from −∞ the fold starts from the bottom extended real, and
  joining the result with −∞ once more changes nothing.
-/
import Idealize.ShloMosaic.PureOps.Ideal.Laws
import Idealize.ShloMosaic.PureOps.Reduce
import Idealize.ShloMosaic.Lib.ValueIdx

noncomputable section

open Idealize.ShloMosaic Idealize.ShloMosaic.ValueIdx

namespace Cert.ReferenceIdeal.RefValue

/-- The single-precision pattern of −∞ denotes the bottom extended real. -/
theorem ofBits_negInf : Ideal.ofBits .f32 0xFF800000#32 = (⊥ : EReal) := by simp [Ideal.ofBits, Ideal.ieee]

/-- A row index with the column `k` put back is the pair (v, k). -/
theorem lift_cols {m n : Nat} (h : (⟨2, ![m, n]⟩ : Shape).Reduces [1] (⟨1, ![m]⟩ : Shape)) (v : Fin m)
    (k : Fin ((⟨2, ![m, n]⟩ : Shape).size 1)) : h.lift (ix1 v) k = ix2 v (⟨k.val, k.isLt⟩ : Fin n) := by
  funext c; apply Fin.ext
  fin_cases c <;> rfl

/-- The reduction with a maximum body over the columns, at row `v`: the fold of `max` from the initial scalar over
    the entries of that row. -/
theorem hostReduce_max_cols {m n : Nat} {u : Shape} (x : FVec Ideal ⟨2, ![m, n]⟩ .f32) (init : FVec Ideal u .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (v : Fin m) :
    Host.reduce FloatOps.maximumf x init h' hu (ix1 v)
      = (Finset.univ : Finset (Fin n)).fold max (init (Shape.Idx.first hu)) (fun c => x (ix2 v c)) := by
  rw [Host.reduce_eq_fold_single FloatOps.maximumf x _ h' h hu]
  have hf : (x ∘ h.lift (ix1 v)) = fun k : Fin n => x (ix2 v k) := funext fun k => congrArg x (lift_cols h v k)
  exact congrArg (fun f => Finset.fold max (init (Shape.Idx.first hu)) f (Finset.univ : Finset (Fin n))) hf

end Cert.ReferenceIdeal.RefValue

end
-- ==== Proof.RefStages.lean ====
/-
  The host-only program's stages, read entry by entry.

  Each statement takes one stage of the two-layer graph convolution as the host-only program writes it and says what it
  holds at a row `v` (or an edge `e`) and a column `c`, in terms of the stage before it:
    * the first product: entry (v, c) of x · W1 is the sum over k of x (v, k) · W1 (k, c);
    * the edge weighting of each layer: a gathered row times the product of the two gathered scales of its edge;
    * the hidden layer: the sum over k of the positive part of (aggregate (v, k) + b1 k), times W2 (k, c);
    * the second layer's bias: aggregate (v, c) + b2 c;
    * the final normalisation: the logarithm of the softmax of each row, in its shifted form.
  Broadcasts only rename indices, so they vanish once the index they read is named by its coordinates.
-/
import proofs.«146948_j85598698209491_2_alg».proof.Proof.RefRead
import proofs.«146948_j85598698209491_2_alg».proof.Proof.Spec
import proofs.«146948_j85598698209491_2_alg».proof.Proof.RefStagesReduce
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S200000x128, .f32⟩ : BufTy).Contents (Elt Ideal)) (x1 : (⟨S2x6400000, .i32⟩ : BufTy).Contents (Elt Ideal)) (x2 : (⟨S128x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal))

/-- The first product: entry (v, c) is the sum over k of x (v, k) · W1 (k, c). -/
theorem ref_v7_apply (v : Fin 200000) (c : Fin 16) :
    val_main_v7 (F := Ideal) x0 x2 (ix2 v c) = ∑ k : Fin 128, x0 (ix2 v k) * x2 (ix2 k c) := by
  rw [val_main_v7_apply]
  refine Finset.sum_congr rfl fun k _ => ?_
  have el : lidx_main_v7 (ix2 v c) k = ix2 v k :=
    funext fun a => Fin.ext (by match a with | ⟨0, _⟩ => rfl | ⟨1, _⟩ => rfl)
  have er : ridx_main_v7 (ix2 v c) k = ix2 k c :=
    funext fun a => Fin.ext (by match a with | ⟨0, _⟩ => rfl | ⟨1, _⟩ => rfl)
  rw [el, er]

/-- The second layer's bias: entry (v, c) is the aggregate there plus b2 c. -/
theorem ref_v87_apply (v : Fin 200000) (c : Fin 40) :
    val_main_v87 (F := Ideal) x0 x1 x2 x3 x4 x5 (ix2 v c) = val_main_v84 (F := Ideal) x0 x1 x2 x3 x4 (ix2 v c) + x5 (ix1 c) := by
  have e : idx_main_v85 (idx_main_v86 (ix2 v c)) = ix1 c :=
    funext fun a => Fin.ext (by match a with | ⟨0, _⟩ => rfl)
  rw [val_main_v87_apply, val_main_v86_apply, val_main_v85_apply, e, Ideal.addf_def]

/-- The first layer's edge weighting: the gathered row's entry times the product of the edge's two gathered scales. -/
theorem ref_v40_apply (e : Fin 6600000) (c : Fin 16) :
    val_main_v40 (F := Ideal) x0 x1 x2 (ix2 e c) = val_main_v37 (F := Ideal) x0 x1 x2 (ix2 e c) * (val_main_v22 (F := Ideal) x1 (ix1 e) * val_main_v29 (F := Ideal) x1 (ix1 e)) := by
  have h : idx_main_v38 (idx_main_v39 (ix2 e c)) = ix1 e :=
    funext fun a => Fin.ext (by match a with | ⟨0, _⟩ => rfl)
  rw [val_main_v40_apply, val_main_v39_apply, val_main_v38_apply, h, val_main_v30_apply, Ideal.mulf_def, Ideal.mulf_def]

/-- The second layer's edge weighting, the same with 40 columns. -/
theorem ref_v81_apply (e : Fin 6600000) (c : Fin 40) :
    val_main_v81 (F := Ideal) x0 x1 x2 x3 x4 (ix2 e c) = val_main_v78 (F := Ideal) x0 x1 x2 x3 x4 (ix2 e c) * (val_main_v63 (F := Ideal) x1 (ix1 e) * val_main_v70 (F := Ideal) x1 (ix1 e)) := by
  have h : idx_main_v79 (idx_main_v80 (ix2 e c)) = ix1 e :=
    funext fun a => Fin.ext (by match a with | ⟨0, _⟩ => rfl)
  rw [val_main_v81_apply, val_main_v80_apply, val_main_v79_apply, h, val_main_v71_apply, Ideal.mulf_def, Ideal.mulf_def]

/-- The hidden layer: entry (v, c) is the sum over k of max (aggregate (v, k) + b1 k, 0) · W2 (k, c). -/
theorem ref_v48_apply (v : Fin 200000) (c : Fin 40) :
    val_main_v48 (F := Ideal) x0 x1 x2 x3 x4 (ix2 v c) = ∑ k : Fin 16, max (val_main_v43 (F := Ideal) x0 x1 x2 (ix2 v k) + x3 (ix1 k)) 0 * x4 (ix2 k c) := by
  rw [val_main_v48_apply]
  refine Finset.sum_congr rfl fun k _ => ?_
  have el : lidx_main_v48 (ix2 v c) k = ix2 v k :=
    funext fun a => Fin.ext (by match a with | ⟨0, _⟩ => rfl | ⟨1, _⟩ => rfl)
  have er : ridx_main_v48 (ix2 v c) k = ix2 k c :=
    funext fun a => Fin.ext (by match a with | ⟨0, _⟩ => rfl | ⟨1, _⟩ => rfl)
  have eb : idx_main_v44 (idx_main_v45 (ix2 v k)) = ix1 k :=
    funext fun a => Fin.ext (by match a with | ⟨0, _⟩ => rfl)
  rw [el, er, val_main_v47_apply, val_main_call1_v0_apply, val_main_call1_cst_apply, val_main_v46_apply,
    val_main_v45_apply, val_main_v44_apply, eb, Ideal.maximumf_def, Ideal.addf_def, Ideal.ofBits_def,
    Ideal.ofBits_zero_f32]

/-- The row maximum as the host-only program computes it — a maximum reduction over the columns started from −∞,
    joined once more with a row of −∞ — is the fold of `max` from the bottom element over the row. -/
theorem ref_rowMax (v : Fin 200000) :
    val_main_call3_v2 (F := Ideal) x0 x1 x2 x3 x4 x5 (ix1 v) = Cert.Gcn.rowMax (val_main_v87 (F := Ideal) x0 x1 x2 x3 x4 x5) v := by
  rw [val_main_call3_v2_apply, val_main_call3_v1_apply, val_main_call3_cst_0_apply, Ideal.maximumf_def, Ideal.ofBits_def,
    ofBits_negInf]
  unfold val_main_call3_v0
  rw [hostReduce_max_cols (m := 200000) (n := 40) (u := S_) (val_main_v87 (F := Ideal) x0 x1 x2 x3 x4 x5) (val_main_call3_cst (F := Ideal))
    reducesTo_S200000x40_S200000_d1 (by decide) h_S_ v, val_main_call3_cst_apply, Ideal.ofBits_def, ofBits_negInf]
  exact max_bot_left _

/-- The shifted row: entry (v, c) minus the row's largest entry. -/
theorem ref_shifted (v : Fin 200000) (c : Fin 40) :
    val_main_call3_v5 (F := Ideal) x0 x1 x2 x3 x4 x5 (ix2 v c)
      = val_main_v87 (F := Ideal) x0 x1 x2 x3 x4 x5 (ix2 v c) - Cert.Gcn.rowMax (val_main_v87 (F := Ideal) x0 x1 x2 x3 x4 x5) v := by
  have e : idx_main_call3_v3 (idx_main_call3_v4 (ix2 v c)) = ix1 v :=
    funext fun a => Fin.ext (by match a with | ⟨0, _⟩ => rfl)
  rw [val_main_call3_v5_apply, val_main_call3_v4_apply, val_main_call3_v3_apply, e, ref_rowMax, Ideal.subf_def]

/-- The row sum of the exponentials of the shifted row; the reduction starts from zero, which adds nothing. -/
theorem ref_expSum (v : Fin 200000) :
    val_main_call3_v7 (F := Ideal) x0 x1 x2 x3 x4 x5 (ix1 v)
      = ∑ c : Fin 40, Ideal.exp (val_main_v87 (F := Ideal) x0 x1 x2 x3 x4 x5 (ix2 v c) - Cert.Gcn.rowMax (val_main_v87 (F := Ideal) x0 x1 x2 x3 x4 x5) v) := by
  rw [val_main_call3_v7_apply, val_main_call3_cst_1_apply, Ideal.ofBits_def, Ideal.ofBits_zero_f32, zero_add]
  refine Finset.sum_congr rfl fun k _ => ?_
  have e : idx_main_call3_v7 (ix1 v) k = ix2 v k :=
    funext fun a => Fin.ext (by match a with | ⟨0, _⟩ => rfl | ⟨1, _⟩ => rfl)
  rw [e, val_main_call3_v6_apply, ref_shifted, Ideal.hostUnary_exp_def]

/-- The final stage is the logarithm of the softmax of each row of the stage before it, in the shifted form:
    (z (v, c) − m) − log (∑ c', exp (z (v, c') − m)) with m the row's largest entry. -/
theorem ref_logSoftmax :
    val_main_v88 (F := Ideal) x0 x1 x2 x3 x4 x5 = Cert.Gcn.logSoftmax (val_main_v87 (F := Ideal) x0 x1 x2 x3 x4 x5) := by
  funext i
  obtain ⟨v, c, rfl⟩ : ∃ (v : Fin 200000) (c : Fin 40), i = ix2 v c := ⟨i 0, i 1, eq_ix2 i⟩
  have e : idx_main_call3_v8 (idx_main_call3_v10 (ix2 v c)) = ix1 v :=
    funext fun a => Fin.ext (by match a with | ⟨0, _⟩ => rfl)
  rw [val_main_v88_apply, val_main_call3_v10_apply, val_main_call3_v9_apply, val_main_call3_v8_apply, e, ref_expSum,
    ref_shifted, Ideal.subf_def, Ideal.hostUnary_log_def]
  rfl

end Cert.ReferenceIdeal.RefValue

end
-- ==== Proof.LibGatherVec.lean ====
/-
  A gather of single entries of a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- The dimension numbers of a gather of single entries of a vector: operand `[N]`, start indices `[E, 1]` (one
    position per result entry), result `[E]`; the operand's one axis collapsed, so the result has no offset axis. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e` is the vector at the position that is the start index of result entry `e`, read signed
    and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  -- the operand has one axis, so there is one coordinate to compare
  obtain rfl : a = 0 := Subsingleton.elim _ _
  refine Fin.ext ?_
  show (vecGather N E wf).start (ix1 e) idx 0 + (vecGather N E wf).batchCoord (ix1 e) 0
    + (vecGather N E wf).offCoord (ix1 e) 0 = _
  -- no batching axis, and the one axis is collapsed: only the clamped start remains
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  -- the start index of result entry `e` is read at row `e`, column `0` of the index column
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVec

end
-- ==== Proof.LibScatterVec.lean ====
/-
  A float scatter-add of single entries into a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- A vector's index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: operand `[N]`, scatter indices `[E, 1]` (one
    position per update entry), updates `[E]`; the operand's one axis inserted, so the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update entry `e` starts at the position of update entry `e`, read signed. -/
theorem vecScatter_start :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window : (vecScatter N E wf).window (ix1 e) 0 = 0 := by
  unfold ScatterDims.window
  rw [dif_neg (show ¬ ((0 : Fin 1) ∈ (vecScatter N E wf).sKept) from
    (show ¬ ((0 : Fin 1) ∈ (List.finRange 1).filter (fun a => a ∉ ([0] : List (Fin 1)))) from by decide))]

end Coordinates

/-- Update entry `e` lands at operand entry `n` exactly when the position of update entry `e`, read signed and not
    clamped, is `n`. -/
theorem vecScatter_resultIdx_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  have hs := vecScatter_start wf idx e
  have hw := vecScatter_window wf e
  have hn := n.isLt
  unfold ScatterDims.resultIdx?
  constructor
  · intro h
    split at h
    · rename_i hin
      have h' := Option.some.inj h
      have e0 : ((vecScatter N E wf).start (ix1 e) idx 0 + ((vecScatter N E wf).window (ix1 e) 0 : Nat)).toNat = n.val :=
        congrArg (fun f => (f 0).val) h'
      have p0 := (hin 0).1
      rw [hs, hw] at e0 p0
      omega
    · exact absurd h (by simp)
  · intro h1
    have hin : ∀ a, 0 ≤ (vecScatter N E wf).start (ix1 e) idx a + ((vecScatter N E wf).window (ix1 e) a : Nat)
        ∧ (vecScatter N E wf).start (ix1 e) idx a + ((vecScatter N E wf).window (ix1 e) a : Nat)
          < ((⟨1, ![N]⟩ : Shape).size a : Nat) := by
      intro a
      obtain rfl : a = 0 := Subsingleton.elim _ _
      show 0 ≤ (vecScatter N E wf).start (ix1 e) idx 0 + ((vecScatter N E wf).window (ix1 e) 0 : Nat)
        ∧ (vecScatter N E wf).start (ix1 e) idx 0 + ((vecScatter N E wf).window (ix1 e) 0 : Nat) < (N : Int)
      rw [hs, hw, h1]; omega
    rw [dif_pos hin]
    congr 1
    funext a
    obtain rfl : a = 0 := Subsingleton.elim _ _
    refine Fin.ext ?_
    show ((vecScatter N E wf).start (ix1 e) idx 0 + ((vecScatter N E wf).window (ix1 e) 0 : Nat)).toNat = n.val
    rw [hs, hw, h1]; omega

/-- At the ideal instance the scatter-add of single entries read at `n` is the operand's entry plus the sum, over the
    update entries whose position (read signed, not clamped) is `n`, of the update's entry; an update entry whose
    position is outside `[0, N)` lands nowhere. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  change x (ix1 n) + _ = _
  congr 1
  rw [Finset.sum_filter, sum_idx1]
  refine Finset.sum_congr rfl fun e _ => ?_
  simp only [vecScatter_resultIdx_eq_some_iff]

end Cert.LibVec

end
-- ==== Proof.ScaleReal.lean ====
/-
  The reference's per-node scale is a real number at every node, and its two gathers along the edges read it at the
  edge's endpoint.

  The scale of node `v` is built in four steps: the in-degree of `v` (a scatter-add of ones into zeros at the edge
  targets, self-loops included), the test "in-degree > 0", the inverse square root of the in-degree, and the choice of
  that inverse square root where the test holds and of `0` elsewhere. The in-degree is a finite sum of ones and
  zeros, a real number; where it is positive its inverse square root is finite, and elsewhere the choice is `0`.
-/
import proofs.«146948_j85598698209491_2_alg».proof.Proof.RefRead
import proofs.«146948_j85598698209491_2_alg».proof.Proof.LibGatherVec
import proofs.«146948_j85598698209491_2_alg».proof.Proof.LibScatterVec
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Arithmetic -/

/-- The single-precision word of `1.0` denotes `1`. -/
theorem ofBits_one_f32 : Ideal.ofBits .f32 0x3F800000#32 = 1 := by
  simp [Ideal.ofBits, Ideal.ieee, -EReal.coe_mul]; norm_num

/-- A finite sum of real numbers, each read as an extended real, is their real sum read as an extended real. -/
theorem sum_coe_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The inverse square root of a real degree, kept only where the degree is positive and replaced by `0` elsewhere,
    is a real number: where the degree is positive its inverse square root is finite, and elsewhere the value is `0`. -/
theorem select_rsqrt_real (r : ℝ) :
    ∃ q : ℝ, Scalar.select (Ideal.cmp .ogt (r : EReal) 0) (Ideal.rsqrt (r : EReal)) (0 : EReal) = (q : EReal) := by
  by_cases h : 0 < r
  · refine ⟨(Real.sqrt r)⁻¹, ?_⟩
    have hc : Ideal.cmp .ogt (r : EReal) 0 = 1 := by
      simp [Ideal.cmp, h]
    rw [hc]
    simp [Scalar.select, Ideal.rsqrt_coe, not_lt.mpr h.le, h.ne']
  · refine ⟨0, ?_⟩
    have hc : Ideal.cmp .ogt (r : EReal) 0 = 0 := by
      simp [Ideal.cmp, h]
    rw [hc]
    simp [Scalar.select]

/-! ## The program's two index records are the general ones -/

/-- The scatter that builds the in-degree has the dimension numbers of a scatter of single entries into a vector. -/
theorem scatter_vec_eq :
    scatter_S200000_S6600000x1_S6600000_n_0_0_1
      = Cert.LibVec.vecScatter 200000 6600000 Facts₀.scatter_S200000_S6600000x1_S6600000_n_0_0_1_wf := rfl

/-- The gathers of the scale have the dimension numbers of a gather of single entries of a vector. -/
theorem gather_vec_eq :
    gather_S200000_S6600000x1_S6600000_n_0_n_n_0_1_1
      = Cert.LibVec.vecGather 200000 6600000 Facts₀.gather_S200000_S6600000x1_S6600000_n_0_n_n_0_1_1_wf := rfl

variable (x1 : (⟨S2x6400000, .i32⟩ : BufTy).Contents (Elt Ideal))

/-! ## The in-degree -/

/-- The in-degree of node `v`: the number of edges (self-loops included) whose target, read signed, is `v`. -/
def inDegree (v : Fin 200000) : ℝ :=
  ∑ e : Fin 6600000, if ((val_main_v10 (F := Ideal) x1) (ix2 e (0 : Fin 1))).toInt = (v.val : Int) then (1 : ℝ) else 0

/-- The scatter-add of ones into zeros at the edge targets, read at node `v`, is the in-degree of `v`. -/
theorem ref_v11_apply (v : Fin 200000) :
    val_main_v11 (F := Ideal) x1 (ix1 v) = ((inDegree x1 v : ℝ) : EReal) := by
  unfold val_main_v11 inDegree
  rw [scatter_vec_eq, Cert.LibVec.scatterAdd_vec_apply]
  rw [val_main_v9_apply, val_main_cst_0_apply, Ideal.ofBits_def, Ideal.ofBits_zero_f32, zero_add, ← sum_coe_real]
  refine Finset.sum_congr rfl fun e _ => ?_
  rw [val_main_v8_apply, val_main_cst_apply, Ideal.ofBits_def, ofBits_one_f32]
  split <;> simp

/-! ## The scale -/

/-- The scale of every node is a real number. -/
theorem scale_real (v : Fin 200000) : ∃ r : ℝ, val_main_v15 (F := Ideal) x1 (ix1 v) = (r : EReal) := by
  rw [val_main_v15_apply, val_main_v13_apply, val_main_v14_apply, ref_v11_apply, val_main_v12_apply,
    val_main_cst_1_apply, val_main_call0_v1_apply, val_main_call0_v0_apply, val_main_cst_2_apply]
  simp only [Ideal.ofBits_def, Ideal.ofBits_zero_f32, Ideal.hostUnary_rsqrt_def, Ideal.cmpf_def]
  exact select_rsqrt_real _

/-! ## The two gathers of the scale along the edges -/

/-- The first gather of the scale read at edge `e`: the scale at the position in row `e` of its index column, read
    signed and clamped into `[0, 200000 − 1]`. -/
theorem ref_v22_apply (e : Fin 6600000) :
    val_main_v22 (F := Ideal) x1 (ix1 e)
      = val_main_v15 (F := Ideal) x1 (ix1 (⟨min ((val_main_v21 (F := Ideal) x1) (ix2 e (0 : Fin 1))).toInt.toNat (200000 - 1),
          by omega⟩ : Fin 200000)) := by
  unfold val_main_v22
  rw [gather_vec_eq]
  exact Cert.LibVec.gather_vec_apply (by norm_num) _ _ _ e

/-- The second gather of the scale read at edge `e`, likewise at its own index column. -/
theorem ref_v29_apply (e : Fin 6600000) :
    val_main_v29 (F := Ideal) x1 (ix1 e)
      = val_main_v15 (F := Ideal) x1 (ix1 (⟨min ((val_main_v28 (F := Ideal) x1) (ix2 e (0 : Fin 1))).toInt.toNat (200000 - 1),
          by omega⟩ : Fin 200000)) := by
  unfold val_main_v29
  rw [gather_vec_eq]
  exact Cert.LibVec.gather_vec_apply (by norm_num) _ _ _ e

end Cert.ReferenceIdeal.RefValue

end
-- ==== Proof.LayerLaw.lean ====
/-
  Moving a scale across a neighbourhood sum.

  A node `v` collects the terms `a e` of the edges `e` that land on it. Scaling the collected sum by `dv` is the same as
  collecting the scaled terms — for REAL terms and a REAL scale: on the extended reals the product does not distribute
  over a sum in general (`(⊤ + ⊥) · x` against `⊤ · x + ⊥ · x`), so the statement asks that every term and the scale be
  real numbers, and the proof computes in `ℝ`.
-/
import Mathlib.Data.EReal.Basic
import Mathlib.Data.EReal.Operations
import Mathlib.Data.EReal.Inv
import Mathlib.Algebra.BigOperators.Ring.Finset

open scoped BigOperators

namespace Cert.Gcn

/-- A finite sum of real numbers, each read as an extended real, is the real sum read as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- A finite sum of extended reals that are all real numbers is a real number. -/
theorem sum_real {ι : Type} (s : Finset ι) (f : ι → EReal) (hf : ∀ i, ∃ r : ℝ, f i = (r : EReal)) :
    ∃ r : ℝ, (∑ i ∈ s, f i) = (r : EReal) := by
  choose g hg using hf
  exact ⟨∑ i ∈ s, g i, by rw [← coe_sum]; exact Finset.sum_congr rfl fun i _ => hg i⟩

/-- The sum over the edges landing on `v` of real terms is a real number. -/
theorem landing_sum_real {E : ℕ} (t : Fin E → ℤ) (v : ℤ) (a : Fin E → EReal) (ha : ∀ e, ∃ r : ℝ, a e = (r : EReal)) :
    ∃ r : ℝ, ((0 : EReal) + ∑ e : Fin E, if t e = v then a e else 0) = (r : EReal) := by
  obtain ⟨r, hr⟩ := sum_real Finset.univ (fun e => if t e = v then a e else 0) (fun e => by
    by_cases h : t e = v
    · simpa [h] using ha e
    · exact ⟨0, by simp [h]⟩)
  exact ⟨r, by rw [zero_add]; exact hr⟩

/-- Scaling what node `v` collected is collecting the scaled terms: `t e` is the node edge `e` lands on, `a e` the
    (real) term it carries, `dv` the (real) scale of `v`, and `b e` any family that on the edges landing on `v` is
    `a e · dv`. -/
theorem scale_landing_sum {E : ℕ} (t : Fin E → ℤ) (v : ℤ) (a b : Fin E → EReal) (dv : EReal)
    (ha : ∀ e, ∃ r : ℝ, a e = (r : EReal)) (hdv : ∃ r : ℝ, dv = (r : EReal))
    (hb : ∀ e, t e = v → b e = a e * dv) :
    ((0 : EReal) + ∑ e : Fin E, if t e = v then a e else 0) * dv = (0 : EReal) + ∑ e : Fin E, if t e = v then b e else 0 := by
  choose ra hra using ha
  obtain ⟨rd, rfl⟩ := hdv
  rw [zero_add, zero_add]
  have hl : (∑ e : Fin E, if t e = v then a e else 0) = ((∑ e : Fin E, if t e = v then ra e else 0 : ℝ) : EReal) := by
    rw [← coe_sum]
    refine Finset.sum_congr rfl fun e _ => ?_
    by_cases h : t e = v
    · simp only [h, if_true]; exact hra e
    · simp only [h, if_false]; rfl
  have hr : (∑ e : Fin E, if t e = v then b e else 0) = ((∑ e : Fin E, if t e = v then ra e * rd else 0 : ℝ) : EReal) := by
    rw [← coe_sum]
    refine Finset.sum_congr rfl fun e _ => ?_
    by_cases h : t e = v
    · simp only [h, if_true]; rw [hb e h, hra e, EReal.coe_mul]
    · simp only [h, if_false]; rfl
  rw [hl, hr, ← EReal.coe_mul, Finset.sum_mul]
  refine congrArg _ (Finset.sum_congr rfl fun e _ => ?_)
  by_cases h : t e = v
  · simp only [h, if_true]
  · simp only [h, if_false, zero_mul]

end Cert.Gcn
-- ==== Proof.Reals.lean ====
/-
  Extended reals that are real numbers: the closure facts the two layers need. A product, a sum, a positive part and a
  finite sum of real numbers are real numbers; so every intermediate table of the network is real-valued once its
  inputs are, which is what lets a scale be moved across a neighbourhood sum.
-/
import proofs.«146948_j85598698209491_2_alg».proof.Proof.LayerLaw

open scoped BigOperators

namespace Cert.Gcn

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The positive part of a real number is a real number. -/
theorem IsReal.max_zero {x : EReal} (hx : IsReal x) : IsReal (max x 0) := by
  obtain ⟨a, rfl⟩ := hx
  rcases le_total (a : EReal) 0 with h | h
  · rw [max_eq_right h]; exact IsReal.zero
  · rw [max_eq_left h]; exact ⟨a, rfl⟩

theorem IsReal.sum {ι : Type} (s : Finset ι) (f : ι → EReal) (hf : ∀ i, IsReal (f i)) : IsReal (∑ i ∈ s, f i) :=
  sum_real s f hf

/-- What a node collects from the edges landing on it is a real number when every edge's term is. -/
theorem IsReal.landing {E : ℕ} (t : Fin E → ℤ) (v : ℤ) (a : Fin E → EReal) (ha : ∀ e, IsReal (a e)) :
    IsReal ((0 : EReal) + ∑ e : Fin E, if t e = v then a e else 0) :=
  landing_sum_real t v a ha

/-- One layer of the graph convolution, entry by entry. Node `v` collects, over the edges `e` landing on it (`t e = v`),
    the feature `h (s e)` of the edge's source. Whether each collected term is scaled by the source's scale and the sum
    then by `v`'s own (the left side), or each term by the product of the source's scale and the scale of the edge's
    clamped target `dn e` (the right side), the result is the same — given real features and scales, and that an
    edge landing on `v` has clamped target `v`. -/
theorem layer_entry {E N : ℕ} (t : Fin E → ℤ) (s dn : Fin E → Fin N) (h d : Fin N → EReal) (v : Fin N)
    (hh : ∀ u, IsReal (h u)) (hd : ∀ u, IsReal (d u)) (hdn : ∀ e, t e = (v.val : ℤ) → dn e = v) :
    ((0 : EReal) + ∑ e : Fin E, if t e = (v.val : ℤ) then h (s e) * d (s e) else 0) * d v
      = (0 : EReal) + ∑ e : Fin E, if t e = (v.val : ℤ) then h (s e) * (d (s e) * d (dn e)) else 0 :=
  scale_landing_sum t (v.val : ℤ) (fun e => h (s e) * d (s e)) (fun e => h (s e) * (d (s e) * d (dn e))) (d v)
    (fun e => (hh (s e)).mul (hd (s e))) (hd v) (fun e he => by rw [hdn e he]; exact (mul_assoc (h (s e)) (d (s e)) (d v)).symm)

end Cert.Gcn
-- ==== Proof.RefLayer.lean ====
/-
  The reference's two aggregation layers, read at an entry.

  Each layer sends, along every edge, the source node's row of a table, multiplied by the product of the scales of
  the edge's two endpoints, and adds it into the row of the edge's target node. Read at node `v` and column `c` this is
  the sum, over the edges that land on `v`, of the source row's entry in column `c` times that product.

  The program computes the columns of edge endpoints and the scale several times over; the repeats are the same
  operations applied to the same operands, so they are equal to the first ones, whatever the float arithmetic is.
-/
import proofs.«146948_j85598698209491_2_alg».proof.Proof.RefRead
import proofs.«146948_j85598698209491_2_alg».proof.Proof.RefStages
import proofs.«146948_j85598698209491_2_alg».proof.Proof.ScaleReal
import proofs.«146948_j85598698209491_2_alg».proof.Proof.LibGatherRows
import proofs.«146948_j85598698209491_2_alg».proof.Proof.LibScatterRows
import Idealize.ShloMosaic.PureOps.Ideal
import Idealize.ShloMosaic.PureOps.Ideal.Laws
import Idealize.ShloMosaic.Lib.ValueIdx
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The repeated columns and the repeated scale are the first ones

Stated for any float arithmetic: each side unfolds to the same operations of the same operands. -/

section Repeats
variable {F : FTy → Type} [FloatOps F] (x1 : (⟨S2x6400000, .i32⟩ : BufTy).Contents (Elt F))

/-- The raw targets as a column, second copy. -/
theorem val_main_v42_eq : val_main_v42 (F := F) x1 = val_main_v10 (F := F) x1 := rfl
/-- The raw targets as a column, third copy. -/
theorem val_main_v51_eq : val_main_v51 (F := F) x1 = val_main_v10 (F := F) x1 := rfl
/-- The raw targets as a column, fourth copy. -/
theorem val_main_v83_eq : val_main_v83 (F := F) x1 = val_main_v10 (F := F) x1 := rfl

/-- The normalized sources as a column, second copy. -/
theorem val_main_v36_eq : val_main_v36 (F := F) x1 = val_main_v21 (F := F) x1 := rfl
/-- The normalized sources as a column, third copy. -/
theorem val_main_v62_eq : val_main_v62 (F := F) x1 = val_main_v21 (F := F) x1 := rfl
/-- The normalized sources as a column, fourth copy. -/
theorem val_main_v77_eq : val_main_v77 (F := F) x1 = val_main_v21 (F := F) x1 := rfl

/-- The normalized targets as a column, second copy. -/
theorem val_main_v69_eq : val_main_v69 (F := F) x1 = val_main_v28 (F := F) x1 := rfl

/-- The scale, second copy: the same in-degree, test, inverse square root and choice. -/
theorem val_main_v56_eq : val_main_v56 (F := F) x1 = val_main_v15 (F := F) x1 := rfl

end Repeats

/-! ## The program's row records are the general ones -/

/-- The gather of rows of the 16-column table has the dimension numbers of a gather of whole rows. -/
theorem gather_rows16_eq :
    gather_S200000x16_S6600000x1_S6600000x16_1_0_n_n_0_1_116
      = Cert.LibRows.rowsGather 200000 16 6600000 Facts₀.gather_S200000x16_S6600000x1_S6600000x16_1_0_n_n_0_1_116_wf := rfl

/-- The gather of rows of the 40-column table likewise. -/
theorem gather_rows40_eq :
    gather_S200000x40_S6600000x1_S6600000x40_1_0_n_n_0_1_140
      = Cert.LibRows.rowsGather 200000 40 6600000 Facts₀.gather_S200000x40_S6600000x1_S6600000x40_1_0_n_n_0_1_140_wf := rfl

/-- The scatter of rows into the 16-column table has the dimension numbers of a scatter of whole rows. -/
theorem scatter_rows16_eq :
    scatter_S200000x16_S6600000x1_S6600000x16_1_0_0_1
      = Cert.LibRows.rowsScatter 200000 16 6600000 Facts₀.scatter_S200000x16_S6600000x1_S6600000x16_1_0_0_1_wf := rfl

/-- The scatter of rows into the 40-column table likewise. -/
theorem scatter_rows40_eq :
    scatter_S200000x40_S6600000x1_S6600000x40_1_0_0_1
      = Cert.LibRows.rowsScatter 200000 40 6600000 Facts₀.scatter_S200000x40_S6600000x1_S6600000x40_1_0_0_1_wf := rfl

variable (x0 : (⟨S200000x128, .f32⟩ : BufTy).Contents (Elt Ideal))
  (x1 : (⟨S2x6400000, .i32⟩ : BufTy).Contents (Elt Ideal))
  (x2 : (⟨S128x16, .f32⟩ : BufTy).Contents (Elt Ideal))
  (x3 : (⟨S16, .f32⟩ : BufTy).Contents (Elt Ideal))
  (x4 : (⟨S16x40, .f32⟩ : BufTy).Contents (Elt Ideal))

/-! ## The rows an edge reads and lands on -/

/-- The row an edge lands on: its raw target, read signed. -/
def tgt (e : Fin 6600000) : ℤ := ((val_main_v10 (F := Ideal) x1) (ix2 e (0 : Fin 1))).toInt

/-- The row an edge reads: its normalized source, read signed and clamped into `[0, 200000 − 1]`. -/
def srcRow (e : Fin 6600000) : Fin 200000 :=
  ⟨min ((val_main_v21 (F := Ideal) x1) (ix2 e (0 : Fin 1))).toInt.toNat (200000 - 1), by omega⟩

/-- The edge's normalized target, read signed and clamped into `[0, 200000 − 1]`. -/
def tgtRow (e : Fin 6600000) : Fin 200000 :=
  ⟨min ((val_main_v28 (F := Ideal) x1) (ix2 e (0 : Fin 1))).toInt.toNat (200000 - 1), by omega⟩

/-! ## The gathered scales -/

/-- First layer: the scale gathered at the edge's source. -/
theorem ref_v22_row (e : Fin 6600000) :
    val_main_v22 (F := Ideal) x1 (ix1 e) = val_main_v15 (F := Ideal) x1 (ix1 (srcRow x1 e)) := by
  unfold srcRow
  exact ref_v22_apply x1 e

/-- First layer: the scale gathered at the edge's target. -/
theorem ref_v29_row (e : Fin 6600000) :
    val_main_v29 (F := Ideal) x1 (ix1 e) = val_main_v15 (F := Ideal) x1 (ix1 (tgtRow x1 e)) := by
  unfold tgtRow
  exact ref_v29_apply x1 e

/-- Second layer: the scale gathered at the edge's source. -/
theorem ref_v63_row (e : Fin 6600000) :
    val_main_v63 (F := Ideal) x1 (ix1 e) = val_main_v15 (F := Ideal) x1 (ix1 (srcRow x1 e)) := by
  unfold val_main_v63 srcRow
  rw [val_main_v56_eq, val_main_v62_eq, gather_vec_eq]
  exact Cert.LibVec.gather_vec_apply (by norm_num) _ _ _ e

/-- Second layer: the scale gathered at the edge's target. -/
theorem ref_v70_row (e : Fin 6600000) :
    val_main_v70 (F := Ideal) x1 (ix1 e) = val_main_v15 (F := Ideal) x1 (ix1 (tgtRow x1 e)) := by
  unfold val_main_v70 tgtRow
  rw [val_main_v56_eq, val_main_v69_eq, gather_vec_eq]
  exact Cert.LibVec.gather_vec_apply (by norm_num) _ _ _ e

/-! ## The gathered rows -/

/-- First layer: the row gathered along edge `e` is the source node's row of the first product. -/
theorem ref_v37_apply (e : Fin 6600000) (c : Fin 16) :
    val_main_v37 (F := Ideal) x0 x1 x2 (ix2 e c) = val_main_v7 (F := Ideal) x0 x2 (ix2 (srcRow x1 e) c) := by
  unfold val_main_v37 srcRow
  rw [val_main_v36_eq, gather_rows16_eq]
  exact Cert.LibRows.gather_rows_apply (by norm_num) _ _ _ e c

/-- Second layer: the row gathered along edge `e` is the source node's row of the second product. -/
theorem ref_v78_apply (e : Fin 6600000) (c : Fin 40) :
    val_main_v78 (F := Ideal) x0 x1 x2 x3 x4 (ix2 e c)
      = val_main_v48 (F := Ideal) x0 x1 x2 x3 x4 (ix2 (srcRow x1 e) c) := by
  unfold val_main_v78 srcRow
  rw [val_main_v77_eq, gather_rows40_eq]
  exact Cert.LibRows.gather_rows_apply (by norm_num) _ _ _ e c

/-! ## The scatter-adds -/

/-- First layer: the aggregate at `(v, c)` is the sum of the scaled rows of the edges that land on `v`. -/
theorem ref_v43_apply (v : Fin 200000) (c : Fin 16) :
    val_main_v43 (F := Ideal) x0 x1 x2 (ix2 v c)
      = 0 + ∑ e : Fin 6600000, if tgt x1 e = (v.val : ℤ) then val_main_v40 (F := Ideal) x0 x1 x2 (ix2 e c) else 0 := by
  unfold val_main_v43 tgt
  rw [val_main_v42_eq, scatter_rows16_eq, Cert.LibRows.scatterAdd_rows_apply,
    val_main_v41_apply, val_main_cst_8_apply, Ideal.ofBits_def, Ideal.ofBits_zero_f32]

/-- Second layer: the aggregate at `(v, c)` is the sum of the scaled rows of the edges that land on `v`. -/
theorem ref_v84_apply (v : Fin 200000) (c : Fin 40) :
    val_main_v84 (F := Ideal) x0 x1 x2 x3 x4 (ix2 v c)
      = 0 + ∑ e : Fin 6600000, if tgt x1 e = (v.val : ℤ) then val_main_v81 (F := Ideal) x0 x1 x2 x3 x4 (ix2 e c) else 0 := by
  unfold val_main_v84 tgt
  rw [val_main_v83_eq, scatter_rows40_eq, Cert.LibRows.scatterAdd_rows_apply,
    val_main_v82_apply, val_main_cst_19_apply, Ideal.ofBits_def, Ideal.ofBits_zero_f32]

/-! ## The two layers -/

/-- The first layer at `(v, c)`: over the edges landing on `v`, the source row's entry times the two endpoints' scales. -/
theorem ref_layer1 (v : Fin 200000) (c : Fin 16) :
    val_main_v43 (F := Ideal) x0 x1 x2 (ix2 v c)
      = 0 + ∑ e : Fin 6600000, if tgt x1 e = (v.val : ℤ) then
          val_main_v7 (F := Ideal) x0 x2 (ix2 (srcRow x1 e) c)
            * (val_main_v15 (F := Ideal) x1 (ix1 (srcRow x1 e)) * val_main_v15 (F := Ideal) x1 (ix1 (tgtRow x1 e)))
        else 0 := by
  -- edge by edge: the scaled row is the gathered row times the two gathered scales, each read at its row
  have hterm : ∀ e : Fin 6600000,
      (if tgt x1 e = (v.val : ℤ) then val_main_v40 (F := Ideal) x0 x1 x2 (ix2 e c) else 0)
        = (if tgt x1 e = (v.val : ℤ) then
            val_main_v7 (F := Ideal) x0 x2 (ix2 (srcRow x1 e) c)
              * (val_main_v15 (F := Ideal) x1 (ix1 (srcRow x1 e)) * val_main_v15 (F := Ideal) x1 (ix1 (tgtRow x1 e)))
          else 0) := by
    intro e
    rw [ref_v40_apply x0 x1 x2 e c, ref_v37_apply, ref_v22_row, ref_v29_row]
  rw [ref_v43_apply]
  simp only [hterm]

/-- The second layer at `(v, c)`, likewise over the second product. -/
theorem ref_layer2 (v : Fin 200000) (c : Fin 40) :
    val_main_v84 (F := Ideal) x0 x1 x2 x3 x4 (ix2 v c)
      = 0 + ∑ e : Fin 6600000, if tgt x1 e = (v.val : ℤ) then
          val_main_v48 (F := Ideal) x0 x1 x2 x3 x4 (ix2 (srcRow x1 e) c)
            * (val_main_v15 (F := Ideal) x1 (ix1 (srcRow x1 e)) * val_main_v15 (F := Ideal) x1 (ix1 (tgtRow x1 e)))
        else 0 := by
  have hterm : ∀ e : Fin 6600000,
      (if tgt x1 e = (v.val : ℤ) then val_main_v81 (F := Ideal) x0 x1 x2 x3 x4 (ix2 e c) else 0)
        = (if tgt x1 e = (v.val : ℤ) then
            val_main_v48 (F := Ideal) x0 x1 x2 x3 x4 (ix2 (srcRow x1 e) c)
              * (val_main_v15 (F := Ideal) x1 (ix1 (srcRow x1 e)) * val_main_v15 (F := Ideal) x1 (ix1 (tgtRow x1 e)))
          else 0) := by
    intro e
    rw [ref_v81_apply x0 x1 x2 x3 x4 e c, ref_v78_apply, ref_v63_row, ref_v70_row]
  rw [ref_v84_apply]
  simp only [hterm]

/-! ## An edge that lands on a node has that node as its clamped normalized target -/

/-- A column made from a vector, read at row `e`, reads the vector at `e` (raw targets). -/
theorem idx_main_v10_col (e : Fin 6600000) : idx_main_v10 (ix2 e (0 : Fin 1)) = ix1 e := by
  funext a; match a with | ⟨0, _⟩ => rfl

/-- A column made from a vector, read at row `e`, reads the vector at `e` (normalized targets). -/
theorem idx_main_v28_col (e : Fin 6600000) : idx_main_v28 (ix2 e (0 : Fin 1)) = ix1 e := by
  funext a; match a with | ⟨0, _⟩ => rfl

/-- The normalized target adds `200000` to a negative raw target and keeps a nonnegative one. A raw target equal to
    a node number `v` is nonnegative and below `200000`, so it is kept, and clamping leaves it at `v`. -/
theorem landing_row (e : Fin 6600000) (v : Fin 200000) (h : tgt x1 e = (v.val : ℤ)) : tgtRow x1 e = v := by
  unfold tgt at h
  rw [val_main_v10_apply, idx_main_v10_col] at h
  have hv := v.isLt
  -- the raw target is nonnegative, so the test "raw target < 0" fails
  have hnot : ¬ (IntOp.cmpi .slt (val_main_v6 (F := Ideal) x1 (ix1 e)) 0#32 = 1) := by
    show ¬ (IntOp.cmpi .slt (val_main_v6 (F := Ideal) x1 (ix1 e)) 0#32 = 1#1)
    rw [IntOp.cmpi_slt, h]
    simp
  unfold tgtRow
  refine Fin.ext ?_
  show min ((val_main_v28 (F := Ideal) x1) (ix2 e (0 : Fin 1))).toInt.toNat (200000 - 1) = v.val
  rw [val_main_v28_apply, idx_main_v28_col, val_main_v27_apply, val_main_v24_apply, val_main_v23_apply,
    val_main_c_4_apply, Scalar.select, if_neg hnot, h]
  omega

end Cert.ReferenceIdeal.RefValue

end
-- ==== Proof.BridgeLayer1.lean ====
/-
  The first layer of the graph convolution, entry by entry: the tiled program's side against the plain program's side.

  At node `v` and column `k` the tiled program first scales each row of the product table by its node's scale, then adds
  the rows of the edges' sources over the edges that land on `v`, and finally multiplies the sum by `v`'s own scale.  The
  plain program multiplies each gathered entry by the product of the scales of the edge's two endpoints and then adds.
  Both read the edges' endpoints off the same columns and use the same scale, so the two sides differ only in where the
  factor `d v` stands: outside the sum or inside each term.  The entries and the scales are real numbers, so the factor
  moves across the finite sum; and an edge that lands on `v` has `v` as its clamped target, so inside the sum the factor
  is the scale of the edge's target.
-/
import proofs.«146948_j85598698209491_2_alg».proof.Proof.Reals
import proofs.«146948_j85598698209491_2_alg».proof.Proof.KernelFold
import proofs.«146948_j85598698209491_2_alg».proof.Proof.KernelAggregate
import proofs.«146948_j85598698209491_2_alg».proof.Proof.CrossProgram
import proofs.«146948_j85598698209491_2_alg».proof.Proof.RefLayer
import Idealize.ShloMosaic.Lib.ValueIdx

noncomputable section

open scoped BigOperators

namespace Cert.Bridge

open Idealize.ShloMosaic Idealize.ShloMosaic.ValueIdx
open Cert.KernelIdeal.FoldValue (aggregate16 scaleCol)
open Cert.ReferenceIdeal.Read (val_main_v7 val_main_v15 val_main_v43)

variable (x0 : (⟨Cert.ReferenceIdeal.S200000x128, .f32⟩ : BufTy).Contents (Elt Ideal))
  (x1 : (⟨Cert.ReferenceIdeal.S2x6400000, .i32⟩ : BufTy).Contents (Elt Ideal))
  (x2 : (⟨Cert.ReferenceIdeal.S128x16, .f32⟩ : BufTy).Contents (Elt Ideal))

/-- The node an edge lands on is read off the same column of targets in both programs. -/
theorem tgt_eq_layer1 : Cert.KernelIdeal.AggregateValue.tgt x1 = Cert.ReferenceIdeal.RefValue.tgt x1 := by
  funext e
  unfold Cert.KernelIdeal.AggregateValue.tgt Cert.ReferenceIdeal.RefValue.tgt
  rw [Cert.CrossProgram.dstCol_eq (F := Ideal) x1]

/-- The row an edge reads is read off the same column of sources in both programs. -/
theorem srcRow_eq_layer1 : Cert.KernelIdeal.AggregateValue.srcRow x1 = Cert.ReferenceIdeal.RefValue.srcRow x1 := by
  funext e
  unfold Cert.KernelIdeal.AggregateValue.srcRow Cert.ReferenceIdeal.RefValue.srcRow
  simp only [Cert.CrossProgram.srcCol_eq (F := Ideal) x1]

/-- Every entry of the first product is a real number when the features and the weights are: it is a finite sum of
    products of real numbers. -/
theorem v7_real (h0 : ∀ i, Cert.Gcn.IsReal (x0 i)) (h2 : ∀ i, Cert.Gcn.IsReal (x2 i)) (u : Fin 200000) (k : Fin 16) :
    Cert.Gcn.IsReal (val_main_v7 (F := Ideal) x0 x2 (ix2 u k)) := by
  rw [Cert.ReferenceIdeal.RefValue.ref_v7_apply]
  exact Cert.Gcn.IsReal.sum _ _ fun j => (h0 _).mul (h2 _)

/-- The first layer at node `v`, column `k`.  One side gathers rows of the table already scaled at the source, adds them
    over the edges landing on `v`, and scales the sum by `v`'s scale; the other scales each gathered entry by the product
    of the two endpoint scales before adding.  The two agree because the entries and the scales are real numbers, so the
    common factor moves across the finite sum, and an edge landing on `v` has `v` as its clamped target. -/
theorem layer1_entry (h0 : ∀ i, Cert.Gcn.IsReal (x0 i)) (h2 : ∀ i, Cert.Gcn.IsReal (x2 i))
    (tbl : (⟨Cert.ReferenceIdeal.S200000x16, .f32⟩ : BufTy).Contents (Elt Ideal))
    (htbl : ∀ (u : Fin 200000) (k : Fin 16),
      tbl (ix2 u k) = val_main_v7 (F := Ideal) x0 x2 (ix2 u k) * val_main_v15 (F := Ideal) x1 (ix1 u))
    (v : Fin 200000) (k : Fin 16) :
    aggregate16 (F := Ideal) x1 tbl (ix2 v k) * scaleCol (F := Ideal) x1 (ix2 v (0 : Fin 1))
      = val_main_v43 (F := Ideal) x0 x1 x2 (ix2 v k) := by
  rw [Cert.KernelIdeal.AggregateValue.aggregate16_apply, Cert.KernelIdeal.AggregateValue.scaleCol_apply,
    Cert.CrossProgram.scale_eq (F := Ideal) x1, Cert.ReferenceIdeal.RefValue.ref_layer1,
    tgt_eq_layer1, srcRow_eq_layer1]
  have hsum : (∑ e : Fin 6600000, if Cert.ReferenceIdeal.RefValue.tgt x1 e = (v.val : ℤ)
        then tbl (ix2 (Cert.ReferenceIdeal.RefValue.srcRow x1 e) k) else 0)
      = ∑ e : Fin 6600000, if Cert.ReferenceIdeal.RefValue.tgt x1 e = (v.val : ℤ)
        then val_main_v7 (F := Ideal) x0 x2 (ix2 (Cert.ReferenceIdeal.RefValue.srcRow x1 e) k)
          * val_main_v15 (F := Ideal) x1 (ix1 (Cert.ReferenceIdeal.RefValue.srcRow x1 e)) else 0 :=
    Finset.sum_congr rfl fun e _ => by rw [htbl]
  rw [hsum]
  exact Cert.Gcn.layer_entry (t := Cert.ReferenceIdeal.RefValue.tgt x1) (s := Cert.ReferenceIdeal.RefValue.srcRow x1)
    (dn := Cert.ReferenceIdeal.RefValue.tgtRow x1) (h := fun u => val_main_v7 (F := Ideal) x0 x2 (ix2 u k))
    (d := fun u => val_main_v15 (F := Ideal) x1 (ix1 u)) v (fun u => v7_real x0 x2 h0 h2 u k)
    (Cert.ReferenceIdeal.RefValue.scale_real x1) (fun e he => Cert.ReferenceIdeal.RefValue.landing_row x1 e v he)

end Cert.Bridge

end
-- ==== Proof.BridgeLayer2.lean ====
/-
  The second layer, entry by entry, on both sides.

  After the hidden layer each node holds a row of forty numbers. The tiled program multiplies node u's row by the scale
  of u, sends the scaled rows along the edges, adds them up at the target nodes, and multiplies the sum at node v by the
  scale of v. The host-only program sends the unscaled rows along the edges, multiplies each by the product of the
  scales of the edge's two endpoints, and adds the products up at the target nodes. The two agree at every entry
  because the scale of v can be taken inside the sum over the edges landing on v — every term there is a real number,
  and on such an edge the scale of the target is the scale of v. The real-valuedness is carried up from the inputs: the
  first product, the first aggregate and the hidden layer are real-valued when the features, the weights and the first
  bias are, and the scale is real-valued always.
-/
import proofs.«146948_j85598698209491_2_alg».proof.Proof.Reals
import proofs.«146948_j85598698209491_2_alg».proof.Proof.KernelFold
import proofs.«146948_j85598698209491_2_alg».proof.Proof.KernelAggregate
import proofs.«146948_j85598698209491_2_alg».proof.Proof.CrossProgram
import proofs.«146948_j85598698209491_2_alg».proof.Proof.RefLayer
import proofs.«146948_j85598698209491_2_alg».proof.Proof.RefStages
import proofs.«146948_j85598698209491_2_alg».proof.Proof.ScaleReal
import Idealize.ShloMosaic.Lib.ValueIdx

noncomputable section

namespace Cert.Bridge

open Cert.Gcn Cert.ReferenceIdeal Cert.ReferenceIdeal.Read Cert.ReferenceIdeal.RefValue
open Idealize.ShloMosaic Idealize.ShloMosaic.ValueIdx
open scoped BigOperators

variable (x0 : (⟨S200000x128, .f32⟩ : BufTy).Contents (Elt Ideal))
  (x1 : (⟨S2x6400000, .i32⟩ : BufTy).Contents (Elt Ideal))
  (x2 : (⟨S128x16, .f32⟩ : BufTy).Contents (Elt Ideal))
  (x3 : (⟨S16, .f32⟩ : BufTy).Contents (Elt Ideal))
  (x4 : (⟨S16x40, .f32⟩ : BufTy).Contents (Elt Ideal))

/-- Both programs read the row an edge lands on from the same column of raw targets. -/
private theorem tgt_eq2 : Cert.KernelIdeal.AggregateValue.tgt x1 = Cert.ReferenceIdeal.RefValue.tgt x1 := by
  funext e
  unfold Cert.KernelIdeal.AggregateValue.tgt Cert.ReferenceIdeal.RefValue.tgt
  rw [Cert.CrossProgram.dstCol_eq]

/-- Both programs read the row an edge carries from the same column of normalized sources, clamped the same way. -/
private theorem srcRow_eq2 : Cert.KernelIdeal.AggregateValue.srcRow x1 = Cert.ReferenceIdeal.RefValue.srcRow x1 :=
  funext fun e => Fin.ext (congrArg
    (fun col : (⟨S6600000x1, .i32⟩ : BufTy).Contents (Elt Ideal) => min (col (ix2 e (0 : Fin 1))).toInt.toNat (200000 - 1))
    (Cert.CrossProgram.srcCol_eq x1))

/-- The scale of a node is a real number: zero, or the inverse square root of a positive count. -/
private theorem scale_isReal (u : Fin 200000) : IsReal (val_main_v15 (F := Ideal) x1 (ix1 u)) := scale_real x1 u

/-- The first product is real-valued: a finite sum of products of real numbers. -/
private theorem v7_entry_real (h0 : ∀ i, IsReal (x0 i)) (h2 : ∀ i, IsReal (x2 i)) (u : Fin 200000) (k : Fin 16) :
    IsReal (val_main_v7 (F := Ideal) x0 x2 (ix2 u k)) := by
  rw [ref_v7_apply]
  exact IsReal.sum _ _ fun j => (h0 _).mul (h2 _)

/-- The first aggregate is real-valued: at each node, a finite sum over the edges landing there of a real entry of the
    first product times two real scales. -/
theorem v43_real (h0 : ∀ i, IsReal (x0 i)) (h2 : ∀ i, IsReal (x2 i)) (u : Fin 200000) (k : Fin 16) :
    IsReal (val_main_v43 (F := Ideal) x0 x1 x2 (ix2 u k)) := by
  rw [ref_layer1]
  exact IsReal.landing _ _ _ fun e =>
    (v7_entry_real x0 x2 h0 h2 _ _).mul ((scale_isReal x1 _).mul (scale_isReal x1 _))

/-- The hidden layer is real-valued: a finite sum of products of the positive part of a real number (an entry of the
    first aggregate plus a bias) with a real weight. -/
theorem v48_real (h0 : ∀ i, IsReal (x0 i)) (h2 : ∀ i, IsReal (x2 i)) (h3 : ∀ i, IsReal (x3 i)) (h4 : ∀ i, IsReal (x4 i))
    (u : Fin 200000) (c : Fin 40) :
    IsReal (val_main_v48 (F := Ideal) x0 x1 x2 x3 x4 (ix2 u c)) := by
  rw [ref_v48_apply]
  exact IsReal.sum _ _ fun k => (((v43_real x0 x1 x2 h0 h2 u k).add (h3 _)).max_zero).mul (h4 _)

/-- The second layer at entry `(v, c)`. If `tbl` holds the hidden layer with row `u` multiplied by the scale of `u`, then
    adding the rows of `tbl` along the edges into their targets and multiplying row `v` of the sum by the scale of `v`
    gives the host-only program's second aggregate: there each edge's term carries the scales of both its endpoints,
    and an edge that lands on `v` has `v` as its target. -/
theorem layer2_entry (h0 : ∀ i, IsReal (x0 i)) (h2 : ∀ i, IsReal (x2 i)) (h3 : ∀ i, IsReal (x3 i)) (h4 : ∀ i, IsReal (x4 i))
    (tbl : (⟨S200000x40, .f32⟩ : BufTy).Contents (Elt Ideal))
    (htbl : ∀ (u : Fin 200000) (c : Fin 40), tbl (ix2 u c)
      = val_main_v48 (F := Ideal) x0 x1 x2 x3 x4 (ix2 u c) * val_main_v15 (F := Ideal) x1 (ix1 u))
    (v : Fin 200000) (c : Fin 40) :
    Cert.KernelIdeal.FoldValue.aggregate40 (F := Ideal) x1 tbl (ix2 v c)
        * Cert.KernelIdeal.FoldValue.scaleCol (F := Ideal) x1 (ix2 v (0 : Fin 1))
      = val_main_v84 (F := Ideal) x0 x1 x2 x3 x4 (ix2 v c) := by
  rw [Cert.KernelIdeal.AggregateValue.aggregate40_apply, Cert.KernelIdeal.AggregateValue.scaleCol_apply,
    Cert.CrossProgram.scale_eq, ref_layer2, tgt_eq2, srcRow_eq2]
  simp only [htbl]
  exact Cert.Gcn.layer_entry (t := tgt x1) (s := srcRow x1) (dn := tgtRow x1)
    (h := fun u => val_main_v48 (F := Ideal) x0 x1 x2 x3 x4 (ix2 u c)) (d := fun u => val_main_v15 (F := Ideal) x1 (ix1 u)) v
    (fun u => v48_real x0 x1 x2 x3 x4 h0 h2 h3 h4 u c) (scale_isReal x1) (fun e he => landing_row x1 e v he)

end Cert.Bridge

end
-- ==== Proof.Bridge.lean ====
/-
  The kernel program's result is the reference program's, entry by entry, for real-valued inputs.

  Write `d` for the per-node scale, `A` for "gather rows at the sources, add them at the targets". The kernel computes
  `lsm (A ((max (A ((x·W1) ⊙ d) ⊙ d + b1) 0 · W2) ⊙ d) ⊙ d + b2)`, scaling rows before and after each aggregation; the reference
  scales every edge's row by the product of its two endpoint scales inside the aggregation. One layer at a time the two
  agree (the layer entries), so the hidden tables agree, so the tables the log-softmax is taken of agree.
-/
import proofs.«146948_j85598698209491_2_alg».proof.Proof.KernelValue
import proofs.«146948_j85598698209491_2_alg».proof.Proof.KernelAggregate
import proofs.«146948_j85598698209491_2_alg».proof.Proof.CrossProgram
import proofs.«146948_j85598698209491_2_alg».proof.Proof.RefStages
import proofs.«146948_j85598698209491_2_alg».proof.Proof.ScaleReal
import proofs.«146948_j85598698209491_2_alg».proof.Proof.BridgeLayer1
import proofs.«146948_j85598698209491_2_alg».proof.Proof.BridgeLayer2
import proofs.«146948_j85598698209491_2_alg».proof.Proof.Reals

set_option maxRecDepth 16384

noncomputable section

namespace Cert.Bridge

open Cert.KernelIdeal.FoldValue Cert.KernelIdeal.AggregateValue Cert.ReferenceIdeal.Read Cert.ReferenceIdeal.RefValue
open Idealize.ShloMosaic Idealize.ShloMosaic.ValueIdx Cert.Gcn
open scoped BigOperators

variable (x0 : (⟨Cert.ReferenceIdeal.S200000x128, .f32⟩ : BufTy).Contents (Elt Ideal))
  (x1 : (⟨Cert.ReferenceIdeal.S2x6400000, .i32⟩ : BufTy).Contents (Elt Ideal))
  (x2 : (⟨Cert.ReferenceIdeal.S128x16, .f32⟩ : BufTy).Contents (Elt Ideal))
  (x3 : (⟨Cert.ReferenceIdeal.S16, .f32⟩ : BufTy).Contents (Elt Ideal))
  (x4 : (⟨Cert.ReferenceIdeal.S16x40, .f32⟩ : BufTy).Contents (Elt Ideal))
  (x5 : (⟨Cert.ReferenceIdeal.S40, .f32⟩ : BufTy).Contents (Elt Ideal))

/-- The first stage's rows are the reference's product rows, each scaled by its node's scale. -/
theorem firstRows_entry (u : Fin 200000) (k : Fin 16) :
    scaledMatmul x0 x2 (scaleCol (F := Ideal) x1) (ix2 u k)
      = val_main_v7 (F := Ideal) x0 x2 (ix2 u k) * val_main_v15 (F := Ideal) x1 (ix1 u) := by
  rw [ref_v7_apply x0 x2 u k]
  show (∑ j : Fin 128, x0 (ix2 u j) * x2 (ix2 j k)) * scaleCol (F := Ideal) x1 (ix2 u (0 : Fin 1)) = _
  rw [scaleCol_apply x1 u, Cert.CrossProgram.scale_eq (F := Ideal) x1]

/-- The second stage's rows are the reference's hidden product rows, each scaled by its node's scale. -/
theorem secondRows_entry (h0 : ∀ i, IsReal (x0 i)) (h2 : ∀ i, IsReal (x2 i)) (u : Fin 200000) (c : Fin 40) :
    hiddenLayer (aggregate16 (F := Ideal) x1 (scaledMatmul x0 x2 (scaleCol (F := Ideal) x1))) (scaleCol (F := Ideal) x1)
        (shapeCast Cert.KernelIdeal.S1x16 x3 Cert.KernelIdeal.Gen.shapeCasts_S16_S1x16) x4 (ix2 u c)
      = val_main_v48 (F := Ideal) x0 x1 x2 x3 x4 (ix2 u c) * val_main_v15 (F := Ideal) x1 (ix1 u) := by
  rw [ref_v48_apply x0 x1 x2 x3 x4 u c]
  show (∑ k : Fin 16, max (aggregate16 (F := Ideal) x1 (scaledMatmul x0 x2 (scaleCol (F := Ideal) x1)) (ix2 u k)
        * scaleCol (F := Ideal) x1 (ix2 u (0 : Fin 1))
        + shapeCast Cert.KernelIdeal.S1x16 x3 Cert.KernelIdeal.Gen.shapeCasts_S16_S1x16 (ix2 (0 : Fin 1) k)) 0 * x4 (ix2 k c))
      * scaleCol (F := Ideal) x1 (ix2 u (0 : Fin 1)) = _
  rw [scaleCol_apply x1 u, Cert.CrossProgram.scale_eq (F := Ideal) x1]
  refine congrArg (· * val_main_v15 (F := Ideal) x1 (ix1 u)) (Finset.sum_congr rfl fun k _ => ?_)
  have hl := layer1_entry x0 x1 x2 h0 h2 (scaledMatmul x0 x2 (scaleCol (F := Ideal) x1)) (firstRows_entry x0 x1 x2) u k
  rw [scaleCol_apply x1 u, Cert.CrossProgram.scale_eq (F := Ideal) x1] at hl
  rw [hl, biasRow16_apply x3 k]

/-- The table whose rows' log-softmax the kernel takes is the table whose rows' log-softmax the reference takes. -/
theorem preSoftmax_eq (h0 : ∀ i, IsReal (x0 i)) (h2 : ∀ i, IsReal (x2 i)) (h3 : ∀ i, IsReal (x3 i)) (h4 : ∀ i, IsReal (x4 i)) :
    affineRows (aggregate40 (F := Ideal) x1
        (hiddenLayer (aggregate16 (F := Ideal) x1 (scaledMatmul x0 x2 (scaleCol (F := Ideal) x1))) (scaleCol (F := Ideal) x1)
          (shapeCast Cert.KernelIdeal.S1x16 x3 Cert.KernelIdeal.Gen.shapeCasts_S16_S1x16) x4))
        (scaleCol (F := Ideal) x1) (shapeCast Cert.KernelIdeal.S1x40 x5 Cert.KernelIdeal.Gen.shapeCasts_S40_S1x40)
      = val_main_v87 (F := Ideal) x0 x1 x2 x3 x4 x5 := by
  funext i
  obtain ⟨v, q, rfl⟩ : ∃ (v : Fin 200000) (q : Fin 40), i = ix2 v q := ⟨i 0, i 1, eq_ix2 i⟩
  rw [ref_v87_apply x0 x1 x2 x3 x4 x5 v q]
  show aggregate40 (F := Ideal) x1 _ (ix2 v q) * scaleCol (F := Ideal) x1 (ix2 v (0 : Fin 1))
      + shapeCast Cert.KernelIdeal.S1x40 x5 Cert.KernelIdeal.Gen.shapeCasts_S40_S1x40 (ix2 (0 : Fin 1) q) = _
  rw [layer2_entry x0 x1 x2 x3 x4 h0 h2 h3 h4 _ (secondRows_entry x0 x1 x2 x3 x4 h0 h2) v q, biasRow40_apply x5 q]

/-- The kernel's result is the reference's last stage. -/
theorem result_eq (h0 : ∀ i, IsReal (x0 i)) (h2 : ∀ i, IsReal (x2 i)) (h3 : ∀ i, IsReal (x3 i)) (h4 : ∀ i, IsReal (x4 i)) :
    logSoftmax (affineRows (aggregate40 (F := Ideal) x1
        (hiddenLayer (aggregate16 (F := Ideal) x1 (scaledMatmul x0 x2 (scaleCol (F := Ideal) x1))) (scaleCol (F := Ideal) x1)
          (shapeCast Cert.KernelIdeal.S1x16 x3 Cert.KernelIdeal.Gen.shapeCasts_S16_S1x16) x4))
        (scaleCol (F := Ideal) x1) (shapeCast Cert.KernelIdeal.S1x40 x5 Cert.KernelIdeal.Gen.shapeCasts_S40_S1x40))
      = val_main_v88 (F := Ideal) x0 x1 x2 x3 x4 x5 := by
  rw [ref_logSoftmax x0 x1 x2 x3 x4 x5, preSoftmax_eq x0 x1 x2 x3 x4 x5 h0 h2 h3 h4]

end Cert.Bridge

end
-- ==== Proof.FiniteInputs.lean ====
/-
  Every entry of the five floating-point argument arrays is a real number.

  The precondition is the conjunction, over the five float arguments, of "every entry a of the array
  satisfies |a| < +∞", each conjunct an and-reduction of the entrywise comparisons down to a single
  truth value. The conjunction being true makes each conjunct true; an and-reduction over all axes
  that is true had a true comparison at every entry; and over the extended reals, where |a| is
  max a (-a), the comparison max a (-a) < +∞ fails at both infinities (at +∞ the maximum is +∞, at -∞
  the negation is +∞) and so leaves exactly the reals. The integer argument is not constrained and
  is not mentioned.
-/
import proofs.«146948_j85598698209491_2_alg».proof.Defs
import proofs.«146948_j85598698209491_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.SL.Sem
open Cert.Pre_finite_inputs

/-- A rank-0 array has exactly one index. -/
instance : Subsingleton S_.Idx := ⟨fun a b => funext fun d => d.elim0⟩

/-- The f32 pattern with all exponent bits set and a zero significand denotes +∞. -/
theorem inf_pattern : Ideal.ofBits .f32 0x7F800000#32 = (⊤ : EReal) := by
  simp [Ideal.ofBits, Ideal.ieee]

/-- An extended real whose absolute value max a (-a) is strictly below +∞ is a real number:
    at +∞ the maximum is +∞ itself, and at -∞ its negation is +∞, so neither is below +∞. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- One entry of one array: if the comparison |x i| < +∞ came out true, x i is a real number. -/
theorem entry_real {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_pattern] at h'
  exact real_of_abs_lt_top _ h'

theorem args_real [hPre : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) := by
  have e := congrFun (hpre c) ValueIdx.ix0
  dsimp only [Cert.Pre_finite_inputs.fn, Cert.Pre_finite_inputs.fn_part1] at e
  -- the conjunction of the five tests, read at the one index of the rank-0 result
  obtain ⟨e0123, e5⟩ := IntOp.andi_eq_one.1 e
  obtain ⟨e012, e4⟩ := IntOp.andi_eq_one.1 e0123
  obtain ⟨e01, e3⟩ := IntOp.andi_eq_one.1 e012
  obtain ⟨e0, e2⟩ := IntOp.andi_eq_one.1 e01
  exact ⟨fun i => entry_real _ _ i (Host.reduce_andi_all _ _ _ _ _ e0 i),
    fun i => entry_real _ _ i (Host.reduce_andi_all _ _ _ _ _ e2 i),
    fun i => entry_real _ _ i (Host.reduce_andi_all _ _ _ _ _ e3 i),
    fun i => entry_real _ _ i (Host.reduce_andi_all _ _ _ _ _ e4 i),
    fun i => entry_real _ _ i (Host.reduce_andi_all _ _ _ _ _ e5 i)⟩

end Cert.FiniteInputs

end
-- ==== Proof.lean ====
/-
  A two-layer graph convolution with a log-softmax, as three tiled stages with host gathers and scatter-adds between
  them, against the same network written with host operations only: the two programs compute the same table of
  extended reals whenever the float inputs are finite.

  Both programs build from the edge list the same source and target rows (one self-loop per node appended), the same
  in-degrees and the same per-node scale `d` (the inverse square root of the degree). The reference scales every edge's
  row by `d(source) · d(target)` while it aggregates; the tiled program scales the rows of a table by `d` before the
  aggregation and the rows of the aggregate by `d` after it. An edge lands on the row its target names, so inside node `v`'s
  sum the target's scale is `d v` and can be taken out of the sum — for real numbers, which is where the finiteness of the
  inputs is used (on the extended reals a product does not distribute over a sum). Everything else is the same operation
  on both sides: the two matrix products as plain sums, the bias, the positive part, and the shifted form of the
  log-softmax with the row maximum taken from `-∞`.
  The frames of the two tiled programs are the generated ones; the reference's frame is its run with the result dropped.
  Nothing was rewritten when the tiled program was idealized, so the preservation claim is trivial.
-/
import proofs.«146948_j85598698209491_2_alg».proof.Defs
import proofs.«146948_j85598698209491_2_alg».proof.Proof.Gen.Kernel
import proofs.«146948_j85598698209491_2_alg».proof.Proof.Gen.Kernel.Frame
import proofs.«146948_j85598698209491_2_alg».proof.Proof.Gen.KernelIdeal
import proofs.«146948_j85598698209491_2_alg».proof.Proof.Gen.KernelIdeal.Frame
import proofs.«146948_j85598698209491_2_alg».proof.Proof.Gen.ReferenceIdeal
import proofs.«146948_j85598698209491_2_alg».proof.Proof.Gen.Pre_finite_inputs
import proofs.«146948_j85598698209491_2_alg».proof.Proof.KernelRun
import proofs.«146948_j85598698209491_2_alg».proof.Proof.KernelValue
import proofs.«146948_j85598698209491_2_alg».proof.Proof.RefRunValue
import proofs.«146948_j85598698209491_2_alg».proof.Proof.Bridge
import proofs.«146948_j85598698209491_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The word-level program runs, faults nowhere and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunValue.run m ρ)

/-- From memories that agree on the arguments both programs end with the same result table: the tiled program's
    result as one expression of its launch memory, the reference's as its last stage, and the two equal for real inputs. -/
theorem algebraic : Cert.algebraic_KernelIdeal_ReferenceIdeal := by
  intro m ρ m' ρ' hpre hagree
  refine ⟨fun c => Cert.KernelIdeal.FoldValue.resultRows m c, ?_, ?_⟩
  · exact (θ_run Cert.KernelIdeal.defs _ _).mono
      (fun r h c => ⟨(h c).1.trans (Cert.KernelIdeal.FoldValue.third_stage m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RunValue.run m' ρ')
    obtain ⟨a0, a1, a2, a3, a4, a5⟩ := hagree c
    obtain ⟨r0, r2, r3, r4, r5⟩ := Cert.FiniteInputs.args_real m hpre c
    rw [a0, a1, a2, a3, a4, a5]
    exact (Cert.Bridge.result_eq _ _ _ _ _ _ r0 r2 r3 r4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
